-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x512 : Shape := ⟨2, ![512, 512]⟩
abbrev S2048x512 : Shape := ⟨2, ![2048, 512]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩

abbrev nBuf : Space → Nat
  | .hbm => 15
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .bf16⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x1, .i32⟩
  | .hbm, ⟨9, _⟩ => ⟨S1x4096, .i32⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x1, .i32⟩
  | .local _ .vmem, ⟨9, _⟩ => ⟨S512x1, .i32⟩
  | .local _ .vmem, ⟨10, _⟩ => ⟨S1x2048, .i32⟩
  | .local _ .vmem, ⟨11, _⟩ => ⟨S1x2048, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v79 : BitVec 1 := Scalar.cmpi .eq arg1 c1_i32
  let v80 : BitVec 32 := Scalar.extui v79
  let c0_i32_43 : BitVec 32 := 0#32
  let v81 : BitVec 1 := Scalar.cmpi .ne v80 c0_i32_43
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  natLt_1_32 : 1 < 32
  reducesTo_S4096x1_S_d0_1 : S4096x1.ReducesTo [0, 1] S_
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x512.size a
  hwx0_1 : ∀ i : grid0.Coords, EltTy.bits .bf16 = 32 ∨ (Rect.block (s := S4096x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .i32 = 32 ∨ (Rect.block (s := S1x4096) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S512x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .i1⟩
  | .hbm, ⟨33, _⟩ => ⟨S4096x4096, .i1⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096, .f32⟩
  | .hbm, ⟨47, _⟩ => ⟨S4096x4096, .i32⟩
  | .hbm, ⟨48, _⟩ => ⟨S_, .i32⟩
  | .hbm, ⟨49, _⟩ => ⟨S4096, .i32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S4096x4096, .f32⟩
  | .hbm, ⟨57, _⟩ => ⟨S4096x4096, .i1⟩
  | .hbm, ⟨58, _⟩ => ⟨S4096x4096, .i1⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_call2_v0 : Ref sig .tc := ⟨.hbm, 67, rfl⟩
abbrev main_call2_v1 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_cst_14 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_16 : Ref sig .tc := ⟨.hbm, 83, rfl⟩
abbrev main_v57 : Ref sig .tc := ⟨.hbm, 84, rfl⟩
abbrev main_cst_17 : Ref sig .tc := ⟨.hbm, 85, rfl⟩
abbrev main_v58 : Ref sig .tc := ⟨.hbm, 86, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  natLt_1_32 : 1 < 32
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.BodyK.lean ====
/-
  The kernel body run once per control case, on any whole staging memrefs.

  The body has two conditionals on the column coordinate of the grid point: at the first column tile it restarts the four running sums
  from zero before adding the tile's sums; at the last it forms the row's loss from the four sums and stores it into the output's
  buffer. With two column tiles these are the only two cases a point can be in. Each run states what the body is handed and what it
  hands back, the stored pieces of each buffer it writes being found by the run itself.
-/
import proofs.«123260_j10256381903181_2_alg».proof.Proof.Gen.Kernel.Launch
import proofs.«123260_j10256381903181_2_alg».proof.Proof.Gen.Kernel.Skeleton
import proofs.«123260_j10256381903181_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional: the column coordinate is zero (the running sums restart). -/
abbrev condFirst (i : grid0.Coords) : Prop := (Scalar.cmpi .ne (Scalar.extui (Scalar.cmpi .eq (BitVec.ofNat 32 (i 1).val) 0#32)) 0#32) = 1#1
/-- The body's second conditional: the column coordinate is the last (the row's loss is formed and stored). -/
abbrev condLast (i : grid0.Coords) : Prop := k0_cond2 i = 1#1

set_option maxHeartbeats 4000000 in
/-- At a point of the FIRST column tile the body runs from the six input blocks, the output's buffer at anything it is handed and the
    four running sums at anything, and hands back the inputs and the output's buffer as they were and each running sum with the
    pieces its stores wrote (the restart from zero, then the tile's sum added). -/
noncomputable def kernelRunA (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) :
    Σ' (L0 L1 L2 : List (View.Piece (Elt F) S512x1 .f32)), { L3 : List (View.Piece (Elt F) S512x1 .f32) //
      ∀ (xo : Vec F S512x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ owns (c : Thread nD τ) a8 fullShare xo
            ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
                ∗ owns (c : Thread nD τ) a8 fullShare xo
                ∗ (∃ f, a9.view.loc (c : Thread nD τ) ↦[a9.view.set]{fullShare} a9.view.writes (Elt F) f L0) ∗ (∃ f, a10.view.loc (c : Thread nD τ) ↦[a10.view.set]{fullShare} a10.view.writes (Elt F) f L1) ∗ (∃ f, a11.view.loc (c : Thread nD τ) ↦[a11.view.set]{fullShare} a11.view.writes (Elt F) f L2) ∗ (∃ f, a12.view.loc (c : Thread nD τ) ↦[a12.view.set]{fullShare} a12.view.writes (Elt F) f L3)) -∗ K ⟨⟩))
          ⊢ wp frame (wpE (defs₀ (F := F)) Variants.none c none) E (cc0__rll_kernel i a2 h2 a3 h3 a4 h4 a5 h5 a6 h6 a7 h7 a8 h8 a9 h9 a10 h10 a11 h11 a12 h12) K } := by
  refine ⟨?_, ?_, ?_, ?_, fun xo E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%d9, %f9, %hf9, HS0⟩, ⟨%d10, %f10, %hf10, HS1⟩, ⟨%d11, %f11, %hf11, HS2⟩, ⟨%d12, %f12, %hf12, HS3⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hfo
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HO]
    · iexists _; isplitr; · ipureintro; exact h8.read_unread _
      iexact HO
    isplitl [HS0]; · iexists _; iexact HS0
    isplitl [HS1]; · iexists _; iexact HS1
    isplitl [HS2]; · iexists _; iexact HS2
    iexists _; iexact HS3

set_option maxHeartbeats 4000000 in
/-- At a point of the LAST column tile the body runs from the six input blocks, the output's buffer at anything and the four running
    sums at what the point before left (`xs0` .. `xs3`), and hands back the inputs as they were, each running sum with the tile's
    sum added, and the output's buffer with the row's loss stored. -/
noncomputable def kernelRunB (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) :
    Σ' (LO L0 L1 L2 : List (View.Piece (Elt F) S512x1 .f32)), { L3 : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ (∃ d, owns (c : Thread nD τ) a8 fullShare d)
            ∗ owns (c : Thread nD τ) a9 fullShare xs0 ∗ owns (c : Thread nD τ) a10 fullShare xs1 ∗ owns (c : Thread nD τ) a11 fullShare xs2 ∗ owns (c : Thread nD τ) a12 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
                ∗ (∃ f, a8.view.loc (c : Thread nD τ) ↦[a8.view.set]{fullShare} a8.view.writes (Elt F) f LO)
                ∗ (∃ f, a9.view.loc (c : Thread nD τ) ↦[a9.view.set]{fullShare} a9.view.writes (Elt F) f L0) ∗ (∃ f, a10.view.loc (c : Thread nD τ) ↦[a10.view.set]{fullShare} a10.view.writes (Elt F) f L1) ∗ (∃ f, a11.view.loc (c : Thread nD τ) ↦[a11.view.set]{fullShare} a11.view.writes (Elt F) f L2) ∗ (∃ f, a12.view.loc (c : Thread nD τ) ↦[a12.view.set]{fullShare} a12.view.writes (Elt F) f L3)) -∗ K ⟨⟩))
          ⊢ wp frame (wpE (defs₀ (F := F)) Variants.none c none) E (cc0__rll_kernel i a2 h2 a3 h3 a4 h4 a5 h5 a6 h6 a7 h7 a8 h8 a9 h9 a10 h10 a11 h11 a12 h12) K } := by
  refine ⟨?_, ?_, ?_, ?_, ?_, fun E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dout, %fo, %hfo, HO⟩, ⟨%f9, %hf9, HS0⟩, ⟨%f10, %hf10, HS1⟩, ⟨%f11, %hf11, HS2⟩, ⟨%f12, %hf12, HS3⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    obtain rfl := h9.eq_unread hf9; obtain rfl := h10.eq_unread hf10; obtain rfl := h11.eq_unread hf11; obtain rfl := h12.eq_unread hf12
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HO]; · iexists _; iexact HO
    isplitl [HS0]; · iexists _; iexact HS0
    isplitl [HS1]; · iexists _; iexact HS1
    isplitl [HS2]; · iexists _; iexact HS2
    iexists _; iexact HS3

end Cert.Kernel.Hand

end
-- ==== Proof.TileK.lean ====
/-
  The kernel body's arithmetic, one grid point after another, as pure functions of the blocks it loads.

  The kernel walks a grid of 8 row tiles (512 rows each) by 2 column tiles (2048 columns each). Four scratch columns
  carry, for each row of the row tile, the running sums over the columns seen so far: the masked positive term, the
  count of equal labels, the weighted negative term and the weights. At the first column tile they restart from zero;
  at the last the row's loss is formed from the four sums. The functions below name what one point adds to each
  running sum ('acc0' .. 'acc3', from the running sum before it) and what the row tile's output column holds after
  both column tiles ('outTile').
-/
import proofs.«123260_j10256381903181_2_alg».proof.Proof.Gen.Kernel.Skeleton

noncomputable section

namespace Cert.Kernel.Tile

open Idealize.ShloMosaic Cert.Kernel Cert.Kernel.Gen

variable {F : FTy → Type} [FloatOps F]

/-- The running sum of the masked positive terms after a point, from the sum before it. -/
def acc0 (fr : Vec F S512x512 .bf16) (fc : Vec F S2048x512 .bf16) (sr : Vec F S512x1 .f32) (sc : Vec F S1x2048 .f32)
    (lr : Vec F S512x1 .i32) (lc : Vec F S1x2048 .i32) (s : Vec F S512x1 .f32) : FVec F S512x1 .f32 :=
  k0_pay11 (k0_pay10 fr fc sr sc lr lc) s

/-- The running count of equal labels after a point, from the count before it. -/
def acc1 (lr : Vec F S512x1 .i32) (lc : Vec F S1x2048 .i32) (s : Vec F S512x1 .f32) : FVec F S512x1 .f32 :=
  k0_pay12 (F := F) (k0_pay8 (F := F) lr lc) s

/-- The running sum of the weighted negative terms after a point, from the sum before it. -/
def acc2 (fr : Vec F S512x512 .bf16) (fc : Vec F S2048x512 .bf16) (sr : Vec F S512x1 .f32) (sc : Vec F S1x2048 .f32)
    (lr : Vec F S512x1 .i32) (lc : Vec F S1x2048 .i32) (s : Vec F S512x1 .f32) : FVec F S512x1 .f32 :=
  k0_pay14 (k0_pay7 fr fc sr sc) (k0_pay9 (F := F) lr lc) s

/-- The running sum of the weights after a point, from the sum before it. -/
def acc3 (fr : Vec F S512x512 .bf16) (fc : Vec F S2048x512 .bf16) (sr : Vec F S512x1 .f32) (sc : Vec F S1x2048 .f32)
    (lr : Vec F S512x1 .i32) (lc : Vec F S1x2048 .i32) (s : Vec F S512x1 .f32) : FVec F S512x1 .f32 :=
  k0_pay1 (k0_pay13 (k0_pay7 fr fc sr sc) (k0_pay9 (F := F) lr lc)) s

/-- The output column of a row tile once both column tiles (blocks indexed 0 and 1) have been seen: the four running sums
    restarted from zero at the first, continued at the second, and combined into the row's loss. -/
def outTile (fr : Vec F S512x512 .bf16) (fc0 fc1 : Vec F S2048x512 .bf16) (sr : Vec F S512x1 .f32) (sc0 sc1 : Vec F S1x2048 .f32)
    (lr : Vec F S512x1 .i32) (lc0 lc1 : Vec F S1x2048 .i32) : FVec F S512x1 .f32 :=
  k0_pay2
    (acc1 lr lc1 (acc1 lr lc0 (k0_pay4 (F := F))))
    (acc0 fr fc1 sr sc1 lr lc1 (acc0 fr fc0 sr sc0 lr lc0 (k0_pay3 (F := F))))
    (acc2 fr fc1 sr sc1 lr lc1 (acc2 fr fc0 sr sc0 lr lc0 (k0_pay5 (F := F))))
    (acc3 fr fc1 sr sc1 lr lc1 (acc3 fr fc0 sr sc0 lr lc0 (k0_pay6 (F := F))))

end Cert.Kernel.Tile

end
-- ==== Proof.PiecesK.lean ====
/-
  What the body's stores leave, as values.

  Every store of the body writes a whole column buffer, so what a buffer holds after the run is the payload of its last store; the
  loads inside that payload read either a block the run was handed or, for a running sum stored earlier in the same run, the
  payload of that earlier store. Unfolded, each buffer's contents after the run is a composition of the named per-point
  functions: at the first column tile each running sum is the tile's sum added to zero, at the last it is the tile's sum added to
  what the point before left, and the output column is the row loss of the four.
-/
import proofs.«123260_j10256381903181_2_alg».proof.Proof.BodyK
import proofs.«123260_j10256381903181_2_alg».proof.Proof.TileK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin S512x1.rank → ℕ) = fun _ => 0 := by funext a; fin_cases a <;> rfl
theorem hzA : (![0, 0] : Fin S512x512.rank → ℕ) = fun _ => 0 := by funext a; fin_cases a <;> rfl
theorem hzB : (![0, 0] : Fin S2048x512.rank → ℕ) = fun _ => 0 := by funext a; fin_cases a <;> rfl
theorem hzC : (![0, 0] : Fin S1x2048.rank → ℕ) = fun _ => 0 := by funext a; fin_cases a <;> rfl

/-! ## The first column tile -/

/-- The stores into running sum 0 at a first-tile point cover its buffer. -/
theorem coverA0 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) : ∃ pc ∈ (kernelRunA c i a2 h2 a3 h3 a4 h4 a5 h5 a6 h6 a7 h7 a8 h8 a9 h9 a10 h10 a11 h11 a12 h12 hc0 hc1 x0 x1 x2 x3 x4 x5).1, y ∈ pc.1.set :=
  View.cover_of_tiledL _ S512x1.size (by sl_kernel_rfl) y

/-- Running sum 0 after a first-tile point: the tile's sum added to zero. -/
theorem canonA0 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) : View.canon (kernelRunA c i a2 h2 a3 h3 a4 h4 a5 h5 a6 h6 a7 h7 a8 h8 a9 h9 a10 h10 a11 h11 a12 h12 hc0 hc1 x0 x1 x2 x3 x4 x5).1 = Cert.Kernel.Tile.acc0 x0 x1 x2 x3 x4 x5 (k0_pay3 (F := F)) := by
  unfold kernelRunA; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 1 at a first-tile point cover its buffer. -/
theorem coverA1 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) : ∃ pc ∈ (kernelRunA c i a2 h2 a3 h3 a4 h4 a5 h5 a6 h6 a7 h7 a8 h8 a9 h9 a10 h10 a11 h11 a12 h12 hc0 hc1 x0 x1 x2 x3 x4 x5).2.1, y ∈ pc.1.set :=
  View.cover_of_tiledL _ S512x1.size (by sl_kernel_rfl) y

/-- Running sum 1 after a first-tile point: the tile's sum added to zero. -/
theorem canonA1 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) : View.canon (kernelRunA c i a2 h2 a3 h3 a4 h4 a5 h5 a6 h6 a7 h7 a8 h8 a9 h9 a10 h10 a11 h11 a12 h12 hc0 hc1 x0 x1 x2 x3 x4 x5).2.1 = Cert.Kernel.Tile.acc1 x4 x5 (k0_pay4 (F := F)) := by
  unfold kernelRunA; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 2 at a first-tile point cover its buffer. -/
theorem coverA2 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) : ∃ pc ∈ (kernelRunA c i a2 h2 a3 h3 a4 h4 a5 h5 a6 h6 a7 h7 a8 h8 a9 h9 a10 h10 a11 h11 a12 h12 hc0 hc1 x0 x1 x2 x3 x4 x5).2.2.1, y ∈ pc.1.set :=
  View.cover_of_tiledL _ S512x1.size (by sl_kernel_rfl) y

/-- Running sum 2 after a first-tile point: the tile's sum added to zero. -/
theorem canonA2 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) : View.canon (kernelRunA c i a2 h2 a3 h3 a4 h4 a5 h5 a6 h6 a7 h7 a8 h8 a9 h9 a10 h10 a11 h11 a12 h12 hc0 hc1 x0 x1 x2 x3 x4 x5).2.2.1 = Cert.Kernel.Tile.acc2 x0 x1 x2 x3 x4 x5 (k0_pay5 (F := F)) := by
  unfold kernelRunA; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 3 at a first-tile point cover its buffer. -/
theorem coverA3 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) : ∃ pc ∈ (kernelRunA c i a2 h2 a3 h3 a4 h4 a5 h5 a6 h6 a7 h7 a8 h8 a9 h9 a10 h10 a11 h11 a12 h12 hc0 hc1 x0 x1 x2 x3 x4 x5).2.2.2.1, y ∈ pc.1.set :=
  View.cover_of_tiledL _ S512x1.size (by sl_kernel_rfl) y

/-- Running sum 3 after a first-tile point: the tile's sum added to zero. -/
theorem canonA3 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) : View.canon (kernelRunA c i a2 h2 a3 h3 a4 h4 a5 h5 a6 h6 a7 h7 a8 h8 a9 h9 a10 h10 a11 h11 a12 h12 hc0 hc1 x0 x1 x2 x3 x4 x5).2.2.2.1 = Cert.Kernel.Tile.acc3 x0 x1 x2 x3 x4 x5 (k0_pay6 (F := F)) := by
  unfold kernelRunA; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-! ## The last column tile -/

/-- The stores into the output's buffer at a last-tile point cover the buffer. -/
theorem coverBO (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).1, y ∈ pc.1.set :=
  View.cover_of_tiledL _ S512x1.size (by sl_kernel_rfl) y

/-- The output column after a last-tile point: the row loss of the four running sums. -/
theorem canonBO (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).1 = k0_pay2 (Cert.Kernel.Tile.acc1 x4 x5 xs1) (Cert.Kernel.Tile.acc0 x0 x1 x2 x3 x4 x5 xs0) (Cert.Kernel.Tile.acc2 x0 x1 x2 x3 x4 x5 xs2) (Cert.Kernel.Tile.acc3 x0 x1 x2 x3 x4 x5 xs3) := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 0 at a last-tile point cover the buffer. -/
theorem coverB0 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).2.1, y ∈ pc.1.set :=
  View.cover_of_tiledL _ S512x1.size (by sl_kernel_rfl) y

/-- Running sum 0 after a last-tile point: the tile's sum added to what the point before left. -/
theorem canonB0 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).2.1 = Cert.Kernel.Tile.acc0 x0 x1 x2 x3 x4 x5 xs0 := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 1 at a last-tile point cover the buffer. -/
theorem coverB1 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).2.2.1, y ∈ pc.1.set :=
  View.cover_of_tiledL _ S512x1.size (by sl_kernel_rfl) y

/-- Running sum 1 after a last-tile point: the tile's sum added to what the point before left. -/
theorem canonB1 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).2.2.1 = Cert.Kernel.Tile.acc1 x4 x5 xs1 := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 2 at a last-tile point cover the buffer. -/
theorem coverB2 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).2.2.2.1, y ∈ pc.1.set :=
  View.cover_of_tiledL _ S512x1.size (by sl_kernel_rfl) y

/-- Running sum 2 after a last-tile point: the tile's sum added to what the point before left. -/
theorem canonB2 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).2.2.2.1 = Cert.Kernel.Tile.acc2 x0 x1 x2 x3 x4 x5 xs2 := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 3 at a last-tile point cover the buffer. -/
theorem coverB3 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).2.2.2.2.1, y ∈ pc.1.set :=
  View.cover_of_tiledL _ S512x1.size (by sl_kernel_rfl) y

/-- Running sum 3 after a last-tile point: the tile's sum added to what the point before left. -/
theorem canonB3 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).2.2.2.2.1 = Cert.Kernel.Tile.acc3 x0 x1 x2 x3 x4 x5 xs3 := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

end Cert.Kernel.Hand

end
-- ==== Proof.DataK.lean ====
/-
  The pipeline's proof data: what every staging buffer and every running sum holds, point by point.

  The grid runs 8 row tiles by 2 column tiles, the column coordinate fastest: point t is row tile t / 2, column tile t % 2. The six
  input windows hold their blocks of the arrays the region finds (two of them blocks of ONE array, the rounded features: its
  row tile and its column tile). The four running sums restart at every even point and continue at every odd one, so after an even
  point they hold the tile's sums added to zero, and after an odd point the tile's sums added to what the even point before left. The
  output column is stored and written back at the odd points only: there it is the row loss of the four sums.
-/
import proofs.«123260_j10256381903181_2_alg».proof.Proof.PiecesK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- Core `c`'s buffers at launch, as the host operations' valuation; -/
abbrev V₀ (c : Dev nD) : Valuation τ sig (Elt F) := fun b => (s₀ m ρ).mem ((c : Dev nD), b)
/-- and when the region is entered: the eight host operations before it have run (the features rounded, the squared row norms
    summed and laid out as a column and as a row, the labels laid out likewise). -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- The point before `t` (itself at the first point, where nothing consults it). -/
def prev (t : Fin cfg0.N) : Fin cfg0.N := ⟨t.val - 1, Nat.lt_of_le_of_lt (Nat.sub_le _ _) t.isLt⟩

theorem prev_even (t : Fin cfg0.N) (h : t.val % 2 = 1) : (prev t).val % 2 = 0 := by
  show (t.val - 1) % 2 = 0; omega

/-! ## The body's conditionals over the grid, and where the output window is idle -/

/-- The running sums restart at the even points; -/
theorem hcondFirst : ∀ t : Fin cfg0.N, condFirst (grid0.coords t) ↔ t.val % 2 = 0 :=
  (by decide +kernel : ∀ t : Fin grid0.N, condFirst (grid0.coords t) ↔ t.val % 2 = 0)
/-- the row's loss is stored at the odd ones. -/
theorem hcondLast : ∀ t : Fin cfg0.N, condLast (grid0.coords t) ↔ t.val % 2 = 1 :=
  (by decide +kernel : ∀ t : Fin grid0.N, condLast (grid0.coords t) ↔ t.val % 2 = 1)
/-- At an even point the output's window is idle and not written back; at an odd one it is live. -/
theorem idle6_even : ∀ t : Fin cfg0.N, t.val % 2 = 0 → cfg0.idle 6 (grid0.coords t) = true :=
  (by decide +kernel : ∀ t : Fin grid0.N, t.val % 2 = 0 → cfg0.idle 6 (grid0.coords t) = true)
theorem noFlush6_even : ∀ t : Fin cfg0.N, t.val % 2 = 0 → (cfg0.win 6).flush t = false :=
  (by decide +kernel : ∀ t : Fin grid0.N, t.val % 2 = 0 → win0_6.flush t = false)
theorem live6_odd : ∀ t : Fin cfg0.N, t.val % 2 = 1 → cfg0.idle 6 (grid0.coords t) = false :=
  (by decide +kernel : ∀ t : Fin grid0.N, t.val % 2 = 1 → cfg0.idle 6 (grid0.coords t) = false)

/-! ## The running sums and the output column, point by point -/

/-- Running sum 0 after point `t`. -/
def run0 (c : Dev nD) (t : Fin cfg0.N) : Vec F S512x1 .f32 :=
  if t.val % 2 = 0 then Cert.Kernel.Tile.acc0 (iblk m ρ c 0 t) (iblk m ρ c 1 t) (iblk m ρ c 2 t) (iblk m ρ c 3 t) (iblk m ρ c 4 t) (iblk m ρ c 5 t) (k0_pay3 (F := F))
  else Cert.Kernel.Tile.acc0 (iblk m ρ c 0 t) (iblk m ρ c 1 t) (iblk m ρ c 2 t) (iblk m ρ c 3 t) (iblk m ρ c 4 t) (iblk m ρ c 5 t) (Cert.Kernel.Tile.acc0 (iblk m ρ c 0 (prev t)) (iblk m ρ c 1 (prev t)) (iblk m ρ c 2 (prev t)) (iblk m ρ c 3 (prev t)) (iblk m ρ c 4 (prev t)) (iblk m ρ c 5 (prev t)) (k0_pay3 (F := F)))

theorem run0_even (c : Dev nD) (t : Fin cfg0.N) (h : t.val % 2 = 0) : run0 m ρ c t = Cert.Kernel.Tile.acc0 (iblk m ρ c 0 t) (iblk m ρ c 1 t) (iblk m ρ c 2 t) (iblk m ρ c 3 t) (iblk m ρ c 4 t) (iblk m ρ c 5 t) (k0_pay3 (F := F)) := if_pos h

theorem run0_odd (c : Dev nD) (t : Fin cfg0.N) (h : t.val % 2 = 1) : run0 m ρ c t = Cert.Kernel.Tile.acc0 (iblk m ρ c 0 t) (iblk m ρ c 1 t) (iblk m ρ c 2 t) (iblk m ρ c 3 t) (iblk m ρ c 4 t) (iblk m ρ c 5 t) (run0 m ρ c (prev t)) := by
  rw [run0_even m ρ c (prev t) (prev_even t h)]; exact if_neg (by omega)

/-- Running sum 1 after point `t`. -/
def run1 (c : Dev nD) (t : Fin cfg0.N) : Vec F S512x1 .f32 :=
  if t.val % 2 = 0 then Cert.Kernel.Tile.acc1 (iblk m ρ c 4 t) (iblk m ρ c 5 t) (k0_pay4 (F := F))
  else Cert.Kernel.Tile.acc1 (iblk m ρ c 4 t) (iblk m ρ c 5 t) (Cert.Kernel.Tile.acc1 (iblk m ρ c 4 (prev t)) (iblk m ρ c 5 (prev t)) (k0_pay4 (F := F)))

theorem run1_even (c : Dev nD) (t : Fin cfg0.N) (h : t.val % 2 = 0) : run1 m ρ c t = Cert.Kernel.Tile.acc1 (iblk m ρ c 4 t) (iblk m ρ c 5 t) (k0_pay4 (F := F)) := if_pos h

theorem run1_odd (c : Dev nD) (t : Fin cfg0.N) (h : t.val % 2 = 1) : run1 m ρ c t = Cert.Kernel.Tile.acc1 (iblk m ρ c 4 t) (iblk m ρ c 5 t) (run1 m ρ c (prev t)) := by
  rw [run1_even m ρ c (prev t) (prev_even t h)]; exact if_neg (by omega)

/-- Running sum 2 after point `t`. -/
def run2 (c : Dev nD) (t : Fin cfg0.N) : Vec F S512x1 .f32 :=
  if t.val % 2 = 0 then Cert.Kernel.Tile.acc2 (iblk m ρ c 0 t) (iblk m ρ c 1 t) (iblk m ρ c 2 t) (iblk m ρ c 3 t) (iblk m ρ c 4 t) (iblk m ρ c 5 t) (k0_pay5 (F := F))
  else Cert.Kernel.Tile.acc2 (iblk m ρ c 0 t) (iblk m ρ c 1 t) (iblk m ρ c 2 t) (iblk m ρ c 3 t) (iblk m ρ c 4 t) (iblk m ρ c 5 t) (Cert.Kernel.Tile.acc2 (iblk m ρ c 0 (prev t)) (iblk m ρ c 1 (prev t)) (iblk m ρ c 2 (prev t)) (iblk m ρ c 3 (prev t)) (iblk m ρ c 4 (prev t)) (iblk m ρ c 5 (prev t)) (k0_pay5 (F := F)))

theorem run2_even (c : Dev nD) (t : Fin cfg0.N) (h : t.val % 2 = 0) : run2 m ρ c t = Cert.Kernel.Tile.acc2 (iblk m ρ c 0 t) (iblk m ρ c 1 t) (iblk m ρ c 2 t) (iblk m ρ c 3 t) (iblk m ρ c 4 t) (iblk m ρ c 5 t) (k0_pay5 (F := F)) := if_pos h

theorem run2_odd (c : Dev nD) (t : Fin cfg0.N) (h : t.val % 2 = 1) : run2 m ρ c t = Cert.Kernel.Tile.acc2 (iblk m ρ c 0 t) (iblk m ρ c 1 t) (iblk m ρ c 2 t) (iblk m ρ c 3 t) (iblk m ρ c 4 t) (iblk m ρ c 5 t) (run2 m ρ c (prev t)) := by
  rw [run2_even m ρ c (prev t) (prev_even t h)]; exact if_neg (by omega)

/-- Running sum 3 after point `t`. -/
def run3 (c : Dev nD) (t : Fin cfg0.N) : Vec F S512x1 .f32 :=
  if t.val % 2 = 0 then Cert.Kernel.Tile.acc3 (iblk m ρ c 0 t) (iblk m ρ c 1 t) (iblk m ρ c 2 t) (iblk m ρ c 3 t) (iblk m ρ c 4 t) (iblk m ρ c 5 t) (k0_pay6 (F := F))
  else Cert.Kernel.Tile.acc3 (iblk m ρ c 0 t) (iblk m ρ c 1 t) (iblk m ρ c 2 t) (iblk m ρ c 3 t) (iblk m ρ c 4 t) (iblk m ρ c 5 t) (Cert.Kernel.Tile.acc3 (iblk m ρ c 0 (prev t)) (iblk m ρ c 1 (prev t)) (iblk m ρ c 2 (prev t)) (iblk m ρ c 3 (prev t)) (iblk m ρ c 4 (prev t)) (iblk m ρ c 5 (prev t)) (k0_pay6 (F := F)))

theorem run3_even (c : Dev nD) (t : Fin cfg0.N) (h : t.val % 2 = 0) : run3 m ρ c t = Cert.Kernel.Tile.acc3 (iblk m ρ c 0 t) (iblk m ρ c 1 t) (iblk m ρ c 2 t) (iblk m ρ c 3 t) (iblk m ρ c 4 t) (iblk m ρ c 5 t) (k0_pay6 (F := F)) := if_pos h

theorem run3_odd (c : Dev nD) (t : Fin cfg0.N) (h : t.val % 2 = 1) : run3 m ρ c t = Cert.Kernel.Tile.acc3 (iblk m ρ c 0 t) (iblk m ρ c 1 t) (iblk m ρ c 2 t) (iblk m ρ c 3 t) (iblk m ρ c 4 t) (iblk m ρ c 5 t) (run3 m ρ c (prev t)) := by
  rw [run3_even m ρ c (prev t) (prev_even t h)]; exact if_neg (by omega)

/-- The output column after point `t` (consulted at the odd points only): the row loss of the four running sums. -/
def outAt (c : Dev nD) (t : Fin cfg0.N) : Vec F S512x1 .f32 :=
  k0_pay2 (run1 m ρ c t) (run0 m ρ c t) (run2 m ρ c t) (run3 m ρ c t)

/-! ## The invariant: the four running sums' buffers -/

abbrev scM0 : Memref sig .tc .vmem S512x1 .f32 := Memref.whole cc0_scratch0
abbrev scM1 : Memref sig .tc .vmem S512x1 .f32 := Memref.whole cc0_scratch1
abbrev scM2 : Memref sig .tc .vmem S512x1 .f32 := Memref.whole cc0_scratch2
abbrev scM3 : Memref sig .tc .vmem S512x1 .f32 := Memref.whole cc0_scratch3

/-- The four buffers at anything: what the region is entered with and what it gives back. -/
def PhiAny (c : Dev nD) : sProp 𝕄 :=
  iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d))

/-- The scoped buffers no window stages are those four. -/
theorem scopedRest_eq (c : Dev nD) :
    (Pipeline.scopedRest (Ix := Unit) (Name := ℕ) (U := UR sig nD τ) (Lvl := ℕ) (Val := Elt F) spec0 c : sProp 𝕄) = PhiAny c := by
  unfold PhiAny; rw [scopedRest0_eq]; simp only [scM0, scM1, scM2, scM3, owns_whole]; try rfl

/-- Before position `n`: at the start the four buffers at anything; afterwards each at the running sum the point before left. -/
def PhiS (c : Dev nD) : (n : ℕ) → n ≤ cfg0.N → sProp 𝕄
  | 0, _ => PhiAny c
  | n + 1, hn => iprop(owns (c : Thread nD τ) scM0 fullShare (run0 m ρ c ⟨n, hn⟩) ∗ owns (c : Thread nD τ) scM1 fullShare (run1 m ρ c ⟨n, hn⟩)
      ∗ owns (c : Thread nD τ) scM2 fullShare (run2 m ρ c ⟨n, hn⟩) ∗ owns (c : Thread nD τ) scM3 fullShare (run3 m ρ c ⟨n, hn⟩))

theorem PhiS_succ (c : Dev nD) (n : ℕ) (hn : n < cfg0.N) :
    PhiS m ρ c (n + 1) hn = iprop(owns (c : Thread nD τ) scM0 fullShare (run0 m ρ c ⟨n, hn⟩) ∗ owns (c : Thread nD τ) scM1 fullShare (run1 m ρ c ⟨n, hn⟩)
      ∗ owns (c : Thread nD τ) scM2 fullShare (run2 m ρ c ⟨n, hn⟩) ∗ owns (c : Thread nD τ) scM3 fullShare (run3 m ρ c ⟨n, hn⟩)) := rfl

theorem PhiS_pos (c : Dev nD) (t : Fin cfg0.N) (hz : t.val ≠ 0) :
    PhiS m ρ c t.val (Nat.le_of_lt t.isLt) = iprop(owns (c : Thread nD τ) scM0 fullShare (run0 m ρ c (prev t)) ∗ owns (c : Thread nD τ) scM1 fullShare (run1 m ρ c (prev t))
      ∗ owns (c : Thread nD τ) scM2 fullShare (run2 m ρ c (prev t)) ∗ owns (c : Thread nD τ) scM3 fullShare (run3 m ρ c (prev t))) := by
  obtain ⟨n, hn⟩ := t
  cases n with
  | zero => exact absurd rfl hz
  | succ n => rfl

/-- Whatever the position, the four buffers are held at something. -/
theorem PhiS_any (c : Dev nD) (n : ℕ) (h : n ≤ cfg0.N) : PhiS m ρ c n h ⊢ PhiAny c := by
  cases n with
  | zero => exact .rfl
  | succ n =>
    rw [PhiS_succ]; unfold PhiAny
    iintro ⟨H0, H1, H2, H3⟩
    isplitl [H0]; · iexists _; iexact H0
    isplitl [H1]; · iexists _; iexact H1
    isplitl [H2]; · iexists _; iexact H2
    iexists _; iexact H3

/-! ## The proof data -/

/-- On core `c`: the arrays as the region finds them; after the body each input's buffer at its block and the output's at the row
    loss; the invariant above; nothing owed; the rounded features' array dealt in halves to its two windows. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => outAt m ρ c t
  Φ t := PhiS m ρ c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem Phi_castSucc (c : Dev nD) (t : Fin cfg0.N) : (dats m ρ 0 c).Φ t.castSucc = PhiS m ρ c t.val (Nat.le_of_lt t.isLt) := by
  dsimp only [dats]; simp only [Fin.coe_castSucc]
theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t = iblk m ρ c 5 t := by dsimp only [dats]
theorem after6 (c : Dev nD) (t : Fin cfg0.N) : (dats m ρ 0 c).after 6 t = outAt m ρ c t := by dsimp only [dats]

/-! ## Each input's buffer holds its block at every point, fetched there or not -/

theorem before0 (c : Dev nD) (t : Fin cfg0.N) (d) : (dats m ρ 0 c).before 0 t d = iblk m ρ c 0 t :=
  ((dats m ρ 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem before3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem before4 (c : Dev nD) (t : Fin cfg0.N) (d) : (dats m ρ 0 c).before 4 t d = iblk m ρ c 4 t :=
  ((dats m ρ 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

theorem before5 (c : Dev nD) (t : Fin cfg0.N) (d) : (dats m ρ 0 c).before 5 t d = iblk m ρ c 5 t :=
  ((dats m ρ 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.Kernel.Hand

end
-- ==== Proof.SoundK.lean ====
/-
  The body obligation: at every grid point the body, handed the invariant and every window's buffer as the pipeline leaves them,
  hands back the next point's invariant and every buffer at what the proof data says.

  An even point is a first column tile: the four running sums are handed over at anything and come back at the tile's sums added to
  zero; the output's buffer is not touched. An odd point is a last column tile: the running sums come in at what the even point
  before left and go out with the tile's sums added, and the output's buffer comes back at the row loss of the four.
-/
import proofs.«123260_j10256381903181_2_alg».proof.Proof.DataK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ (dats m ρ 0 c).leavesExact 0 t
    ∗ (dats m ρ 0 c).leavesExact 1 t
    ∗ (dats m ρ 0 c).leavesExact 2 t
    ∗ (dats m ρ 0 c).leavesExact 3 t
    ∗ (dats m ρ 0 c).leavesExact 4 t
    ∗ (dats m ρ 0 c).leavesExact 5 t
    ∗ (dats m ρ 0 c).leavesExact 6 t)

/-- After point `t` the invariant names the four running sums at `t`. -/
theorem Phi_succ (c : Dev nD) (t : Fin cfg0.N) :
    (dats m ρ 0 c).Φ t.succ = iprop(owns (c : Thread nD τ) scM0 fullShare (run0 m ρ c t) ∗ owns (c : Thread nD τ) scM1 fullShare (run1 m ρ c t)
      ∗ owns (c : Thread nD τ) scM2 fullShare (run2 m ρ c t) ∗ owns (c : Thread nD τ) scM3 fullShare (run3 m ρ c t)) := rfl

/-- Whatever the position, the four running sums' buffers are held at something (the invariant's definition opened). -/
theorem PhiS_some (c : Dev nD) (n : ℕ) (h : n ≤ cfg0.N) : PhiS m ρ c n h
    ⊢ iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) :=
  PhiS_any m ρ c n h

/-- An input's buffer is handed back holding its block. -/
theorem leaves0 (c : Dev nD) (t : Fin cfg0.N) : (dats m ρ 0 c).leavesExact 0 t = owns (c : Thread nD τ) (ms0 t) fullShare (iblk m ρ c 0 t) := by
  unfold Dat.leavesExact; rw [show cfg0.idle 0 (cfg0.grid.coords t) = false from rfl, after0]
theorem leaves1 (c : Dev nD) (t : Fin cfg0.N) : (dats m ρ 0 c).leavesExact 1 t = owns (c : Thread nD τ) (ms1 t) fullShare (iblk m ρ c 1 t) := by
  unfold Dat.leavesExact; rw [show cfg0.idle 1 (cfg0.grid.coords t) = false from rfl, after1]
theorem leaves2 (c : Dev nD) (t : Fin cfg0.N) : (dats m ρ 0 c).leavesExact 2 t = owns (c : Thread nD τ) (ms2 t) fullShare (iblk m ρ c 2 t) := by
  unfold Dat.leavesExact; rw [show cfg0.idle 2 (cfg0.grid.coords t) = false from rfl, after2]
theorem leaves3 (c : Dev nD) (t : Fin cfg0.N) : (dats m ρ 0 c).leavesExact 3 t = owns (c : Thread nD τ) (ms3 t) fullShare (iblk m ρ c 3 t) := by
  unfold Dat.leavesExact; rw [show cfg0.idle 3 (cfg0.grid.coords t) = false from rfl, after3]
theorem leaves4 (c : Dev nD) (t : Fin cfg0.N) : (dats m ρ 0 c).leavesExact 4 t = owns (c : Thread nD τ) (ms4 t) fullShare (iblk m ρ c 4 t) := by
  unfold Dat.leavesExact; rw [show cfg0.idle 4 (cfg0.grid.coords t) = false from rfl, after4]
theorem leaves5 (c : Dev nD) (t : Fin cfg0.N) : (dats m ρ 0 c).leavesExact 5 t = owns (c : Thread nD τ) (ms5 t) fullShare (iblk m ρ c 5 t) := by
  unfold Dat.leavesExact; rw [show cfg0.idle 5 (cfg0.grid.coords t) = false from rfl, after5]

set_option maxHeartbeats 4800000 in
/-- The body at any point, by the parity of the point. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4, before5]
  rw [show (dats m ρ 0 c).owesAt () t.succ = (dats m ρ 0 c).owesAt () t.castSucc from rfl]
  rw [Phi_succ, leaves0, leaves1, leaves2, leaves3, leaves4, leaves5, Phi_castSucc]
  have hN : t.val < 16 := lt_of_lt_of_eq t.isLt (show cfg0.N = 16 from N_0)
  by_cases h0 : t.val % 2 = 0
  · have hcF : condFirst (grid0.coords t) := (hcondFirst t).mpr h0
    have hcL : ¬condLast (grid0.coords t) := fun h => by have := (hcondLast t).mp h; omega
    rw [Dat.leavesExact_idle (dats m ρ 0 c) 6 t (idle6_even t h0) (noFlush6_even t h0)]
    rw [run0_even m ρ c t h0, run1_even m ρ c t h0, run2_even m ρ c t h0, run3_even m ρ c t h0]
    refine (sep_mono (PhiS_some m ρ c t.val (Nat.le_of_lt t.isLt)) .rfl).trans ?_
    iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%e0, HS0⟩, ⟨%e1, HS1⟩, ⟨%e2, HS2⟩, ⟨%e3, HS3⟩⟩
    isplitl [HS0 HS1 HS2 HS3]
    · isplitl [HS0]
      · unfold owns; iexists _; isplitr
        swap; · iexact HS0
        ipureintro; exact (View.read_writes_eq_canon _ _ _ (coverA0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))).trans (canonA0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))
      isplitl [HS1]
      · unfold owns; iexists _; isplitr
        swap; · iexact HS1
        ipureintro; exact (View.read_writes_eq_canon _ _ _ (coverA1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))).trans (canonA1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))
      isplitl [HS2]
      · unfold owns; iexists _; isplitr
        swap; · iexact HS2
        ipureintro; exact (View.read_writes_eq_canon _ _ _ (coverA2 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))).trans (canonA2 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))
      unfold owns; iexists _; isplitr
      swap; · iexact HS3
      ipureintro; exact (View.read_writes_eq_canon _ _ _ (coverA3 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))).trans (canonA3 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : t.val % 2 = 1 := by omega
    have hz : t.val ≠ 0 := by omega
    have hcF : ¬condFirst (grid0.coords t) := fun h => h0 ((hcondFirst t).mp h)
    have hcL : condLast (grid0.coords t) := (hcondLast t).mpr h1
    rw [show (dats m ρ 0 c).leavesExact 6 t = owns (c : Thread nD τ) (ms6 t) fullShare ((dats m ρ 0 c).after 6 t) from by
      unfold Dat.leavesExact; rw [live6_odd t h1], after6]
    unfold outAt
    rw [run0_odd m ρ c t h1, run1_odd m ρ c t h1, run2_odd m ρ c t h1, run3_odd m ρ c t h1]
    rw [PhiS_pos m ρ c t hz]
    iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t))).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%eo, H6⟩, ⟨%e0, HS0⟩, ⟨%e1, HS1⟩, ⟨%e2, HS2⟩, ⟨%e3, HS3⟩⟩
    isplitl [HS0 HS1 HS2 HS3]
    · isplitl [HS0]
      · unfold owns; iexists _; isplitr
        swap; · iexact HS0
        ipureintro; exact (View.read_writes_eq_canon _ _ _ (coverB0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonB0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))
      isplitl [HS1]
      · unfold owns; iexists _; isplitr
        swap; · iexact HS1
        ipureintro; exact (View.read_writes_eq_canon _ _ _ (coverB1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonB1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))
      isplitl [HS2]
      · unfold owns; iexists _; isplitr
        swap; · iexact HS2
        ipureintro; exact (View.read_writes_eq_canon _ _ _ (coverB2 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonB2 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))
      unfold owns; iexists _; isplitr
      swap; · iexact HS3
      ipureintro; exact (View.read_writes_eq_canon _ _ _ (coverB3 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonB3 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact (View.read_writes_eq_canon _ _ _ (coverBO c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonBO c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.LaunchK.lean ====
/-
  The launch: @main as a list of segments, and what every final state holds.

  @main is eight host operations (the features rounded, the squared row norms, and the norms and labels laid out as a column and as a
  row), ONE kernel region, and four host operations (the sum of the output column and its quotient by the row count). Two of the
  region's seven windows, the row tile and the column tile of the rounded features, are on ONE array: its full share is dealt to
  them in halves at the region's entry. At the exit the input arrays are let go; the output column's array, the two arguments and
  the four buffers the last operations use go on. The run's post: the result buffer holds the last operations' value of the output
  array the pipeline computes, and the two argument arrays are as launched.
-/
import proofs.«123260_j10256381903181_2_alg».proof.Proof.SoundK
import Idealize.ShloMosaic.Lib.Pipeline.Value
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-! ## The first host segment -/

/-- No host operation before the region writes an argument. -/
theorem not_written (b : Ref sig .tc) (hb : b ≠ main_v0 ∧ b ≠ main_v1 ∧ b ≠ main_cst ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6, h7⟩ := hb
  intro op hop
  simp only [List.mem_cons, List.mem_nil_iff, _root_.or_false] at hop
  rcases hop with rfl | rfl | rfl | rfl | rfl | rfl | rfl | rfl <;>
    simp only [StableHlo.unary_writes, StableHlo.binary_writes, StableHlo.nullary_writes, Finset.mem_singleton] <;>
    exact StableHlo.devRef_ne_of_ne ‹_›

/-- Each argument reaches the region as launched. -/
theorem V_arg0 (c : Dev nD) : V m ρ c main_arg0 = m ((c : Thread nD τ).loc main_arg0) :=
  StableHlo.after_of_forall_not_mem (b := Proc.devRef .tc main_arg0) hostOps0 (V₀ m ρ c) (not_written main_arg0 (by decide))
theorem V_arg1 (c : Dev nD) : V m ρ c main_arg1 = m ((c : Thread nD τ).loc main_arg1) :=
  StableHlo.after_of_forall_not_mem (b := Proc.devRef .tc main_arg1) hostOps0 (V₀ m ρ c) (not_written main_arg1 (by decide))

/-- What rides beside the buffers through the first host operations: the core's `owes`. -/
abbrev R (c : Dev nD) : sProp 𝕄 := iprop(∃ W, owes (c : Thread nD τ) (0 : CellTallies nD τ sig Unit) W)

/-- THE FIRST HOST SEGMENT: the eight operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-! ## The region's entry: the arrays' buffers dealt to the windows -/

/-- The distinct buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6) ↦{fullShare} W main_v6) ∗ (((c : Thread nD τ).loc main_v7) ↦{fullShare} W main_v7)) := by
  unfold Pipeline.arrBufs
  exact BI.bigSep_eq_bigSepL_of_eq [main_v0, main_v3, main_v4, main_v5, main_v6, main_v7] (by decide) (by decide) _

/-- The windows' arrays, one by one. -/
theorem arrays_eq (c : Dev nD) (G : (w : Fin cfg0.W) → Buf (Elt F) ((cfg0.win w).arr.view.loc (c : Thread nD τ))) :
    ((dats m ρ 0 c).arrays G : sProp 𝕄)
      = iprop((((c : Thread nD τ).loc main_v0) ↦{fullShare.left} G 0) ∗ (((c : Thread nD τ).loc main_v0) ↦{fullShare.right} G 1) ∗ (((c : Thread nD τ).loc main_v3) ↦{fullShare} G 2)
          ∗ (((c : Thread nD τ).loc main_v4) ↦{fullShare} G 3) ∗ (((c : Thread nD τ).loc main_v5) ↦{fullShare} G 4) ∗ (((c : Thread nD τ).loc main_v6) ↦{fullShare} G 5) ∗ (((c : Thread nD τ).loc main_v7) ↦{fullShare} G 6)) := by
  unfold Dat.arrays; rw [bigSep_W0]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ]
  rfl

/-- The rounded features' full share is dealt in halves to its two windows; every other array goes to its one window whole. -/
theorem hsplit (c : Dev nD) :
    (Pipeline.arrBufs (Ix := Unit) (Name := ℕ) (U := UR sig nD τ) (Lvl := ℕ) spec0 c (V m ρ c) : sProp 𝕄) ⊢ (dats m ρ 0 c).arrays ((dats m ρ 0 c).arrAt · 0) := by
  rw [arrBufs_eq, arrays_eq]
  iintro ⟨H0, H3, H4, H5, H6, H7⟩
  ihave H0' := (pointsTo_share (PosShare.mem_left_op_right fullShare)).1 $$ H0
  icases H0' with ⟨H0l, H0r⟩
  isplitl [H0l]; · iexact H0l
  isplitl [H0r]; · iexact H0r
  isplitl [H3]; · iexact H3
  isplitl [H4]; · iexact H4
  isplitl [H5]; · iexact H5
  isplitl [H6]; · iexact H6
  iexact H7

/-! ## After the region: the last four host operations -/

/-- The buffers the last operations touch. -/
def tailRefs : List (DevRef τ sig) := [Proc.devRef .tc main_v7, Proc.devRef .tc main_cst_0, Proc.devRef .tc main_v8, Proc.devRef .tc main_cst_1, Proc.devRef .tc main_v9]

/-- The valuation they run from: the output column's array as the pipeline left it, everything else as the region found it. -/
def V1 (c : Dev nD) : Valuation τ sig (Elt F) := fun b =>
  if h : b = Proc.devRef .tc main_v7 then h ▸ ((dats m ρ 0 c).arrAt 6 cfg0.N) else StableHlo.after hostOps0 (V₀ m ρ c) b

theorem V1_out (c : Dev nD) : V1 m ρ c (Proc.devRef .tc main_v7) = (dats m ρ 0 c).arrAt 6 cfg0.N := by
  unfold V1; rw [dif_pos rfl]

theorem V1_of_ne (c : Dev nD) (b : Ref sig .tc) (hb : b ≠ main_v7) : V1 m ρ c (Proc.devRef .tc b) = V m ρ c b := by
  unfold V1; rw [dif_neg (StableHlo.devRef_ne_of_ne hb)]

/-- Those buffers held at a valuation, one by one. -/
theorem held_tail (c : Dev nD) (W : Valuation τ sig (Elt F)) :
    (StableHlo.held (c : Thread nD τ) tailRefs.toFinset W : sProp 𝕄)
      = iprop((((c : Thread nD τ).loc main_v7) ↦{fullShare} W (Proc.devRef .tc main_v7)) ∗ (((c : Thread nD τ).loc main_cst_0) ↦{fullShare} W (Proc.devRef .tc main_cst_0))
          ∗ (((c : Thread nD τ).loc main_v8) ↦{fullShare} W (Proc.devRef .tc main_v8)) ∗ (((c : Thread nD τ).loc main_cst_1) ↦{fullShare} W (Proc.devRef .tc main_cst_1))
          ∗ (((c : Thread nD τ).loc main_v9) ↦{fullShare} W (Proc.devRef .tc main_v9))) := by
  unfold StableHlo.held
  exact BI.bigSep_eq_bigSepL tailRefs (by decide) _

/-- What rides beside them: the two argument arrays as the region found them, and the core's `owes`. -/
abbrev R1 (c : Dev nD) : sProp 𝕄 :=
  iprop(((((c : Thread nD τ).loc main_arg0) ↦{fullShare} V m ρ c main_arg0) ∗ (((c : Thread nD τ).loc main_arg1) ↦{fullShare} V m ρ c main_arg1))
    ∗ ∃ W, owes (c : Thread nD τ) (0 : CellTallies nD τ sig Unit) W)

theorem tail_sub : ∀ op ∈ (hostOps1 (F := F)), op.bufs ⊆ tailRefs.toFinset := by
  intro op hop
  simp only [hostOps1, List.mem_cons, List.mem_nil_iff, _root_.or_false] at hop
  rcases hop with rfl | rfl | rfl | rfl <;> simp only [StableHlo.nullary_bufs, StableHlo.binary_bufs] <;> decide

/-- THE LAST HOST SEGMENT: the four operations over their five buffers. -/
def seg2 : Pipeline.HostSeg (Name := ℕ) (U := UR sig nD τ) (pcfgs (F := F)) defs₀ 𝒱₀ L lv :=
  Pipeline.HostSeg.ofOps _ _ _ _ _ tailRefs.toFinset hostOps1 tail_sub
    (by intro _ h; (repeat (cases h with | head => rfl | tail _ h => ?_)); exact nomatch h) (V1 m ρ) (R1 m ρ)

/-! ## The region -/

set_option backward.isDefEq.respectTransparency.types false in
/-- THE REGION: the decided layout, no semaphore of the kernel's own, the body obligation; entered from what the first segment
    left — the arrays' buffers dealt to the windows, every other unscoped buffer bypassing —, left with the output column's array,
    the arguments and the last operations' buffers. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) tailRefs.toFinset (V1 m ρ c) ∗ R1 m ρ c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c)]
    iintro ⟨⟨⟨Harr, Hrest⟩, HO⟩, -, -⟩
    ihave Ha := (hsplit m ρ c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = PhiAny c from rfl, ← scopedRest_eq]
    iintro ⟨-, -, Hr⟩
    iexact Hr
  hout c := by
    rw [Pipeline.ownSems0_none]
    have h1 : (dats m ρ 0 c).Φ (Fin.last (Pipeline.pin (pcfgs (F := F)) adm 0).N) ⊢ PhiAny c := PhiS_any m ρ c cfg0.N (Nat.le_refl _)
    refine h1.trans ?_
    rw [← scopedRest_eq]
    iintro Hr
    isplitr; · iempintro
    isplitr; · iempintro
    iexact Hr
  hexit c := by
    rw [arrays_eq, held_tail, unscopedRest0_eq]
    iintro ⟨⟨-, -, -, -, -, -, H7⟩, HO, -, ⟨Ha0, Ha1, -, -, -, Hc0, H8, Hc1, H9⟩⟩
    imodintro
    isplitl [H7 Hc0 H8 Hc1 H9]
    · rw [V1_out m ρ c, V1_of_ne m ρ c main_cst_0 (by decide), V1_of_ne m ρ c main_v8 (by decide), V1_of_ne m ρ c main_cst_1 (by decide), V1_of_ne m ρ c main_v9 (by decide)]
      isplitl [H7]; · iexact H7
      isplitl [Hc0]; · iexact Hc0
      isplitl [H8]; · iexact H8
      isplitl [Hc1]; · iexact Hc1
      iexact H9
    isplitl [Ha0 Ha1]
    · isplitl [Ha0]; · iexact Ha0
      iexact Ha1
    unfold Pipeline.Dat.owesAt Pipeline.owesWithin
    icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg2 m ρ)]

/-! ## The run -/

/-- The result buffer's contents after the run: the last operations applied from `V1`. -/
def resultOf (c : Dev nD) : Buf (Elt F) ((c : Thread nD τ).loc main_v9) := StableHlo.after hostOps1 (V1 m ρ c) (Proc.devRef .tc main_v9)

/-- What the last segment leaves for the end. -/
abbrev Tₙ (c : Dev nD) : sProp 𝕄 :=
  iprop(StableHlo.held (c : Thread nD τ) tailRefs.toFinset (StableHlo.after hostOps1 (V1 m ρ c))
    ∗ ((((c : Thread nD τ).loc main_arg0) ↦{fullShare} V m ρ c main_arg0) ∗ (((c : Thread nD τ).loc main_arg1) ↦{fullShare} V m ρ c main_arg1)))

/-- The physical post: the result at the last operations' value, both arguments as launched. -/
def QC : PUnit × MemSt nD τ sig (Elt F) → Prop := fun r =>
  ∀ c : Dev nD, r.2.mem ((c : Thread nD τ).loc main_v9) = resultOf m ρ c
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any float values, from any memory with zero counters: every weakly fair execution of @main on the
    TensorCores terminates, nothing faulting, with the result at the last operations' value of the output array and both arguments
    unchanged. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg2 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun c => (show iprop(StableHlo.held (c : Thread nD τ) tailRefs.toFinset (StableHlo.after hostOps1 (V1 m ρ c)) ∗ R1 m ρ c)
          ⊢ iprop(Tₙ m ρ c ∗ ∃ W, owes (c : Thread nD τ) (0 : CellTallies nD τ sig Unit) W) from by
      iintro ⟨Hh, ⟨Ha, HO⟩⟩
      isplitr [HO]
      · isplitl [Hh]; · iexact Hh
        iexact Ha
      iexact HO)⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v9) = resultOf m ρ c
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]; rw [held_tail, V_arg0, V_arg1]
      iintro ⟨⟨⟨-, -, -, -, H9⟩, Ha0, Ha1⟩, HSI⟩
      icombine HSI H9 gives %h9
      icombine HSI Ha0 gives %h0
      icombine HSI Ha1 gives %h1
      imodintro
      isplitr; · ipureintro; exact ⟨Buf.eq_of_forall_mem_univ h9, Buf.eq_of_forall_mem_univ h0, Buf.eq_of_forall_mem_univ h1⟩
      iexact HSI)
    (hQ := fun _ h => h)

/-- THE FRAME: every weakly fair execution terminates, nothing faulting, with the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.BodyI.lean ====
/-
  The kernel body run once per control case, on any whole staging memrefs.

  The body has two conditionals on the column coordinate of the grid point: at the first column tile it restarts the four running sums
  from zero before adding the tile's sums; at the last it forms the row's loss from the four sums and stores it into the output's
  buffer. With two column tiles these are the only two cases a point can be in. Each run states what the body is handed and what it
  hands back, the stored pieces of each buffer it writes being found by the run itself.
-/
import proofs.«123260_j10256381903181_2_alg».proof.Proof.Gen.KernelIdeal.Launch
import proofs.«123260_j10256381903181_2_alg».proof.Proof.Gen.KernelIdeal.Skeleton
import proofs.«123260_j10256381903181_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional: the column coordinate is zero (the running sums restart). -/
abbrev condFirst (i : grid0.Coords) : Prop := (Scalar.cmpi .ne (Scalar.extui (Scalar.cmpi .eq (BitVec.ofNat 32 (i 1).val) 0#32)) 0#32) = 1#1
/-- The body's second conditional: the column coordinate is the last (the row's loss is formed and stored). -/
abbrev condLast (i : grid0.Coords) : Prop := k0_cond2 i = 1#1

set_option maxHeartbeats 4000000 in
/-- At a point of the FIRST column tile the body runs from the six input blocks, the output's buffer at anything it is handed and the
    four running sums at anything, and hands back the inputs and the output's buffer as they were and each running sum with the
    pieces its stores wrote (the restart from zero, then the tile's sum added). -/
noncomputable def kernelRunA (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) :
    Σ' (L0 L1 L2 : List (View.Piece (Elt F) S512x1 .f32)), { L3 : List (View.Piece (Elt F) S512x1 .f32) //
      ∀ (xo : Vec F S512x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ owns (c : Thread nD τ) a8 fullShare xo
            ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
                ∗ owns (c : Thread nD τ) a8 fullShare xo
                ∗ (∃ f, a9.view.loc (c : Thread nD τ) ↦[a9.view.set]{fullShare} a9.view.writes (Elt F) f L0) ∗ (∃ f, a10.view.loc (c : Thread nD τ) ↦[a10.view.set]{fullShare} a10.view.writes (Elt F) f L1) ∗ (∃ f, a11.view.loc (c : Thread nD τ) ↦[a11.view.set]{fullShare} a11.view.writes (Elt F) f L2) ∗ (∃ f, a12.view.loc (c : Thread nD τ) ↦[a12.view.set]{fullShare} a12.view.writes (Elt F) f L3)) -∗ K ⟨⟩))
          ⊢ wp frame (wpE (defs₀ (F := F)) Variants.none c none) E (cc0__rll_kernel i a2 h2 a3 h3 a4 h4 a5 h5 a6 h6 a7 h7 a8 h8 a9 h9 a10 h10 a11 h11 a12 h12) K } := by
  refine ⟨?_, ?_, ?_, ?_, fun xo E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%d9, %f9, %hf9, HS0⟩, ⟨%d10, %f10, %hf10, HS1⟩, ⟨%d11, %f11, %hf11, HS2⟩, ⟨%d12, %f12, %hf12, HS3⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hfo
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HO]
    · iexists _; isplitr; · ipureintro; exact h8.read_unread _
      iexact HO
    isplitl [HS0]; · iexists _; iexact HS0
    isplitl [HS1]; · iexists _; iexact HS1
    isplitl [HS2]; · iexists _; iexact HS2
    iexists _; iexact HS3

set_option maxHeartbeats 4000000 in
/-- At a point of the LAST column tile the body runs from the six input blocks, the output's buffer at anything and the four running
    sums at what the point before left (`xs0` .. `xs3`), and hands back the inputs as they were, each running sum with the tile's
    sum added, and the output's buffer with the row's loss stored. -/
noncomputable def kernelRunB (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) :
    Σ' (LO L0 L1 L2 : List (View.Piece (Elt F) S512x1 .f32)), { L3 : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ (∃ d, owns (c : Thread nD τ) a8 fullShare d)
            ∗ owns (c : Thread nD τ) a9 fullShare xs0 ∗ owns (c : Thread nD τ) a10 fullShare xs1 ∗ owns (c : Thread nD τ) a11 fullShare xs2 ∗ owns (c : Thread nD τ) a12 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
                ∗ (∃ f, a8.view.loc (c : Thread nD τ) ↦[a8.view.set]{fullShare} a8.view.writes (Elt F) f LO)
                ∗ (∃ f, a9.view.loc (c : Thread nD τ) ↦[a9.view.set]{fullShare} a9.view.writes (Elt F) f L0) ∗ (∃ f, a10.view.loc (c : Thread nD τ) ↦[a10.view.set]{fullShare} a10.view.writes (Elt F) f L1) ∗ (∃ f, a11.view.loc (c : Thread nD τ) ↦[a11.view.set]{fullShare} a11.view.writes (Elt F) f L2) ∗ (∃ f, a12.view.loc (c : Thread nD τ) ↦[a12.view.set]{fullShare} a12.view.writes (Elt F) f L3)) -∗ K ⟨⟩))
          ⊢ wp frame (wpE (defs₀ (F := F)) Variants.none c none) E (cc0__rll_kernel i a2 h2 a3 h3 a4 h4 a5 h5 a6 h6 a7 h7 a8 h8 a9 h9 a10 h10 a11 h11 a12 h12) K } := by
  refine ⟨?_, ?_, ?_, ?_, ?_, fun E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dout, %fo, %hfo, HO⟩, ⟨%f9, %hf9, HS0⟩, ⟨%f10, %hf10, HS1⟩, ⟨%f11, %hf11, HS2⟩, ⟨%f12, %hf12, HS3⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    obtain rfl := h9.eq_unread hf9; obtain rfl := h10.eq_unread hf10; obtain rfl := h11.eq_unread hf11; obtain rfl := h12.eq_unread hf12
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HO]; · iexists _; iexact HO
    isplitl [HS0]; · iexists _; iexact HS0
    isplitl [HS1]; · iexists _; iexact HS1
    isplitl [HS2]; · iexists _; iexact HS2
    iexists _; iexact HS3

end Cert.KernelIdeal.Hand

end
-- ==== Proof.Tile.lean ====
/-
  The kernel body's arithmetic, one grid point after another, as pure functions of the blocks it loads.

  The kernel walks a grid of 8 row tiles (512 rows each) by 2 column tiles (2048 columns each). Four scratch columns
  carry, for each row of the row tile, the running sums over the columns seen so far: the masked positive term, the
  count of equal labels, the weighted negative term and the weights. At the first column tile they restart from zero;
  at the last the row's loss is formed from the four sums. The functions below name what one point adds to each
  running sum ('acc0' .. 'acc3', from the running sum before it) and what the row tile's output column holds after
  both column tiles ('outTile').
-/
import proofs.«123260_j10256381903181_2_alg».proof.Proof.Gen.KernelIdeal.Skeleton

noncomputable section

namespace Cert.KernelIdeal.Tile

open Idealize.ShloMosaic Cert.KernelIdeal Cert.KernelIdeal.Gen

variable {F : FTy → Type} [FloatOps F]

/-- The running sum of the masked positive terms after a point, from the sum before it. -/
def acc0 (fr : Vec F S512x512 .bf16) (fc : Vec F S2048x512 .bf16) (sr : Vec F S512x1 .f32) (sc : Vec F S1x2048 .f32)
    (lr : Vec F S512x1 .i32) (lc : Vec F S1x2048 .i32) (s : Vec F S512x1 .f32) : FVec F S512x1 .f32 :=
  k0_pay11 (k0_pay10 fr fc sr sc lr lc) s

/-- The running count of equal labels after a point, from the count before it. -/
def acc1 (lr : Vec F S512x1 .i32) (lc : Vec F S1x2048 .i32) (s : Vec F S512x1 .f32) : FVec F S512x1 .f32 :=
  k0_pay12 (F := F) (k0_pay8 (F := F) lr lc) s

/-- The running sum of the weighted negative terms after a point, from the sum before it. -/
def acc2 (fr : Vec F S512x512 .bf16) (fc : Vec F S2048x512 .bf16) (sr : Vec F S512x1 .f32) (sc : Vec F S1x2048 .f32)
    (lr : Vec F S512x1 .i32) (lc : Vec F S1x2048 .i32) (s : Vec F S512x1 .f32) : FVec F S512x1 .f32 :=
  k0_pay14 (k0_pay7 fr fc sr sc) (k0_pay9 (F := F) lr lc) s

/-- The running sum of the weights after a point, from the sum before it. -/
def acc3 (fr : Vec F S512x512 .bf16) (fc : Vec F S2048x512 .bf16) (sr : Vec F S512x1 .f32) (sc : Vec F S1x2048 .f32)
    (lr : Vec F S512x1 .i32) (lc : Vec F S1x2048 .i32) (s : Vec F S512x1 .f32) : FVec F S512x1 .f32 :=
  k0_pay1 (k0_pay13 (k0_pay7 fr fc sr sc) (k0_pay9 (F := F) lr lc)) s

/-- The output column of a row tile once both column tiles (blocks indexed 0 and 1) have been seen: the four running sums
    restarted from zero at the first, continued at the second, and combined into the row's loss. -/
def outTile (fr : Vec F S512x512 .bf16) (fc0 fc1 : Vec F S2048x512 .bf16) (sr : Vec F S512x1 .f32) (sc0 sc1 : Vec F S1x2048 .f32)
    (lr : Vec F S512x1 .i32) (lc0 lc1 : Vec F S1x2048 .i32) : FVec F S512x1 .f32 :=
  k0_pay2
    (acc1 lr lc1 (acc1 lr lc0 (k0_pay4 (F := F))))
    (acc0 fr fc1 sr sc1 lr lc1 (acc0 fr fc0 sr sc0 lr lc0 (k0_pay3 (F := F))))
    (acc2 fr fc1 sr sc1 lr lc1 (acc2 fr fc0 sr sc0 lr lc0 (k0_pay5 (F := F))))
    (acc3 fr fc1 sr sc1 lr lc1 (acc3 fr fc0 sr sc0 lr lc0 (k0_pay6 (F := F))))

end Cert.KernelIdeal.Tile

end
-- ==== Proof.PiecesI.lean ====
/-
  What the body's stores leave, as values.

  Every store of the body writes a whole column buffer, so what a buffer holds after the run is the payload of its last store; the
  loads inside that payload read either a block the run was handed or, for a running sum stored earlier in the same run, the
  payload of that earlier store. Unfolded, each buffer's contents after the run is a composition of the named per-point
  functions: at the first column tile each running sum is the tile's sum added to zero, at the last it is the tile's sum added to
  what the point before left, and the output column is the row loss of the four.
-/
import proofs.«123260_j10256381903181_2_alg».proof.Proof.BodyI
import proofs.«123260_j10256381903181_2_alg».proof.Proof.Tile
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin S512x1.rank → ℕ) = fun _ => 0 := by funext a; fin_cases a <;> rfl
theorem hzA : (![0, 0] : Fin S512x512.rank → ℕ) = fun _ => 0 := by funext a; fin_cases a <;> rfl
theorem hzB : (![0, 0] : Fin S2048x512.rank → ℕ) = fun _ => 0 := by funext a; fin_cases a <;> rfl
theorem hzC : (![0, 0] : Fin S1x2048.rank → ℕ) = fun _ => 0 := by funext a; fin_cases a <;> rfl

/-! ## The first column tile -/

/-- The stores into running sum 0 at a first-tile point cover its buffer. -/
theorem coverA0 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) : ∃ pc ∈ (kernelRunA c i a2 h2 a3 h3 a4 h4 a5 h5 a6 h6 a7 h7 a8 h8 a9 h9 a10 h10 a11 h11 a12 h12 hc0 hc1 x0 x1 x2 x3 x4 x5).1, y ∈ pc.1.set :=
  View.cover_of_tiledL _ S512x1.size (by sl_kernel_rfl) y

/-- Running sum 0 after a first-tile point: the tile's sum added to zero. -/
theorem canonA0 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) : View.canon (kernelRunA c i a2 h2 a3 h3 a4 h4 a5 h5 a6 h6 a7 h7 a8 h8 a9 h9 a10 h10 a11 h11 a12 h12 hc0 hc1 x0 x1 x2 x3 x4 x5).1 = Cert.KernelIdeal.Tile.acc0 x0 x1 x2 x3 x4 x5 (k0_pay3 (F := F)) := by
  unfold kernelRunA; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 1 at a first-tile point cover its buffer. -/
theorem coverA1 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) : ∃ pc ∈ (kernelRunA c i a2 h2 a3 h3 a4 h4 a5 h5 a6 h6 a7 h7 a8 h8 a9 h9 a10 h10 a11 h11 a12 h12 hc0 hc1 x0 x1 x2 x3 x4 x5).2.1, y ∈ pc.1.set :=
  View.cover_of_tiledL _ S512x1.size (by sl_kernel_rfl) y

/-- Running sum 1 after a first-tile point: the tile's sum added to zero. -/
theorem canonA1 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) : View.canon (kernelRunA c i a2 h2 a3 h3 a4 h4 a5 h5 a6 h6 a7 h7 a8 h8 a9 h9 a10 h10 a11 h11 a12 h12 hc0 hc1 x0 x1 x2 x3 x4 x5).2.1 = Cert.KernelIdeal.Tile.acc1 x4 x5 (k0_pay4 (F := F)) := by
  unfold kernelRunA; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 2 at a first-tile point cover its buffer. -/
theorem coverA2 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) : ∃ pc ∈ (kernelRunA c i a2 h2 a3 h3 a4 h4 a5 h5 a6 h6 a7 h7 a8 h8 a9 h9 a10 h10 a11 h11 a12 h12 hc0 hc1 x0 x1 x2 x3 x4 x5).2.2.1, y ∈ pc.1.set :=
  View.cover_of_tiledL _ S512x1.size (by sl_kernel_rfl) y

/-- Running sum 2 after a first-tile point: the tile's sum added to zero. -/
theorem canonA2 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) : View.canon (kernelRunA c i a2 h2 a3 h3 a4 h4 a5 h5 a6 h6 a7 h7 a8 h8 a9 h9 a10 h10 a11 h11 a12 h12 hc0 hc1 x0 x1 x2 x3 x4 x5).2.2.1 = Cert.KernelIdeal.Tile.acc2 x0 x1 x2 x3 x4 x5 (k0_pay5 (F := F)) := by
  unfold kernelRunA; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 3 at a first-tile point cover its buffer. -/
theorem coverA3 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) (y : S512x1.Idx) : ∃ pc ∈ (kernelRunA c i a2 h2 a3 h3 a4 h4 a5 h5 a6 h6 a7 h7 a8 h8 a9 h9 a10 h10 a11 h11 a12 h12 hc0 hc1 x0 x1 x2 x3 x4 x5).2.2.2.1, y ∈ pc.1.set :=
  View.cover_of_tiledL _ S512x1.size (by sl_kernel_rfl) y

/-- Running sum 3 after a first-tile point: the tile's sum added to zero. -/
theorem canonA3 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : condFirst i) (hc1 : ¬condLast i)
    (x0 : Vec F S512x512 .bf16) (x1 : Vec F S2048x512 .bf16) (x2 : Vec F S512x1 .f32) (x3 : Vec F S1x2048 .f32) (x4 : Vec F S512x1 .i32) (x5 : Vec F S1x2048 .i32) : View.canon (kernelRunA c i a2 h2 a3 h3 a4 h4 a5 h5 a6 h6 a7 h7 a8 h8 a9 h9 a10 h10 a11 h11 a12 h12 hc0 hc1 x0 x1 x2 x3 x4 x5).2.2.2.1 = Cert.KernelIdeal.Tile.acc3 x0 x1 x2 x3 x4 x5 (k0_pay6 (F := F)) := by
  unfold kernelRunA; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-! ## The last column tile -/

/-- The stores into the output's buffer at a last-tile point cover the buffer. -/
theorem coverBO (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).1, y ∈ pc.1.set :=
  View.cover_of_tiledL _ S512x1.size (by sl_kernel_rfl) y

/-- The output column after a last-tile point: the row loss of the four running sums. -/
theorem canonBO (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).1 = k0_pay2 (Cert.KernelIdeal.Tile.acc1 x4 x5 xs1) (Cert.KernelIdeal.Tile.acc0 x0 x1 x2 x3 x4 x5 xs0) (Cert.KernelIdeal.Tile.acc2 x0 x1 x2 x3 x4 x5 xs2) (Cert.KernelIdeal.Tile.acc3 x0 x1 x2 x3 x4 x5 xs3) := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 0 at a last-tile point cover the buffer. -/
theorem coverB0 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).2.1, y ∈ pc.1.set :=
  View.cover_of_tiledL _ S512x1.size (by sl_kernel_rfl) y

/-- Running sum 0 after a last-tile point: the tile's sum added to what the point before left. -/
theorem canonB0 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).2.1 = Cert.KernelIdeal.Tile.acc0 x0 x1 x2 x3 x4 x5 xs0 := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 1 at a last-tile point cover the buffer. -/
theorem coverB1 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).2.2.1, y ∈ pc.1.set :=
  View.cover_of_tiledL _ S512x1.size (by sl_kernel_rfl) y

/-- Running sum 1 after a last-tile point: the tile's sum added to what the point before left. -/
theorem canonB1 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).2.2.1 = Cert.KernelIdeal.Tile.acc1 x4 x5 xs1 := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 2 at a last-tile point cover the buffer. -/
theorem coverB2 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).2.2.2.1, y ∈ pc.1.set :=
  View.cover_of_tiledL _ S512x1.size (by sl_kernel_rfl) y

/-- Running sum 2 after a last-tile point: the tile's sum added to what the point before left. -/
theorem canonB2 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).2.2.2.1 = Cert.KernelIdeal.Tile.acc2 x0 x1 x2 x3 x4 x5 xs2 := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

/-- The stores into running sum 3 at a last-tile point cover the buffer. -/
theorem coverB3 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) (y : S512x1.Idx) : ∃ pc ∈ (kernelRunB c i a2 h2 a3 h3 a4 h4 a5 h5 a6 h6 a7 h7 a8 h8 a9 h9 a10 h10 a11 h11 a12 h12 hc0 hc1 x0 x1 x2 x3 x4 x5 xs0 xs1 xs2 xs3).2.2.2.2.1, y ∈ pc.1.set :=
  View.cover_of_tiledL _ S512x1.size (by sl_kernel_rfl) y

/-- Running sum 3 after a last-tile point: the tile's sum added to what the point before left. -/
theorem canonB3 (c : Dev nD) (i : grid0.Coords)
    (a2 : Memref sig .tc .vmem S512x512 .bf16) (h2 : a2.IsWhole) (a3 : Memref sig .tc .vmem S2048x512 .bf16) (h3 : a3.IsWhole)
    (a4 : Memref sig .tc .vmem S512x1 .f32) (h4 : a4.IsWhole) (a5 : Memref sig .tc .vmem S1x2048 .f32) (h5 : a5.IsWhole)
    (a6 : Memref sig .tc .vmem S512x1 .i32) (h6 : a6.IsWhole) (a7 : Memref sig .tc .vmem S1x2048 .i32) (h7 : a7.IsWhole)
    (a8 : Memref sig .tc .vmem S512x1 .f32) (h8 : a8.IsWhole)
    (a9 : Memref sig .tc .vmem S512x1 .f32) (h9 : a9.IsWhole) (a10 : Memref sig .tc .vmem S512x1 .f32) (h10 : a10.IsWhole)
    (a11 : Memref sig .tc .vmem S512x1 .f32) (h11 : a11.IsWhole) (a12 : Memref sig .tc .vmem S512x1 .f32) (h12 : a12.IsWhole)
    (hc0 : ¬condFirst i) (hc1 : condLast i)
    (x0 : Vec F S512x512 .bf16) (x1 : Vec F S2048x512 .bf16) (x2 : Vec F S512x1 .f32) (x3 : Vec F S1x2048 .f32) (x4 : Vec F S512x1 .i32) (x5 : Vec F S1x2048 .i32)
    (xs0 xs1 xs2 xs3 : Vec F S512x1 .f32) : View.canon (kernelRunB c i a2 h2 a3 h3 a4 h4 a5 h5 a6 h6 a7 h7 a8 h8 a9 h9 a10 h10 a11 h11 a12 h12 hc0 hc1 x0 x1 x2 x3 x4 x5 xs0 xs1 xs2 xs3).2.2.2.2.1 = Cert.KernelIdeal.Tile.acc3 x0 x1 x2 x3 x4 x5 xs3 := by
  unfold kernelRunB; dsimp only; sl_unfold_words
  rw [View.canon_cons_unit_zero hz2]
  simp only [View.readAt_eq_ld, h2.read_unread, h3.read_unread, h4.read_unread, h5.read_unread, h6.read_unread, h7.read_unread, h9.read_unread, h10.read_unread, h11.read_unread, h12.read_unread,
    View.readCov_unit_zero (S := S512x1) a9.view hz2, View.readCov_unit_zero (S := S512x1) a10.view hz2, View.readCov_unit_zero (S := S512x1) a11.view hz2, View.readCov_unit_zero (S := S512x1) a12.view hz2, View.ld_unit_zero (S := S512x512) hzA, View.ld_unit_zero (S := S2048x512) hzB, View.ld_unit_zero (S := S512x1) hz2, View.ld_unit_zero (S := S1x2048) hzC]
  rfl

end Cert.KernelIdeal.Hand

end
-- ==== Proof.DataI.lean ====
/-
  The pipeline's proof data: what every staging buffer and every running sum holds, point by point.

  The grid runs 8 row tiles by 2 column tiles, the column coordinate fastest: point t is row tile t / 2, column tile t % 2. The six
  input windows hold their blocks of the arrays the region finds (two of them blocks of ONE array, the rounded features: its
  row tile and its column tile). The four running sums restart at every even point and continue at every odd one, so after an even
  point they hold the tile's sums added to zero, and after an odd point the tile's sums added to what the even point before left. The
  output column is stored and written back at the odd points only: there it is the row loss of the four sums.
-/
import proofs.«123260_j10256381903181_2_alg».proof.Proof.PiecesI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- Core `c`'s buffers at launch, as the host operations' valuation; -/
abbrev V₀ (c : Dev nD) : Valuation τ sig (Elt F) := fun b => (s₀ m ρ).mem ((c : Dev nD), b)
/-- and when the region is entered: the eight host operations before it have run (the features rounded, the squared row norms
    summed and laid out as a column and as a row, the labels laid out likewise). -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- The point before `t` (itself at the first point, where nothing consults it). -/
def prev (t : Fin cfg0.N) : Fin cfg0.N := ⟨t.val - 1, Nat.lt_of_le_of_lt (Nat.sub_le _ _) t.isLt⟩

theorem prev_even (t : Fin cfg0.N) (h : t.val % 2 = 1) : (prev t).val % 2 = 0 := by
  show (t.val - 1) % 2 = 0; omega

/-! ## The body's conditionals over the grid, and where the output window is idle -/

/-- The running sums restart at the even points; -/
theorem hcondFirst : ∀ t : Fin cfg0.N, condFirst (grid0.coords t) ↔ t.val % 2 = 0 :=
  (by decide +kernel : ∀ t : Fin grid0.N, condFirst (grid0.coords t) ↔ t.val % 2 = 0)
/-- the row's loss is stored at the odd ones. -/
theorem hcondLast : ∀ t : Fin cfg0.N, condLast (grid0.coords t) ↔ t.val % 2 = 1 :=
  (by decide +kernel : ∀ t : Fin grid0.N, condLast (grid0.coords t) ↔ t.val % 2 = 1)
/-- At an even point the output's window is idle and not written back; at an odd one it is live. -/
theorem idle6_even : ∀ t : Fin cfg0.N, t.val % 2 = 0 → cfg0.idle 6 (grid0.coords t) = true :=
  (by decide +kernel : ∀ t : Fin grid0.N, t.val % 2 = 0 → cfg0.idle 6 (grid0.coords t) = true)
theorem noFlush6_even : ∀ t : Fin cfg0.N, t.val % 2 = 0 → (cfg0.win 6).flush t = false :=
  (by decide +kernel : ∀ t : Fin grid0.N, t.val % 2 = 0 → win0_6.flush t = false)
theorem live6_odd : ∀ t : Fin cfg0.N, t.val % 2 = 1 → cfg0.idle 6 (grid0.coords t) = false :=
  (by decide +kernel : ∀ t : Fin grid0.N, t.val % 2 = 1 → cfg0.idle 6 (grid0.coords t) = false)

/-! ## The running sums and the output column, point by point -/

/-- Running sum 0 after point `t`. -/
def run0 (c : Dev nD) (t : Fin cfg0.N) : Vec F S512x1 .f32 :=
  if t.val % 2 = 0 then Cert.KernelIdeal.Tile.acc0 (iblk m ρ c 0 t) (iblk m ρ c 1 t) (iblk m ρ c 2 t) (iblk m ρ c 3 t) (iblk m ρ c 4 t) (iblk m ρ c 5 t) (k0_pay3 (F := F))
  else Cert.KernelIdeal.Tile.acc0 (iblk m ρ c 0 t) (iblk m ρ c 1 t) (iblk m ρ c 2 t) (iblk m ρ c 3 t) (iblk m ρ c 4 t) (iblk m ρ c 5 t) (Cert.KernelIdeal.Tile.acc0 (iblk m ρ c 0 (prev t)) (iblk m ρ c 1 (prev t)) (iblk m ρ c 2 (prev t)) (iblk m ρ c 3 (prev t)) (iblk m ρ c 4 (prev t)) (iblk m ρ c 5 (prev t)) (k0_pay3 (F := F)))

theorem run0_even (c : Dev nD) (t : Fin cfg0.N) (h : t.val % 2 = 0) : run0 m ρ c t = Cert.KernelIdeal.Tile.acc0 (iblk m ρ c 0 t) (iblk m ρ c 1 t) (iblk m ρ c 2 t) (iblk m ρ c 3 t) (iblk m ρ c 4 t) (iblk m ρ c 5 t) (k0_pay3 (F := F)) := if_pos h

theorem run0_odd (c : Dev nD) (t : Fin cfg0.N) (h : t.val % 2 = 1) : run0 m ρ c t = Cert.KernelIdeal.Tile.acc0 (iblk m ρ c 0 t) (iblk m ρ c 1 t) (iblk m ρ c 2 t) (iblk m ρ c 3 t) (iblk m ρ c 4 t) (iblk m ρ c 5 t) (run0 m ρ c (prev t)) := by
  rw [run0_even m ρ c (prev t) (prev_even t h)]; exact if_neg (by omega)

/-- Running sum 1 after point `t`. -/
def run1 (c : Dev nD) (t : Fin cfg0.N) : Vec F S512x1 .f32 :=
  if t.val % 2 = 0 then Cert.KernelIdeal.Tile.acc1 (iblk m ρ c 4 t) (iblk m ρ c 5 t) (k0_pay4 (F := F))
  else Cert.KernelIdeal.Tile.acc1 (iblk m ρ c 4 t) (iblk m ρ c 5 t) (Cert.KernelIdeal.Tile.acc1 (iblk m ρ c 4 (prev t)) (iblk m ρ c 5 (prev t)) (k0_pay4 (F := F)))

theorem run1_even (c : Dev nD) (t : Fin cfg0.N) (h : t.val % 2 = 0) : run1 m ρ c t = Cert.KernelIdeal.Tile.acc1 (iblk m ρ c 4 t) (iblk m ρ c 5 t) (k0_pay4 (F := F)) := if_pos h

theorem run1_odd (c : Dev nD) (t : Fin cfg0.N) (h : t.val % 2 = 1) : run1 m ρ c t = Cert.KernelIdeal.Tile.acc1 (iblk m ρ c 4 t) (iblk m ρ c 5 t) (run1 m ρ c (prev t)) := by
  rw [run1_even m ρ c (prev t) (prev_even t h)]; exact if_neg (by omega)

/-- Running sum 2 after point `t`. -/
def run2 (c : Dev nD) (t : Fin cfg0.N) : Vec F S512x1 .f32 :=
  if t.val % 2 = 0 then Cert.KernelIdeal.Tile.acc2 (iblk m ρ c 0 t) (iblk m ρ c 1 t) (iblk m ρ c 2 t) (iblk m ρ c 3 t) (iblk m ρ c 4 t) (iblk m ρ c 5 t) (k0_pay5 (F := F))
  else Cert.KernelIdeal.Tile.acc2 (iblk m ρ c 0 t) (iblk m ρ c 1 t) (iblk m ρ c 2 t) (iblk m ρ c 3 t) (iblk m ρ c 4 t) (iblk m ρ c 5 t) (Cert.KernelIdeal.Tile.acc2 (iblk m ρ c 0 (prev t)) (iblk m ρ c 1 (prev t)) (iblk m ρ c 2 (prev t)) (iblk m ρ c 3 (prev t)) (iblk m ρ c 4 (prev t)) (iblk m ρ c 5 (prev t)) (k0_pay5 (F := F)))

theorem run2_even (c : Dev nD) (t : Fin cfg0.N) (h : t.val % 2 = 0) : run2 m ρ c t = Cert.KernelIdeal.Tile.acc2 (iblk m ρ c 0 t) (iblk m ρ c 1 t) (iblk m ρ c 2 t) (iblk m ρ c 3 t) (iblk m ρ c 4 t) (iblk m ρ c 5 t) (k0_pay5 (F := F)) := if_pos h

theorem run2_odd (c : Dev nD) (t : Fin cfg0.N) (h : t.val % 2 = 1) : run2 m ρ c t = Cert.KernelIdeal.Tile.acc2 (iblk m ρ c 0 t) (iblk m ρ c 1 t) (iblk m ρ c 2 t) (iblk m ρ c 3 t) (iblk m ρ c 4 t) (iblk m ρ c 5 t) (run2 m ρ c (prev t)) := by
  rw [run2_even m ρ c (prev t) (prev_even t h)]; exact if_neg (by omega)

/-- Running sum 3 after point `t`. -/
def run3 (c : Dev nD) (t : Fin cfg0.N) : Vec F S512x1 .f32 :=
  if t.val % 2 = 0 then Cert.KernelIdeal.Tile.acc3 (iblk m ρ c 0 t) (iblk m ρ c 1 t) (iblk m ρ c 2 t) (iblk m ρ c 3 t) (iblk m ρ c 4 t) (iblk m ρ c 5 t) (k0_pay6 (F := F))
  else Cert.KernelIdeal.Tile.acc3 (iblk m ρ c 0 t) (iblk m ρ c 1 t) (iblk m ρ c 2 t) (iblk m ρ c 3 t) (iblk m ρ c 4 t) (iblk m ρ c 5 t) (Cert.KernelIdeal.Tile.acc3 (iblk m ρ c 0 (prev t)) (iblk m ρ c 1 (prev t)) (iblk m ρ c 2 (prev t)) (iblk m ρ c 3 (prev t)) (iblk m ρ c 4 (prev t)) (iblk m ρ c 5 (prev t)) (k0_pay6 (F := F)))

theorem run3_even (c : Dev nD) (t : Fin cfg0.N) (h : t.val % 2 = 0) : run3 m ρ c t = Cert.KernelIdeal.Tile.acc3 (iblk m ρ c 0 t) (iblk m ρ c 1 t) (iblk m ρ c 2 t) (iblk m ρ c 3 t) (iblk m ρ c 4 t) (iblk m ρ c 5 t) (k0_pay6 (F := F)) := if_pos h

theorem run3_odd (c : Dev nD) (t : Fin cfg0.N) (h : t.val % 2 = 1) : run3 m ρ c t = Cert.KernelIdeal.Tile.acc3 (iblk m ρ c 0 t) (iblk m ρ c 1 t) (iblk m ρ c 2 t) (iblk m ρ c 3 t) (iblk m ρ c 4 t) (iblk m ρ c 5 t) (run3 m ρ c (prev t)) := by
  rw [run3_even m ρ c (prev t) (prev_even t h)]; exact if_neg (by omega)

/-- The output column after point `t` (consulted at the odd points only): the row loss of the four running sums. -/
def outAt (c : Dev nD) (t : Fin cfg0.N) : Vec F S512x1 .f32 :=
  k0_pay2 (run1 m ρ c t) (run0 m ρ c t) (run2 m ρ c t) (run3 m ρ c t)

/-! ## The invariant: the four running sums' buffers -/

abbrev scM0 : Memref sig .tc .vmem S512x1 .f32 := Memref.whole cc0_scratch0
abbrev scM1 : Memref sig .tc .vmem S512x1 .f32 := Memref.whole cc0_scratch1
abbrev scM2 : Memref sig .tc .vmem S512x1 .f32 := Memref.whole cc0_scratch2
abbrev scM3 : Memref sig .tc .vmem S512x1 .f32 := Memref.whole cc0_scratch3

/-- The four buffers at anything: what the region is entered with and what it gives back. -/
def PhiAny (c : Dev nD) : sProp 𝕄 :=
  iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d))

/-- The scoped buffers no window stages are those four. -/
theorem scopedRest_eq (c : Dev nD) :
    (Pipeline.scopedRest (Ix := Unit) (Name := ℕ) (U := UR sig nD τ) (Lvl := ℕ) (Val := Elt F) spec0 c : sProp 𝕄) = PhiAny c := by
  unfold PhiAny; rw [scopedRest0_eq]; simp only [scM0, scM1, scM2, scM3, owns_whole]; try rfl

/-- Before position `n`: at the start the four buffers at anything; afterwards each at the running sum the point before left. -/
def PhiS (c : Dev nD) : (n : ℕ) → n ≤ cfg0.N → sProp 𝕄
  | 0, _ => PhiAny c
  | n + 1, hn => iprop(owns (c : Thread nD τ) scM0 fullShare (run0 m ρ c ⟨n, hn⟩) ∗ owns (c : Thread nD τ) scM1 fullShare (run1 m ρ c ⟨n, hn⟩)
      ∗ owns (c : Thread nD τ) scM2 fullShare (run2 m ρ c ⟨n, hn⟩) ∗ owns (c : Thread nD τ) scM3 fullShare (run3 m ρ c ⟨n, hn⟩))

theorem PhiS_succ (c : Dev nD) (n : ℕ) (hn : n < cfg0.N) :
    PhiS m ρ c (n + 1) hn = iprop(owns (c : Thread nD τ) scM0 fullShare (run0 m ρ c ⟨n, hn⟩) ∗ owns (c : Thread nD τ) scM1 fullShare (run1 m ρ c ⟨n, hn⟩)
      ∗ owns (c : Thread nD τ) scM2 fullShare (run2 m ρ c ⟨n, hn⟩) ∗ owns (c : Thread nD τ) scM3 fullShare (run3 m ρ c ⟨n, hn⟩)) := rfl

theorem PhiS_pos (c : Dev nD) (t : Fin cfg0.N) (hz : t.val ≠ 0) :
    PhiS m ρ c t.val (Nat.le_of_lt t.isLt) = iprop(owns (c : Thread nD τ) scM0 fullShare (run0 m ρ c (prev t)) ∗ owns (c : Thread nD τ) scM1 fullShare (run1 m ρ c (prev t))
      ∗ owns (c : Thread nD τ) scM2 fullShare (run2 m ρ c (prev t)) ∗ owns (c : Thread nD τ) scM3 fullShare (run3 m ρ c (prev t))) := by
  obtain ⟨n, hn⟩ := t
  cases n with
  | zero => exact absurd rfl hz
  | succ n => rfl

/-- Whatever the position, the four buffers are held at something. -/
theorem PhiS_any (c : Dev nD) (n : ℕ) (h : n ≤ cfg0.N) : PhiS m ρ c n h ⊢ PhiAny c := by
  cases n with
  | zero => exact .rfl
  | succ n =>
    rw [PhiS_succ]; unfold PhiAny
    iintro ⟨H0, H1, H2, H3⟩
    isplitl [H0]; · iexists _; iexact H0
    isplitl [H1]; · iexists _; iexact H1
    isplitl [H2]; · iexists _; iexact H2
    iexists _; iexact H3

/-! ## The proof data -/

/-- On core `c`: the arrays as the region finds them; after the body each input's buffer at its block and the output's at the row
    loss; the invariant above; nothing owed; the rounded features' array dealt in halves to its two windows. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => outAt m ρ c t
  Φ t := PhiS m ρ c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem Phi_castSucc (c : Dev nD) (t : Fin cfg0.N) : (dats m ρ 0 c).Φ t.castSucc = PhiS m ρ c t.val (Nat.le_of_lt t.isLt) := by
  dsimp only [dats]; simp only [Fin.coe_castSucc]
theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t = iblk m ρ c 5 t := by dsimp only [dats]
theorem after6 (c : Dev nD) (t : Fin cfg0.N) : (dats m ρ 0 c).after 6 t = outAt m ρ c t := by dsimp only [dats]

/-! ## Each input's buffer holds its block at every point, fetched there or not -/

theorem before0 (c : Dev nD) (t : Fin cfg0.N) (d) : (dats m ρ 0 c).before 0 t d = iblk m ρ c 0 t :=
  ((dats m ρ 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem before3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem before4 (c : Dev nD) (t : Fin cfg0.N) (d) : (dats m ρ 0 c).before 4 t d = iblk m ρ c 4 t :=
  ((dats m ρ 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

theorem before5 (c : Dev nD) (t : Fin cfg0.N) (d) : (dats m ρ 0 c).before 5 t d = iblk m ρ c 5 t :=
  ((dats m ρ 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.KernelIdeal.Hand

end
-- ==== Proof.SoundI.lean ====
/-
  The body obligation: at every grid point the body, handed the invariant and every window's buffer as the pipeline leaves them,
  hands back the next point's invariant and every buffer at what the proof data says.

  An even point is a first column tile: the four running sums are handed over at anything and come back at the tile's sums added to
  zero; the output's buffer is not touched. An odd point is a last column tile: the running sums come in at what the even point
  before left and go out with the tile's sums added, and the output's buffer comes back at the row loss of the four.
-/
import proofs.«123260_j10256381903181_2_alg».proof.Proof.DataI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ (dats m ρ 0 c).leavesExact 0 t
    ∗ (dats m ρ 0 c).leavesExact 1 t
    ∗ (dats m ρ 0 c).leavesExact 2 t
    ∗ (dats m ρ 0 c).leavesExact 3 t
    ∗ (dats m ρ 0 c).leavesExact 4 t
    ∗ (dats m ρ 0 c).leavesExact 5 t
    ∗ (dats m ρ 0 c).leavesExact 6 t)

/-- After point `t` the invariant names the four running sums at `t`. -/
theorem Phi_succ (c : Dev nD) (t : Fin cfg0.N) :
    (dats m ρ 0 c).Φ t.succ = iprop(owns (c : Thread nD τ) scM0 fullShare (run0 m ρ c t) ∗ owns (c : Thread nD τ) scM1 fullShare (run1 m ρ c t)
      ∗ owns (c : Thread nD τ) scM2 fullShare (run2 m ρ c t) ∗ owns (c : Thread nD τ) scM3 fullShare (run3 m ρ c t)) := rfl

/-- Whatever the position, the four running sums' buffers are held at something (the invariant's definition opened). -/
theorem PhiS_some (c : Dev nD) (n : ℕ) (h : n ≤ cfg0.N) : PhiS m ρ c n h
    ⊢ iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) :=
  PhiS_any m ρ c n h

/-- An input's buffer is handed back holding its block. -/
theorem leaves0 (c : Dev nD) (t : Fin cfg0.N) : (dats m ρ 0 c).leavesExact 0 t = owns (c : Thread nD τ) (ms0 t) fullShare (iblk m ρ c 0 t) := by
  unfold Dat.leavesExact; rw [show cfg0.idle 0 (cfg0.grid.coords t) = false from rfl, after0]
theorem leaves1 (c : Dev nD) (t : Fin cfg0.N) : (dats m ρ 0 c).leavesExact 1 t = owns (c : Thread nD τ) (ms1 t) fullShare (iblk m ρ c 1 t) := by
  unfold Dat.leavesExact; rw [show cfg0.idle 1 (cfg0.grid.coords t) = false from rfl, after1]
theorem leaves2 (c : Dev nD) (t : Fin cfg0.N) : (dats m ρ 0 c).leavesExact 2 t = owns (c : Thread nD τ) (ms2 t) fullShare (iblk m ρ c 2 t) := by
  unfold Dat.leavesExact; rw [show cfg0.idle 2 (cfg0.grid.coords t) = false from rfl, after2]
theorem leaves3 (c : Dev nD) (t : Fin cfg0.N) : (dats m ρ 0 c).leavesExact 3 t = owns (c : Thread nD τ) (ms3 t) fullShare (iblk m ρ c 3 t) := by
  unfold Dat.leavesExact; rw [show cfg0.idle 3 (cfg0.grid.coords t) = false from rfl, after3]
theorem leaves4 (c : Dev nD) (t : Fin cfg0.N) : (dats m ρ 0 c).leavesExact 4 t = owns (c : Thread nD τ) (ms4 t) fullShare (iblk m ρ c 4 t) := by
  unfold Dat.leavesExact; rw [show cfg0.idle 4 (cfg0.grid.coords t) = false from rfl, after4]
theorem leaves5 (c : Dev nD) (t : Fin cfg0.N) : (dats m ρ 0 c).leavesExact 5 t = owns (c : Thread nD τ) (ms5 t) fullShare (iblk m ρ c 5 t) := by
  unfold Dat.leavesExact; rw [show cfg0.idle 5 (cfg0.grid.coords t) = false from rfl, after5]

set_option maxHeartbeats 4800000 in
/-- The body at any point, by the parity of the point. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4, before5]
  rw [show (dats m ρ 0 c).owesAt () t.succ = (dats m ρ 0 c).owesAt () t.castSucc from rfl]
  rw [Phi_succ, leaves0, leaves1, leaves2, leaves3, leaves4, leaves5, Phi_castSucc]
  have hN : t.val < 16 := lt_of_lt_of_eq t.isLt (show cfg0.N = 16 from N_0)
  by_cases h0 : t.val % 2 = 0
  · have hcF : condFirst (grid0.coords t) := (hcondFirst t).mpr h0
    have hcL : ¬condLast (grid0.coords t) := fun h => by have := (hcondLast t).mp h; omega
    rw [Dat.leavesExact_idle (dats m ρ 0 c) 6 t (idle6_even t h0) (noFlush6_even t h0)]
    rw [run0_even m ρ c t h0, run1_even m ρ c t h0, run2_even m ρ c t h0, run3_even m ρ c t h0]
    refine (sep_mono (PhiS_some m ρ c t.val (Nat.le_of_lt t.isLt)) .rfl).trans ?_
    iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%e0, HS0⟩, ⟨%e1, HS1⟩, ⟨%e2, HS2⟩, ⟨%e3, HS3⟩⟩
    isplitl [HS0 HS1 HS2 HS3]
    · isplitl [HS0]
      · unfold owns; iexists _; isplitr
        swap; · iexact HS0
        ipureintro; exact (View.read_writes_eq_canon _ _ _ (coverA0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))).trans (canonA0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))
      isplitl [HS1]
      · unfold owns; iexists _; isplitr
        swap; · iexact HS1
        ipureintro; exact (View.read_writes_eq_canon _ _ _ (coverA1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))).trans (canonA1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))
      isplitl [HS2]
      · unfold owns; iexists _; isplitr
        swap; · iexact HS2
        ipureintro; exact (View.read_writes_eq_canon _ _ _ (coverA2 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))).trans (canonA2 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))
      unfold owns; iexists _; isplitr
      swap; · iexact HS3
      ipureintro; exact (View.read_writes_eq_canon _ _ _ (coverA3 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))).trans (canonA3 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : t.val % 2 = 1 := by omega
    have hz : t.val ≠ 0 := by omega
    have hcF : ¬condFirst (grid0.coords t) := fun h => h0 ((hcondFirst t).mp h)
    have hcL : condLast (grid0.coords t) := (hcondLast t).mpr h1
    rw [show (dats m ρ 0 c).leavesExact 6 t = owns (c : Thread nD τ) (ms6 t) fullShare ((dats m ρ 0 c).after 6 t) from by
      unfold Dat.leavesExact; rw [live6_odd t h1], after6]
    unfold outAt
    rw [run0_odd m ρ c t h1, run1_odd m ρ c t h1, run2_odd m ρ c t h1, run3_odd m ρ c t h1]
    rw [PhiS_pos m ρ c t hz]
    iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t))).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%eo, H6⟩, ⟨%e0, HS0⟩, ⟨%e1, HS1⟩, ⟨%e2, HS2⟩, ⟨%e3, HS3⟩⟩
    isplitl [HS0 HS1 HS2 HS3]
    · isplitl [HS0]
      · unfold owns; iexists _; isplitr
        swap; · iexact HS0
        ipureintro; exact (View.read_writes_eq_canon _ _ _ (coverB0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonB0 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))
      isplitl [HS1]
      · unfold owns; iexists _; isplitr
        swap; · iexact HS1
        ipureintro; exact (View.read_writes_eq_canon _ _ _ (coverB1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonB1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))
      isplitl [HS2]
      · unfold owns; iexists _; isplitr
        swap; · iexact HS2
        ipureintro; exact (View.read_writes_eq_canon _ _ _ (coverB2 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonB2 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))
      unfold owns; iexists _; isplitr
      swap; · iexact HS3
      ipureintro; exact (View.read_writes_eq_canon _ _ _ (coverB3 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonB3 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact (View.read_writes_eq_canon _ _ _ (coverBO c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))).trans (canonBO c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) hcF hcL (iblk m ρ c 0 t) (iblk m ρ c 1 t) (iblk m ρ c 2 t) (iblk m ρ c 3 t) (iblk m ρ c 4 t) (iblk m ρ c 5 t) (run0 m ρ c (prev t)) (run1 m ρ c (prev t)) (run2 m ρ c (prev t)) (run3 m ρ c (prev t)))

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.LaunchI.lean ====
/-
  The launch: @main as a list of segments, and what every final state holds.

  @main is eight host operations (the features rounded, the squared row norms, and the norms and labels laid out as a column and as a
  row), ONE kernel region, and four host operations (the sum of the output column and its quotient by the row count). Two of the
  region's seven windows, the row tile and the column tile of the rounded features, are on ONE array: its full share is dealt to
  them in halves at the region's entry. At the exit the input arrays are let go; the output column's array, the two arguments and
  the four buffers the last operations use go on. The run's post: the result buffer holds the last operations' value of the output
  array the pipeline computes, and the two argument arrays are as launched.
-/
import proofs.«123260_j10256381903181_2_alg».proof.Proof.SoundI
import Idealize.ShloMosaic.Lib.Pipeline.Value
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-! ## The first host segment -/

/-- No host operation before the region writes an argument. -/
theorem not_written (b : Ref sig .tc) (hb : b ≠ main_v0 ∧ b ≠ main_v1 ∧ b ≠ main_cst ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6, h7⟩ := hb
  intro op hop
  simp only [List.mem_cons, List.mem_nil_iff, _root_.or_false] at hop
  rcases hop with rfl | rfl | rfl | rfl | rfl | rfl | rfl | rfl <;>
    simp only [StableHlo.unary_writes, StableHlo.binary_writes, StableHlo.nullary_writes, Finset.mem_singleton] <;>
    exact StableHlo.devRef_ne_of_ne ‹_›

/-- Each argument reaches the region as launched. -/
theorem V_arg0 (c : Dev nD) : V m ρ c main_arg0 = m ((c : Thread nD τ).loc main_arg0) :=
  StableHlo.after_of_forall_not_mem (b := Proc.devRef .tc main_arg0) hostOps0 (V₀ m ρ c) (not_written main_arg0 (by decide))
theorem V_arg1 (c : Dev nD) : V m ρ c main_arg1 = m ((c : Thread nD τ).loc main_arg1) :=
  StableHlo.after_of_forall_not_mem (b := Proc.devRef .tc main_arg1) hostOps0 (V₀ m ρ c) (not_written main_arg1 (by decide))

/-- What rides beside the buffers through the first host operations: the core's `owes`. -/
abbrev R (c : Dev nD) : sProp 𝕄 := iprop(∃ W, owes (c : Thread nD τ) (0 : CellTallies nD τ sig Unit) W)

/-- THE FIRST HOST SEGMENT: the eight operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-! ## The region's entry: the arrays' buffers dealt to the windows -/

/-- The distinct buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6) ↦{fullShare} W main_v6) ∗ (((c : Thread nD τ).loc main_v7) ↦{fullShare} W main_v7)) := by
  unfold Pipeline.arrBufs
  exact BI.bigSep_eq_bigSepL_of_eq [main_v0, main_v3, main_v4, main_v5, main_v6, main_v7] (by decide) (by decide) _

/-- The windows' arrays, one by one. -/
theorem arrays_eq (c : Dev nD) (G : (w : Fin cfg0.W) → Buf (Elt F) ((cfg0.win w).arr.view.loc (c : Thread nD τ))) :
    ((dats m ρ 0 c).arrays G : sProp 𝕄)
      = iprop((((c : Thread nD τ).loc main_v0) ↦{fullShare.left} G 0) ∗ (((c : Thread nD τ).loc main_v0) ↦{fullShare.right} G 1) ∗ (((c : Thread nD τ).loc main_v3) ↦{fullShare} G 2)
          ∗ (((c : Thread nD τ).loc main_v4) ↦{fullShare} G 3) ∗ (((c : Thread nD τ).loc main_v5) ↦{fullShare} G 4) ∗ (((c : Thread nD τ).loc main_v6) ↦{fullShare} G 5) ∗ (((c : Thread nD τ).loc main_v7) ↦{fullShare} G 6)) := by
  unfold Dat.arrays; rw [bigSep_W0]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ]
  rfl

/-- The rounded features' full share is dealt in halves to its two windows; every other array goes to its one window whole. -/
theorem hsplit (c : Dev nD) :
    (Pipeline.arrBufs (Ix := Unit) (Name := ℕ) (U := UR sig nD τ) (Lvl := ℕ) spec0 c (V m ρ c) : sProp 𝕄) ⊢ (dats m ρ 0 c).arrays ((dats m ρ 0 c).arrAt · 0) := by
  rw [arrBufs_eq, arrays_eq]
  iintro ⟨H0, H3, H4, H5, H6, H7⟩
  ihave H0' := (pointsTo_share (PosShare.mem_left_op_right fullShare)).1 $$ H0
  icases H0' with ⟨H0l, H0r⟩
  isplitl [H0l]; · iexact H0l
  isplitl [H0r]; · iexact H0r
  isplitl [H3]; · iexact H3
  isplitl [H4]; · iexact H4
  isplitl [H5]; · iexact H5
  isplitl [H6]; · iexact H6
  iexact H7

/-! ## After the region: the last four host operations -/

/-- The buffers the last operations touch. -/
def tailRefs : List (DevRef τ sig) := [Proc.devRef .tc main_v7, Proc.devRef .tc main_cst_0, Proc.devRef .tc main_v8, Proc.devRef .tc main_cst_1, Proc.devRef .tc main_v9]

/-- The valuation they run from: the output column's array as the pipeline left it, everything else as the region found it. -/
def V1 (c : Dev nD) : Valuation τ sig (Elt F) := fun b =>
  if h : b = Proc.devRef .tc main_v7 then h ▸ ((dats m ρ 0 c).arrAt 6 cfg0.N) else StableHlo.after hostOps0 (V₀ m ρ c) b

theorem V1_out (c : Dev nD) : V1 m ρ c (Proc.devRef .tc main_v7) = (dats m ρ 0 c).arrAt 6 cfg0.N := by
  unfold V1; rw [dif_pos rfl]

theorem V1_of_ne (c : Dev nD) (b : Ref sig .tc) (hb : b ≠ main_v7) : V1 m ρ c (Proc.devRef .tc b) = V m ρ c b := by
  unfold V1; rw [dif_neg (StableHlo.devRef_ne_of_ne hb)]

/-- Those buffers held at a valuation, one by one. -/
theorem held_tail (c : Dev nD) (W : Valuation τ sig (Elt F)) :
    (StableHlo.held (c : Thread nD τ) tailRefs.toFinset W : sProp 𝕄)
      = iprop((((c : Thread nD τ).loc main_v7) ↦{fullShare} W (Proc.devRef .tc main_v7)) ∗ (((c : Thread nD τ).loc main_cst_0) ↦{fullShare} W (Proc.devRef .tc main_cst_0))
          ∗ (((c : Thread nD τ).loc main_v8) ↦{fullShare} W (Proc.devRef .tc main_v8)) ∗ (((c : Thread nD τ).loc main_cst_1) ↦{fullShare} W (Proc.devRef .tc main_cst_1))
          ∗ (((c : Thread nD τ).loc main_v9) ↦{fullShare} W (Proc.devRef .tc main_v9))) := by
  unfold StableHlo.held
  exact BI.bigSep_eq_bigSepL tailRefs (by decide) _

/-- What rides beside them: the two argument arrays as the region found them, and the core's `owes`. -/
abbrev R1 (c : Dev nD) : sProp 𝕄 :=
  iprop(((((c : Thread nD τ).loc main_arg0) ↦{fullShare} V m ρ c main_arg0) ∗ (((c : Thread nD τ).loc main_arg1) ↦{fullShare} V m ρ c main_arg1))
    ∗ ∃ W, owes (c : Thread nD τ) (0 : CellTallies nD τ sig Unit) W)

theorem tail_sub : ∀ op ∈ (hostOps1 (F := F)), op.bufs ⊆ tailRefs.toFinset := by
  intro op hop
  simp only [hostOps1, List.mem_cons, List.mem_nil_iff, _root_.or_false] at hop
  rcases hop with rfl | rfl | rfl | rfl <;> simp only [StableHlo.nullary_bufs, StableHlo.binary_bufs] <;> decide

/-- THE LAST HOST SEGMENT: the four operations over their five buffers. -/
def seg2 : Pipeline.HostSeg (Name := ℕ) (U := UR sig nD τ) (pcfgs (F := F)) defs₀ 𝒱₀ L lv :=
  Pipeline.HostSeg.ofOps _ _ _ _ _ tailRefs.toFinset hostOps1 tail_sub
    (by intro _ h; (repeat (cases h with | head => rfl | tail _ h => ?_)); exact nomatch h) (V1 m ρ) (R1 m ρ)

/-! ## The region -/

set_option backward.isDefEq.respectTransparency.types false in
/-- THE REGION: the decided layout, no semaphore of the kernel's own, the body obligation; entered from what the first segment
    left — the arrays' buffers dealt to the windows, every other unscoped buffer bypassing —, left with the output column's array,
    the arguments and the last operations' buffers. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) tailRefs.toFinset (V1 m ρ c) ∗ R1 m ρ c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c)]
    iintro ⟨⟨⟨Harr, Hrest⟩, HO⟩, -, -⟩
    ihave Ha := (hsplit m ρ c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = PhiAny c from rfl, ← scopedRest_eq]
    iintro ⟨-, -, Hr⟩
    iexact Hr
  hout c := by
    rw [Pipeline.ownSems0_none]
    have h1 : (dats m ρ 0 c).Φ (Fin.last (Pipeline.pin (pcfgs (F := F)) adm 0).N) ⊢ PhiAny c := PhiS_any m ρ c cfg0.N (Nat.le_refl _)
    refine h1.trans ?_
    rw [← scopedRest_eq]
    iintro Hr
    isplitr; · iempintro
    isplitr; · iempintro
    iexact Hr
  hexit c := by
    rw [arrays_eq, held_tail, unscopedRest0_eq]
    iintro ⟨⟨-, -, -, -, -, -, H7⟩, HO, -, ⟨Ha0, Ha1, -, -, -, Hc0, H8, Hc1, H9⟩⟩
    imodintro
    isplitl [H7 Hc0 H8 Hc1 H9]
    · rw [V1_out m ρ c, V1_of_ne m ρ c main_cst_0 (by decide), V1_of_ne m ρ c main_v8 (by decide), V1_of_ne m ρ c main_cst_1 (by decide), V1_of_ne m ρ c main_v9 (by decide)]
      isplitl [H7]; · iexact H7
      isplitl [Hc0]; · iexact Hc0
      isplitl [H8]; · iexact H8
      isplitl [Hc1]; · iexact Hc1
      iexact H9
    isplitl [Ha0 Ha1]
    · isplitl [Ha0]; · iexact Ha0
      iexact Ha1
    unfold Pipeline.Dat.owesAt Pipeline.owesWithin
    icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg2 m ρ)]

/-! ## The run -/

/-- The result buffer's contents after the run: the last operations applied from `V1`. -/
def resultOf (c : Dev nD) : Buf (Elt F) ((c : Thread nD τ).loc main_v9) := StableHlo.after hostOps1 (V1 m ρ c) (Proc.devRef .tc main_v9)

/-- What the last segment leaves for the end. -/
abbrev Tₙ (c : Dev nD) : sProp 𝕄 :=
  iprop(StableHlo.held (c : Thread nD τ) tailRefs.toFinset (StableHlo.after hostOps1 (V1 m ρ c))
    ∗ ((((c : Thread nD τ).loc main_arg0) ↦{fullShare} V m ρ c main_arg0) ∗ (((c : Thread nD τ).loc main_arg1) ↦{fullShare} V m ρ c main_arg1)))

/-- The physical post: the result at the last operations' value, both arguments as launched. -/
def QC : PUnit × MemSt nD τ sig (Elt F) → Prop := fun r =>
  ∀ c : Dev nD, r.2.mem ((c : Thread nD τ).loc main_v9) = resultOf m ρ c
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any float values, from any memory with zero counters: every weakly fair execution of @main on the
    TensorCores terminates, nothing faulting, with the result at the last operations' value of the output array and both arguments
    unchanged. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg2 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun c => (show iprop(StableHlo.held (c : Thread nD τ) tailRefs.toFinset (StableHlo.after hostOps1 (V1 m ρ c)) ∗ R1 m ρ c)
          ⊢ iprop(Tₙ m ρ c ∗ ∃ W, owes (c : Thread nD τ) (0 : CellTallies nD τ sig Unit) W) from by
      iintro ⟨Hh, ⟨Ha, HO⟩⟩
      isplitr [HO]
      · isplitl [Hh]; · iexact Hh
        iexact Ha
      iexact HO)⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v9) = resultOf m ρ c
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]; rw [held_tail, V_arg0, V_arg1]
      iintro ⟨⟨⟨-, -, -, -, H9⟩, Ha0, Ha1⟩, HSI⟩
      icombine HSI H9 gives %h9
      icombine HSI Ha0 gives %h0
      icombine HSI Ha1 gives %h1
      imodintro
      isplitr; · ipureintro; exact ⟨Buf.eq_of_forall_mem_univ h9, Buf.eq_of_forall_mem_univ h0, Buf.eq_of_forall_mem_univ h1⟩
      iexact HSI)
    (hQ := fun _ h => h)

/-- THE FRAME: every weakly fair execution terminates, nothing faulting, with the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.BlocksI.lean ====
/-
  Each input block is a restriction of its array.

  Grid point t is row tile t / 2 and column tile t % 2. The row-tile windows (the rounded features' 512 rows, the
  column of their squared norms, the column of their labels) hold rows 512 (t / 2) .. 512 (t / 2) + 511 of their
  arrays; the column-tile windows (the rounded features' 2048 rows, the row of squared norms, the row of labels) hold
  rows, or columns, 2048 (t % 2) .. 2048 (t % 2) + 2047. An entry of a block is the array's entry at the block index
  times the block's extent plus the coordinate inside the block, axis by axis; the block indices are the printed
  index maps, decided once over the sixteen points.
-/
import proofs.«123260_j10256381903181_2_alg».proof.Proof.DataI
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The grid has sixteen points. -/
theorem pt_lt (t : Fin cfg0.N) : t.val < 16 := lt_of_lt_of_eq t.isLt N_0

/-- The array row that row p of point t's row tile is. -/
def rowOf (t : Fin cfg0.N) (p : Fin 512) : Fin 4096 :=
  ⟨512 * (t.val / 2) + p.val, by have := pt_lt t; have := p.isLt; omega⟩

/-- The array row (or column) that entry q of point t's column tile is. -/
def colOf (t : Fin cfg0.N) (q : Fin 2048) : Fin 4096 :=
  ⟨2048 * (t.val % 2) + q.val, by have := q.isLt; omega⟩

theorem rowOf_val (t : Fin cfg0.N) (p : Fin 512) : (rowOf t p).val = 512 * (t.val / 2) + p.val := rfl
theorem colOf_val (t : Fin cfg0.N) (q : Fin 2048) : (colOf t q).val = 2048 * (t.val % 2) + q.val := rfl

/-- The printed index maps over the grid: the row-tile windows follow t / 2, the column-tile windows t % 2. -/
theorem idx_facts : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = 0
    ∧ win0_3.index t (0 : Fin 2) = 0 ∧ win0_3.index t (1 : Fin 2) = t.val % 2
    ∧ win0_4.index t (0 : Fin 2) = t.val / 2 ∧ win0_4.index t (1 : Fin 2) = 0
    ∧ win0_5.index t (0 : Fin 2) = 0 ∧ win0_5.index t (1 : Fin 2) = t.val % 2
    ∧ win0_6.index t (0 : Fin 2) = t.val / 2 ∧ win0_6.index t (1 : Fin 2) = 0 :=
  (by decide +kernel : ∀ t : Fin grid0.N, _)

/-- The row tile of rounded features: row p, column k of the block is row 'rowOf t p', column k of the array. -/
theorem iblk0_apply (c : Dev nD) (t : Fin cfg0.N) (p k : Fin 512) :
    iblk m ρ c 0 t (ix2 p k) = V m ρ c main_v0 (ix2 (rowOf t p) k) := by
  obtain ⟨e0, e1, -⟩ := idx_facts t
  show V m ρ c main_v0 (((cfg0.win 0).blk t).view.emb (ix2 p k)) = _
  refine congrArg (V m ρ c main_v0) (funext fun a => Fin.ext ?_)
  match a with
  | ⟨0, _⟩ => show win0_0.index t (0 : Fin 2) * 512 + 1 * p.val = 512 * (t.val / 2) + p.val; omega
  | ⟨1, _⟩ => show win0_0.index t (1 : Fin 2) * 512 + 1 * k.val = k.val; omega

/-- The column tile of rounded features: row q, column k of the block is row 'colOf t q', column k of the array. -/
theorem iblk1_apply (c : Dev nD) (t : Fin cfg0.N) (q : Fin 2048) (k : Fin 512) :
    iblk m ρ c 1 t (ix2 q k) = V m ρ c main_v0 (ix2 (colOf t q) k) := by
  obtain ⟨-, -, e0, e1, -⟩ := idx_facts t
  show V m ρ c main_v0 (((cfg0.win 1).blk t).view.emb (ix2 q k)) = _
  refine congrArg (V m ρ c main_v0) (funext fun a => Fin.ext ?_)
  match a with
  | ⟨0, _⟩ => show win0_1.index t (0 : Fin 2) * 2048 + 1 * q.val = 2048 * (t.val % 2) + q.val; omega
  | ⟨1, _⟩ => show win0_1.index t (1 : Fin 2) * 512 + 1 * k.val = k.val; omega

/-- The row tile's squared norms: entry p of the block's column is entry 'rowOf t p' of the array's column. -/
theorem iblk2_apply (c : Dev nD) (t : Fin cfg0.N) (p : Fin 512) :
    iblk m ρ c 2 t (ix2 p (0 : Fin 1)) = V m ρ c main_v3 (ix2 (rowOf t p) (0 : Fin 1)) := by
  obtain ⟨-, -, -, -, e0, e1, -⟩ := idx_facts t
  show V m ρ c main_v3 (((cfg0.win 2).blk t).view.emb (ix2 p (0 : Fin 1))) = _
  refine congrArg (V m ρ c main_v3) (funext fun a => Fin.ext ?_)
  match a with
  | ⟨0, _⟩ => show win0_2.index t (0 : Fin 2) * 512 + 1 * p.val = 512 * (t.val / 2) + p.val; omega
  | ⟨1, _⟩ => show win0_2.index t (1 : Fin 2) * 1 + 1 * 0 = 0; omega

/-- The column tile's squared norms: entry q of the block's row is entry 'colOf t q' of the array's row. -/
theorem iblk3_apply (c : Dev nD) (t : Fin cfg0.N) (q : Fin 2048) :
    iblk m ρ c 3 t (ix2 (0 : Fin 1) q) = V m ρ c main_v4 (ix2 (0 : Fin 1) (colOf t q)) := by
  obtain ⟨-, -, -, -, -, -, e0, e1, -⟩ := idx_facts t
  show V m ρ c main_v4 (((cfg0.win 3).blk t).view.emb (ix2 (0 : Fin 1) q)) = _
  refine congrArg (V m ρ c main_v4) (funext fun a => Fin.ext ?_)
  match a with
  | ⟨0, _⟩ => show win0_3.index t (0 : Fin 2) * 1 + 1 * 0 = 0; omega
  | ⟨1, _⟩ => show win0_3.index t (1 : Fin 2) * 2048 + 1 * q.val = 2048 * (t.val % 2) + q.val; omega

/-- The row tile's labels. -/
theorem iblk4_apply (c : Dev nD) (t : Fin cfg0.N) (p : Fin 512) :
    iblk m ρ c 4 t (ix2 p (0 : Fin 1)) = V m ρ c main_v5 (ix2 (rowOf t p) (0 : Fin 1)) := by
  obtain ⟨-, -, -, -, -, -, -, -, e0, e1, -⟩ := idx_facts t
  show V m ρ c main_v5 (((cfg0.win 4).blk t).view.emb (ix2 p (0 : Fin 1))) = _
  refine congrArg (V m ρ c main_v5) (funext fun a => Fin.ext ?_)
  match a with
  | ⟨0, _⟩ => show win0_4.index t (0 : Fin 2) * 512 + 1 * p.val = 512 * (t.val / 2) + p.val; omega
  | ⟨1, _⟩ => show win0_4.index t (1 : Fin 2) * 1 + 1 * 0 = 0; omega

/-- The column tile's labels. -/
theorem iblk5_apply (c : Dev nD) (t : Fin cfg0.N) (q : Fin 2048) :
    iblk m ρ c 5 t (ix2 (0 : Fin 1) q) = V m ρ c main_v6 (ix2 (0 : Fin 1) (colOf t q)) := by
  obtain ⟨-, -, -, -, -, -, -, -, -, -, e0, e1, -⟩ := idx_facts t
  show V m ρ c main_v6 (((cfg0.win 5).blk t).view.emb (ix2 (0 : Fin 1) q)) = _
  refine congrArg (V m ρ c main_v6) (funext fun a => Fin.ext ?_)
  match a with
  | ⟨0, _⟩ => show win0_5.index t (0 : Fin 2) * 1 + 1 * 0 = 0; omega
  | ⟨1, _⟩ => show win0_5.index t (1 : Fin 2) * 2048 + 1 * q.val = 2048 * (t.val % 2) + q.val; omega

end Cert.KernelIdeal.Hand

end
-- ==== Proof.FinalI.lean ====
/-
  The output column after the run, from the blocks written back.

  The output array is a column of 4096 entries in eight blocks of 512. Block b is written back at the odd point
  2 b + 1 only, where it holds the row losses of row tile b from both column tiles. Row r of the array lies in block
  r / 512 at position r % 512, so after the run it holds what point 2 (r / 512) + 1 wrote at position r % 512;
  the eight odd points' blocks cover the array.
-/
import proofs.«123260_j10256381903181_2_alg».proof.Proof.BlocksI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The point that writes row r of the output back: the odd point of row tile r / 512. -/
def lastPt (r : ℕ) (hr : r < 4096) : Fin cfg0.N := ⟨2 * (r / 512) + 1, lt_of_lt_of_eq (by omega) N_0.symm⟩

/-- The position of row r inside its block. -/
def inTile (r : ℕ) : Fin 512 := ⟨r % 512, Nat.mod_lt _ (by decide)⟩

theorem lastPt_val (r : ℕ) (hr : r < 4096) : (lastPt r hr).val = 2 * (r / 512) + 1 := rfl
theorem inTile_val (r : ℕ) : (inTile r).val = r % 512 := rfl

/-- What the output array ends holding: at row r, the output column of point 2 (r / 512) + 1 at position r % 512. -/
def finalOut (c : Dev nD) : S4096x1.Idx → Elt F .f32 :=
  fun i => outAt m ρ c (lastPt (i 0).val (idx2_lt0 i)) (ix2 (inTile (i 0).val) (0 : Fin 1))

/-- An index of the output array is in point t's block iff each coordinate is in the block's range on its axis. -/
theorem mem_blk6 (t : Fin cfg0.N) (i : S4096x1.Idx) :
    i ∈ ((cfg0.win 6).blk t).view.set
      ↔ ∀ a : Fin 2, win0_6.index t a * S512x1.size a ≤ (i a).val ∧ (i a).val < win0_6.index t a * S512x1.size a + S512x1.size a := by
  show i ∈ ((View.whole main_v7).slice (win0_6.rect t)).set ↔ _
  rw [View.set_slice_whole, Rect.mem_set_unit]
  exact Iff.rfl

/-- What an odd point writes back is its block of 'finalOut'. -/
theorem flushed6_eq (c : Dev nD) (t : Fin cfg0.N) (hf : (cfg0.win 6).flush t = true) :
    (dats m ρ 0 c).flushed 6 t = ((cfg0.win 6).blk t).view.read (Elt F) (finalOut m ρ c) := by
  have hodd : t.val % 2 = 1 := (flush0_6 t).mp hf
  obtain ⟨-, -, -, -, -, -, -, -, -, -, -, -, e0, e1⟩ := idx_facts t
  show (cfg0.win 6).cut (grid0.coords t) ((dats m ρ 0 c).after 6 t) = _
  rw [after6]
  funext j
  have hj0 : (j 0).val < 512 := (j 0).isLt
  have hj1 : (j 1).val < 1 := (j 1).isLt
  have hv : ((((cfg0.win 6).blk t).view.emb j) 0).val = 512 * (t.val / 2) + (j 0).val := by
    show win0_6.index t (0 : Fin 2) * 512 + 1 * (j 0).val = _
    omega
  show outAt m ρ c t j = finalOut m ρ c (((cfg0.win 6).blk t).view.emb j)
  generalize ((cfg0.win 6).blk t).view.emb j = i at hv
  show outAt m ρ c t j = outAt m ρ c (lastPt (i 0).val (idx2_lt0 i)) (ix2 (inTile (i 0).val) (0 : Fin 1))
  have e2 : lastPt (i 0).val (idx2_lt0 i) = t := Fin.ext (by rw [lastPt_val, hv]; omega)
  have e3 : ix2 (inTile (i 0).val) (0 : Fin 1) = j := funext fun a => Fin.ext (by
    match a with
    | ⟨0, _⟩ => show (i 0).val % 512 = (j 0).val; rw [hv]; omega
    | ⟨1, _⟩ => show 0 = (j 1).val; omega)
  rw [e2, e3]

/-- Every row of the output array is in the block of the odd point of its row tile. -/
theorem cover6 (i : S4096x1.Idx) :
    ∃ t : Fin cfg0.N, (cfg0.win 6).flush t = true ∧ i ∈ ((cfg0.win 6).blk t).view.set := by
  have hi0 : (i 0).val < 4096 := idx2_lt0 i
  have hi1 : (i 1).val < 1 := idx2_lt1 i
  have hl : (lastPt (i 0).val hi0).val = 2 * ((i 0).val / 512) + 1 := rfl
  refine ⟨lastPt (i 0).val hi0, (flush0_6 _).mpr (by rw [hl]; omega), ?_⟩
  obtain ⟨-, -, -, -, -, -, -, -, -, -, -, -, e0, e1⟩ := idx_facts (lastPt (i 0).val hi0)
  rw [mem_blk6]
  intro a
  match a with
  | ⟨0, _⟩ =>
    show win0_6.index (lastPt (i 0).val hi0) (0 : Fin 2) * 512 ≤ (i 0).val
      ∧ (i 0).val < win0_6.index (lastPt (i 0).val hi0) (0 : Fin 2) * 512 + 512
    rw [e0, hl]
    omega
  | ⟨1, _⟩ =>
    show win0_6.index (lastPt (i 0).val hi0) (1 : Fin 2) * 1 ≤ (i 1).val
      ∧ (i 1).val < win0_6.index (lastPt (i 0).val hi0) (1 : Fin 2) * 1 + 1
    rw [e1]
    omega

/-- THE OUTPUT ARRAY AFTER THE RUN: at row r the output column of point 2 (r / 512) + 1 at position r % 512. -/
theorem final6 (c : Dev nD) : (dats m ρ 0 c).arrAt 6 cfg0.N = finalOut m ρ c :=
  (dats m ρ 0 c).arrAt_eq_of_cover 6 (finalOut m ρ c) (fun t hf => flushed6_eq m ρ c t hf) cover6

/-- The same read at row r. -/
theorem final6_apply (c : Dev nD) (r : Fin 4096) :
    (dats m ρ 0 c).arrAt 6 cfg0.N (ix2 r (0 : Fin 1)) = outAt m ρ c (lastPt r.val r.isLt) (ix2 (inTile r.val) (0 : Fin 1)) := by
  rw [final6]
  rfl

end Cert.KernelIdeal.Hand

end
-- ==== Proof.HostPrefixI.lean ====
/-
  The arrays the region finds, as functions of the two arguments.

  Before the region eight host operations run: the features are rounded to sixteen bits; their squares are summed
  along each row, and the 4096 sums laid out once as a column and once as a row; the labels are laid out as a column
  and as a row. None of them writes an argument. So each array a window stages is a fixed function of the features
  and the labels as launched.
-/
import proofs.«123260_j10256381903181_2_alg».proof.Proof.DataI
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The features as launched on core c. -/
abbrev feats (c : Dev nD) : FVec F S4096x512 .f32 := V₀ m ρ c main_arg0
/-- The labels as launched on core c. -/
abbrev labels (c : Dev nD) : IVec S4096 32 := V₀ m ρ c main_arg1

/-- The squared norm of each feature row: the host's sum of squares along the row, from the zero word. -/
def sqNorms (a : FVec F S4096x512 .f32) : FVec F S4096 .f32 :=
  Host.reduceAdd (mulf a a) (constant (F := F) S_ .f32 0x00000000#32) reducesTo_S4096x512_S4096_d1 h_S_

/-- No host operation before the region writes the features; -/
theorem V_main_arg0 (c : Dev nD) : (V m ρ c main_arg0 : FVec F S4096x512 .f32) = feats m ρ c := by
  dsimp only [V, feats]
  after_results
  first | done | rfl

/-- nor the labels. -/
theorem V_main_arg1 (c : Dev nD) : (V m ρ c main_arg1 : IVec S4096 32) = labels m ρ c := by
  dsimp only [V, labels]
  after_results
  first | done | rfl

/-- The rounded features. -/
theorem V_main_v0 (c : Dev nD) :
    (V m ρ c main_v0 : FVec F S4096x512 .bf16) = truncf .bf16 (feats m ρ c) bitsLt_bf16_f32 := by
  dsimp only [V, feats]
  after_results
  first | done | rfl

/-- The squared norms as a column. -/
theorem V_main_v3 (c : Dev nD) :
    (V m ρ c main_v3 : FVec F S4096x1 .f32) = broadcastInDim S4096x1 ![0] bcast_S4096_S4096x1_0 (sqNorms (feats m ρ c)) := by
  dsimp only [V, feats, sqNorms]
  after_results
  first | done | rfl

/-- The squared norms as a row. -/
theorem V_main_v4 (c : Dev nD) :
    (V m ρ c main_v4 : FVec F S1x4096 .f32) = broadcastInDim S1x4096 ![1] bcast_S4096_S1x4096_1 (sqNorms (feats m ρ c)) := by
  dsimp only [V, feats, sqNorms]
  after_results
  first | done | rfl

/-- The labels as a column. -/
theorem V_main_v5 (c : Dev nD) :
    (V m ρ c main_v5 : IVec S4096x1 32) = broadcastInDim S4096x1 ![0] bcast_S4096_S4096x1_0 (labels m ρ c) := by
  dsimp only [V, labels]
  after_results
  first | done | rfl

/-- The labels as a row. -/
theorem V_main_v6 (c : Dev nD) :
    (V m ρ c main_v6 : IVec S1x4096 32) = broadcastInDim S1x4096 ![1] bcast_S4096_S1x4096_1 (labels m ρ c) := by
  dsimp only [V, labels]
  after_results
  first | done | rfl

end Cert.KernelIdeal.Hand

end
-- ==== Proof.Terms.lean ====
/-
  The scalar vocabulary of the pairwise ranked-list loss, on the extended reals.

  For a pair of rows (i, j) of the feature matrix the loss is built from three numbers: the two squared norms and
  the inner product. From them come the squared distance, the distance (a square root floored at a small positive
  constant), the positive-pair term (the distance above a margin), the weight of a negative pair (an exponential,
  present only for different labels within a boundary) and the weighted negative term. A row's loss combines four
  sums over the row's pairs: positive terms over their count, weighted negative terms over the weights.

  Every float constant is kept as the 32-bit word the programs write; only zero and one are named by their values
  ('zero_word', 'one_word'), because the sums start from the first and the count is corrected by the second.
-/
import Idealize.ShloMosaic.PureOps.Ideal
import Idealize.ShloMosaic.Lib.ValueIdx

noncomputable section

namespace Cert.Terms

open Idealize.ShloMosaic

/-- The f32 word of zero is the extended real 0. -/
theorem zero_word : Ideal.ofBits .f32 0x00000000#32 = 0 := by simp [Ideal.ofBits, Ideal.ieee]

/-- The f32 word of one is the extended real 1. -/
theorem one_word : Ideal.ofBits .f32 0x3F800000#32 = 1 := by
  simp [Ideal.ofBits, Ideal.ieee, -EReal.coe_mul]; norm_num

/-- The squared distance of a pair from the two squared norms 'a', 'b' and the inner product 'd':
    (a + b) - 2 d, the two being the f32 word 0x40000000. -/
def sqDist (a b d : EReal) : EReal := (a + b) - Ideal.ofBits .f32 0x40000000#32 * d

/-- The distance of a pair: the square root of the squared distance floored at the f32 word nearest 1e-12. -/
def dist (a b d : EReal) : EReal := Ideal.sqrt (max (Ideal.ofBits .f32 0x2B8CBCCC#32) (sqDist a b d))

/-- The positive-pair term of a distance 't': how far it exceeds the margin (the f32 word nearest -0.8 is added),
    and nothing below it. -/
def posTerm (t : EReal) : EReal := max (t + Ideal.ofBits .f32 0xBF4CCCCD#32) 0

/-- The positive-pair term counted only where the pair is selected. -/
def maskedPos (sel : Prop) [Decidable sel] (t : EReal) : EReal := if sel then posTerm t else 0

/-- One for a selected pair, nothing otherwise: what the count of selected pairs sums. -/
def indicator (sel : Prop) [Decidable sel] : EReal := if sel then 1 else 0

/-- The weight of a pair at distance 't': for different labels within the boundary (the f32 word nearest 1.2),
    exp (10 (1.2 - t)); nothing otherwise. -/
def weight (same : Prop) [Decidable same] (t : EReal) : EReal :=
  if ¬same ∧ t < Ideal.ofBits .f32 0x3F99999A#32 then
    Ideal.exp (Ideal.ofBits .f32 0x41200000#32 * (Ideal.ofBits .f32 0x3F99999A#32 - t))
  else 0

/-- The weighted negative term of a pair: its depth inside the boundary times its weight. -/
def negTerm (same : Prop) [Decidable same] (t : EReal) : EReal :=
  (Ideal.ofBits .f32 0x3F99999A#32 - t) * weight same t

/-- A row's loss from its four sums: positive terms 'P' over their count 'C', weighted negative terms 'N' over the
    weights 'W', each denominator raised by the f32 word nearest 1e-5. -/
def rowLoss (P C N W : EReal) : EReal :=
  Ideal.div P (C + Ideal.ofBits .f32 0x3727C5AC#32) + Ideal.div N (W + Ideal.ofBits .f32 0x3727C5AC#32)

/-- A running sum over two column tiles, restarted from zero at the first: the grouping the tiled program
    accumulates in. -/
def twoTileSum (t0 t1 : Fin 2048 → EReal) : EReal := (0 + ∑ q : Fin 2048, t0 q) + ∑ q : Fin 2048, t1 q

end Cert.Terms

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.TileValueDist.lean ====
/-
  The distance of a pair, read off the tiled program's arithmetic at one entry of a tile.

  At a grid point the program holds a row tile of 512 feature rows, a column tile of 2048 feature rows, the squared
  norms of the first as a column and of the second as a row. It transposes the column tile, multiplies the two on
  the matrix unit into a zero accumulator, spreads the two norm vectors over the [512, 2048] tile, and forms
  sqrt (max c ((a + b) - 2 d)) entry by entry. Read at entry (p, q) the product is the inner product of row p of
  the row tile with row q of the column tile, the spread column is the norm of row p, the spread row is the norm
  of row q: the entry is the distance of the pair.
-/
import proofs.«123260_j10256381903181_2_alg».proof.Proof.Gen.KernelIdeal.Skeleton
import proofs.«123260_j10256381903181_2_alg».proof.Proof.Terms
import proofs.«123260_j10256381903181_2_alg».proof.Proof.LibKeepdims
import proofs.«123260_j10256381903181_2_alg».proof.Proof.LibPlainDot
import Idealize.ShloMosaic.Lib.Pipeline.Value
import Idealize.ShloMosaic.Lib.ValueLayout

noncomputable section

namespace Cert.KernelIdeal.TileValue

open Idealize.ShloMosaic Idealize.ShloMosaic.ValueIdx Cert.KernelIdeal Cert.KernelIdeal.Gen

/-- The matrix-unit product of the row tile with the transposed column tile, into the zero accumulator, at entry
    (p, q): the inner product of row p of the first with row q of the second. -/
theorem tileDot_apply (fr : Vec Ideal S512x512 .bf16) (fc : Vec Ideal S2048x512 .bf16) (p : Fin 512) (q : Fin 2048) :
    matmul (F := Ideal) (φ₁ := .bf16) (φ₂ := .bf16) dot_S512x512_S512x2048_S512x2048_1_0_0_1_n_n none
        (shapeCast S512x512 fr shapeCasts_S512x512_S512x512)
        (transpose S512x2048 [1, 0] (shapeCast S2048x512 fc shapeCasts_S2048x512_S2048x512) transposes_S2048x512_p1_0_S512x2048)
        (constant (F := Ideal) S512x2048 .f32 0x00000000#32) (ix2 p q)
      = ∑ k : Fin 512, (fr (ix2 p k) : EReal) * (fc (ix2 q k) : EReal) := by
  rw [shapeCast_self, shapeCast_self]
  refine (Cert.PlainDot.matmul_zero_apply (φ₁ := .bf16) (φ₂ := .bf16) dot_S512x512_S512x2048_S512x2048_1_0_0_1_n_n rfl fr _ p q).trans ?_
  refine Finset.sum_congr rfl fun k _ => ?_
  rw [transpose_ix2_apply]

/-- The column of row norms spread over the tile reads, at (p, q), the norm of row p. -/
theorem rowNorm_apply (sr : Vec Ideal S512x1 .f32) (p : Fin 512) (q : Fin 2048) :
    broadcastTo S512x2048 (shapeCast S512x1 sr shapeCasts_S512x1_S512x1) broadcasts_S512x1_S512x2048 (ix2 p q)
      = sr (ix2 p 0) := by
  rw [shapeCast_self]
  exact Cert.Lib.Keepdims.broadcastTo_a1_ab_apply sr _ p q

/-- The row of column norms spread over the tile reads, at (p, q), the norm of row q of the column tile. -/
theorem colNorm_apply (sc : Vec Ideal S1x2048 .f32) (p : Fin 512) (q : Fin 2048) :
    broadcastTo S512x2048 (shapeCast S1x2048 sc shapeCasts_S1x2048_S1x2048) broadcasts_S1x2048_S512x2048 (ix2 p q)
      = sc (ix2 0 q) := by
  rw [shapeCast_self]
  exact broadcastTo_1b_ab_apply sc _ p q

/-- The distance entry of the tile at (p, q) is the distance of the pair (row p of the row tile, row q of the column
    tile), from their squared norms and their inner product. -/
theorem pay7_apply (fr : Vec Ideal S512x512 .bf16) (fc : Vec Ideal S2048x512 .bf16) (sr : Vec Ideal S512x1 .f32)
    (sc : Vec Ideal S1x2048 .f32) (p : Fin 512) (q : Fin 2048) :
    k0_pay7 (F := Ideal) fr fc sr sc (ix2 p q)
      = Terms.dist (sr (ix2 p 0)) (sc (ix2 0 q)) (∑ k : Fin 512, (fr (ix2 p k) : EReal) * (fc (ix2 q k) : EReal)) := by
  unfold k0_pay7 Terms.dist Terms.sqDist
  show Ideal.sqrt (max (Ideal.ofBits .f32 0x2B8CBCCC#32)
      ((broadcastTo S512x2048 (shapeCast S512x1 sr shapeCasts_S512x1_S512x1) broadcasts_S512x1_S512x2048 (ix2 p q)
          + broadcastTo S512x2048 (shapeCast S1x2048 sc shapeCasts_S1x2048_S1x2048) broadcasts_S1x2048_S512x2048 (ix2 p q))
        - Ideal.ofBits .f32 0x40000000#32
          * matmul (F := Ideal) (φ₁ := .bf16) (φ₂ := .bf16) dot_S512x512_S512x2048_S512x2048_1_0_0_1_n_n none
              (shapeCast S512x512 fr shapeCasts_S512x512_S512x512)
              (transpose S512x2048 [1, 0] (shapeCast S2048x512 fc shapeCasts_S2048x512_S2048x512) transposes_S2048x512_p1_0_S512x2048)
              (constant (F := Ideal) S512x2048 .f32 0x00000000#32) (ix2 p q))) = _
  rw [rowNorm_apply, colNorm_apply, tileDot_apply]

end Cert.KernelIdeal.TileValue

end
-- ==== Proof.TileValueWords.lean ====
/-
  One-bit words as propositions.

  The tiled program decides "same label" by an integer comparison whose answer is a one-bit word, flips it with an
  exclusive or against the set bit, joins it with the float comparison "distance below the boundary" by a bitwise and,
  and chooses between two values on the result; it counts equal labels by widening the bit to 32 bits and converting
  the integer to a float. Read on the extended reals these are an 'if' on the equality of the two labels, an 'if' on
  "labels differ and the distance is below the boundary", and the indicator of the equality.
-/
import proofs.«123260_j10256381903181_2_alg».proof.Proof.Terms
import Idealize.ShloMosaic.PureOps.Ideal.Laws

noncomputable section

namespace Cert.KernelIdeal.TileValue

open Idealize.ShloMosaic

/-- The comparison word of two labels is the set bit exactly when they are equal. -/
theorem cmpi_eq_word (a b : BitVec 32) : IntOp.cmpi .eq a b = BitVec.ofBool (decide (a = b)) := by
  unfold IntOp.cmpi
  by_cases h : a = b
  · simp [h]
  · have hb : (a == b) = false := beq_eq_false_iff_ne.mpr h
    simp [h, hb]

/-- A choice on the comparison word of two labels is the 'if' on their equality. -/
theorem select_same {α : Type} (a b : BitVec 32) (x y : α) :
    Scalar.select (IntOp.cmpi .eq a b) x y = if a = b then x else y := by
  rw [cmpi_eq_word]
  unfold Scalar.select
  by_cases h : a = b <;> simp [h]

/-- A choice on "the flipped comparison word and the float comparison 't < c'" is the 'if' on "the labels differ
    and t < c". -/
theorem select_differ_below {α : Type} (a b : BitVec 32) (t c : EReal) (x y : α) :
    Scalar.select (IntOp.andi (IntOp.xori (IntOp.cmpi .eq a b) 1#1) (Ideal.cmp .olt t c)) x y
      = if ¬a = b ∧ t < c then x else y := by
  rw [cmpi_eq_word]
  unfold Scalar.select IntOp.andi IntOp.xori Ideal.cmp
  by_cases h : a = b <;> by_cases h' : t < c <;> simp [h, h']

/-- The comparison word widened to 32 bits and converted to a float is the indicator of the equality. -/
theorem count_same (a b : BitVec 32) :
    (((BitVec.setWidth 32 (IntOp.cmpi .eq a b)).toInt : ℝ) : EReal) = Terms.indicator (a = b) := by
  rw [cmpi_eq_word]
  unfold Terms.indicator
  by_cases h : a = b
  · rw [if_pos h]
    simp [h]
  · rw [if_neg h]
    simp [h]

end Cert.KernelIdeal.TileValue

end
-- ==== Proof.TileValueTerms.lean ====
/-
  The four per-pair quantities of a tile, read at one entry.

  From the distance entry and the two label vectors the program forms, entry by entry over a [512, 2048] tile: the
  "same label" bit (labels of the row tile spread along rows, of the column tile along columns, compared), its flip,
  the positive term kept where the labels agree, the weight kept where they differ and the distance is below the
  boundary, and the weighted negative term. At entry (p, q) these are the functions of 'Terms' of the pair's distance
  and of the equality of label p of the row tile with label q of the column tile.
-/
import proofs.«123260_j10256381903181_2_alg».proof.Proof.TileValueDist
import proofs.«123260_j10256381903181_2_alg».proof.Proof.TileValueWords

noncomputable section

namespace Cert.KernelIdeal.TileValue

open Idealize.ShloMosaic Idealize.ShloMosaic.ValueIdx Cert.KernelIdeal Cert.KernelIdeal.Gen

/-- The distance of the pair (row p of the row tile, row q of the column tile). -/
def pairDist (fr : Vec Ideal S512x512 .bf16) (fc : Vec Ideal S2048x512 .bf16) (sr : Vec Ideal S512x1 .f32)
    (sc : Vec Ideal S1x2048 .f32) (p : Fin 512) (q : Fin 2048) : EReal :=
  Terms.dist (sr (ix2 p 0)) (sc (ix2 0 q)) (∑ k : Fin 512, (fr (ix2 p k) : EReal) * (fc (ix2 q k) : EReal))

/-- The column of row labels spread over the tile reads, at (p, q), the label of row p. -/
theorem rowLabel_apply (lr : IVec S512x1 32) (p : Fin 512) (q : Fin 2048) :
    broadcastTo S512x2048 (shapeCast S512x1 lr shapeCasts_S512x1_S512x1) broadcasts_S512x1_S512x2048 (ix2 p q)
      = lr (ix2 p 0) := by
  rw [shapeCast_self]
  exact Cert.Lib.Keepdims.broadcastTo_a1_ab_apply lr _ p q

/-- The row of column labels spread over the tile reads, at (p, q), the label of row q of the column tile. -/
theorem colLabel_apply (lc : IVec S1x2048 32) (p : Fin 512) (q : Fin 2048) :
    broadcastTo S512x2048 (shapeCast S1x2048 lc shapeCasts_S1x2048_S1x2048) broadcasts_S1x2048_S512x2048 (ix2 p q)
      = lc (ix2 0 q) := by
  rw [shapeCast_self]
  exact broadcastTo_1b_ab_apply lc _ p q

/-- The "same label" bit of the tile at (p, q) is the comparison word of the two labels. -/
theorem pay8_apply (lr : Vec Ideal S512x1 .i32) (lc : Vec Ideal S1x2048 .i32) (p : Fin 512) (q : Fin 2048) :
    k0_pay8 (F := Ideal) lr lc (ix2 p q) = IntOp.cmpi .eq (lr (ix2 p 0)) (lc (ix2 0 q)) := by
  unfold k0_pay8
  show IntOp.cmpi .eq
      (broadcastTo S512x2048 (shapeCast S512x1 (lr : IVec S512x1 32) shapeCasts_S512x1_S512x1) broadcasts_S512x1_S512x2048 (ix2 p q))
      (broadcastTo S512x2048 (shapeCast S1x2048 (lc : IVec S1x2048 32) shapeCasts_S1x2048_S1x2048) broadcasts_S1x2048_S512x2048 (ix2 p q)) = _
  rw [rowLabel_apply, colLabel_apply]

/-- The flipped bit at (p, q). -/
theorem pay9_apply (lr : Vec Ideal S512x1 .i32) (lc : Vec Ideal S1x2048 .i32) (p : Fin 512) (q : Fin 2048) :
    k0_pay9 (F := Ideal) lr lc (ix2 p q) = IntOp.xori (IntOp.cmpi .eq (lr (ix2 p 0)) (lc (ix2 0 q))) 1#1 := by
  unfold k0_pay9
  show IntOp.xori (k0_pay8 (F := Ideal) lr lc (ix2 p q)) 1#1 = _
  rw [pay8_apply]

/-- The positive term of the tile at (p, q): the pair's positive term where the two labels agree. -/
theorem pay10_apply (fr : Vec Ideal S512x512 .bf16) (fc : Vec Ideal S2048x512 .bf16) (sr : Vec Ideal S512x1 .f32)
    (sc : Vec Ideal S1x2048 .f32) (lr : Vec Ideal S512x1 .i32) (lc : Vec Ideal S1x2048 .i32) (p : Fin 512) (q : Fin 2048) :
    k0_pay10 (F := Ideal) fr fc sr sc lr lc (ix2 p q)
      = Terms.maskedPos (lr (ix2 p 0) = lc (ix2 0 q)) (pairDist fr fc sr sc p q) := by
  unfold k0_pay10 Terms.maskedPos Terms.posTerm pairDist
  show Scalar.select (k0_pay8 (F := Ideal) lr lc (ix2 p q))
      (max (k0_pay7 (F := Ideal) fr fc sr sc (ix2 p q) + Ideal.ofBits .f32 0xBF4CCCCD#32) (Ideal.ofBits .f32 0x00000000#32))
      (Ideal.ofBits .f32 0x00000000#32) = _
  rw [pay8_apply, pay7_apply, select_same, Terms.zero_word]

/-- The weight of the tile at (p, q): the pair's weight, present where the labels differ and the distance is below
    the boundary. -/
theorem pay13_apply (fr : Vec Ideal S512x512 .bf16) (fc : Vec Ideal S2048x512 .bf16) (sr : Vec Ideal S512x1 .f32)
    (sc : Vec Ideal S1x2048 .f32) (lr : Vec Ideal S512x1 .i32) (lc : Vec Ideal S1x2048 .i32) (p : Fin 512) (q : Fin 2048) :
    k0_pay13 (F := Ideal) (k0_pay7 (F := Ideal) fr fc sr sc) (k0_pay9 (F := Ideal) lr lc) (ix2 p q)
      = Terms.weight (lr (ix2 p 0) = lc (ix2 0 q)) (pairDist fr fc sr sc p q) := by
  unfold k0_pay13 Terms.weight pairDist
  show Scalar.select
      (IntOp.andi (k0_pay9 (F := Ideal) lr lc (ix2 p q))
        (Ideal.cmp .olt (k0_pay7 (F := Ideal) fr fc sr sc (ix2 p q)) (Ideal.ofBits .f32 0x3F99999A#32)))
      (Ideal.exp (Ideal.ofBits .f32 0x41200000#32
        * (Ideal.ofBits .f32 0x3F99999A#32 - k0_pay7 (F := Ideal) fr fc sr sc (ix2 p q))))
      (Ideal.ofBits .f32 0x00000000#32) = _
  rw [pay9_apply, pay7_apply, select_differ_below, Terms.zero_word]

/-- The weighted negative term of the tile at (p, q): the pair's depth inside the boundary times its weight. -/
theorem negProduct_apply (fr : Vec Ideal S512x512 .bf16) (fc : Vec Ideal S2048x512 .bf16) (sr : Vec Ideal S512x1 .f32)
    (sc : Vec Ideal S1x2048 .f32) (lr : Vec Ideal S512x1 .i32) (lc : Vec Ideal S1x2048 .i32) (p : Fin 512) (q : Fin 2048) :
    mulf (subf (broadcast S512x2048 (Scalar.ofBits (F := Ideal) .f32 0x3F99999A#32)) (k0_pay7 (F := Ideal) fr fc sr sc))
        (k0_pay13 (F := Ideal) (k0_pay7 (F := Ideal) fr fc sr sc) (k0_pay9 (F := Ideal) lr lc)) (ix2 p q)
      = Terms.negTerm (lr (ix2 p 0) = lc (ix2 0 q)) (pairDist fr fc sr sc p q) := by
  unfold Terms.negTerm
  show (Ideal.ofBits .f32 0x3F99999A#32 - k0_pay7 (F := Ideal) fr fc sr sc (ix2 p q))
      * k0_pay13 (F := Ideal) (k0_pay7 (F := Ideal) fr fc sr sc) (k0_pay9 (F := Ideal) lr lc) (ix2 p q) = _
  rw [pay13_apply, pay7_apply]
  rfl

/-- The count entry of the tile at (p, q): the "same label" bit widened and converted, the indicator of equal labels. -/
theorem countEntry_apply (lr : Vec Ideal S512x1 .i32) (lc : Vec Ideal S1x2048 .i32) (p : Fin 512) (q : Fin 2048) :
    (sitofp (F := Ideal) .f32 (extui 32 (k0_pay8 (F := Ideal) lr lc) natLt_1_32) : FVec Ideal S512x2048 .f32) (ix2 p q)
      = Terms.indicator (lr (ix2 p 0) = lc (ix2 0 q)) := by
  show (((BitVec.setWidth 32 (k0_pay8 (F := Ideal) lr lc (ix2 p q))).toInt : ℝ) : EReal) = _
  rw [pay8_apply, count_same]

end Cert.KernelIdeal.TileValue

end
-- ==== Proof.TileValueSums.lean ====
/-
  The running sums of a row, one column tile further.

  Each of the four running sums is a [512, 1] column. At a grid point the program sums a [512, 2048] tile of
  per-pair terms along its lanes, views the [512] result as a column and adds it to the running column. Read at row
  p, the new running sum is the old one at row p plus the sum over the 2048 columns q of the tile at (p, q) — and
  the tile at (p, q) is the pair's term ('TileValueTerms'). At the first column tile the running columns are zero.
-/
import proofs.«123260_j10256381903181_2_alg».proof.Proof.TileValueTerms
import proofs.«123260_j10256381903181_2_alg».proof.Proof.Tile

noncomputable section

namespace Cert.KernelIdeal.TileValue

open Idealize.ShloMosaic Idealize.ShloMosaic.ValueIdx Cert.KernelIdeal Cert.KernelIdeal.Gen

/-- A lane sum of a tile, viewed as a column and added to a running column, read at row p: the running entry plus
    the sum of row p of the tile. -/
theorem laneSumColumn_apply (v : FVec Ideal S512x2048 .f32) (s : Vec Ideal S512x1 .f32) (p : Fin 512) :
    shapeCast S512x1
        (addf (F := Ideal) (φ := .f32) s
          (shapeCast S512x1
            (multiReduction (F := Ideal) (φ := .f32) .add [1] S512 v 0x00000000#32 reduces_S512x2048_S512 (.inl rfl) rfl)
            shapeCasts_S512_S512x1))
        shapeCasts_S512x1_S512x1 (ix2 p 0)
      = (s (ix2 p 0) : EReal) + ∑ q : Fin 2048, (v (ix2 p q) : EReal) := by
  rw [shapeCast_self]
  show (s (ix2 p 0) : EReal)
      + shapeCast S512x1
          (multiReduction (F := Ideal) (φ := .f32) .add [1] S512 v 0x00000000#32 reduces_S512x2048_S512 (.inl rfl) rfl)
          shapeCasts_S512_S512x1 (ix2 p (0 : Fin 1)) = _
  rw [Cert.Lib.Keepdims.shapeCast_a_a1_apply]
  exact congrArg (fun t => (s (ix2 p 0) : EReal) + t) (Cert.Lib.Keepdims.laneSum_apply v _ _ _ _ p)

/-- The running sum of positive terms, one tile further. -/
theorem pay11_apply (v : FVec Ideal S512x2048 .f32) (s : Vec Ideal S512x1 .f32) (p : Fin 512) :
    k0_pay11 (F := Ideal) v s (ix2 p 0) = (s (ix2 p 0) : EReal) + ∑ q : Fin 2048, (v (ix2 p q) : EReal) := by
  unfold k0_pay11
  exact laneSumColumn_apply v s p

/-- The running sum of weights, one tile further. -/
theorem pay1_apply (v : FVec Ideal S512x2048 .f32) (s : Vec Ideal S512x1 .f32) (p : Fin 512) :
    k0_pay1 (F := Ideal) v s (ix2 p 0) = (s (ix2 p 0) : EReal) + ∑ q : Fin 2048, (v (ix2 p q) : EReal) := by
  unfold k0_pay1
  exact laneSumColumn_apply v s p

/-- The running count of equal labels, one tile further. -/
theorem pay12_apply (m : IVec S512x2048 1) (s : Vec Ideal S512x1 .f32) (p : Fin 512) :
    k0_pay12 (F := Ideal) m s (ix2 p 0)
      = (s (ix2 p 0) : EReal)
        + ∑ q : Fin 2048, ((sitofp (F := Ideal) .f32 (extui 32 m natLt_1_32) : FVec Ideal S512x2048 .f32) (ix2 p q) : EReal) := by
  unfold k0_pay12
  exact laneSumColumn_apply (sitofp (F := Ideal) .f32 (extui 32 m natLt_1_32)) s p

/-- The running sum of weighted negative terms, one tile further. -/
theorem pay14_apply (d : FVec Ideal S512x2048 .f32) (m : IVec S512x2048 1) (s : Vec Ideal S512x1 .f32) (p : Fin 512) :
    k0_pay14 (F := Ideal) d m s (ix2 p 0)
      = (s (ix2 p 0) : EReal)
        + ∑ q : Fin 2048,
            ((mulf (F := Ideal) (φ := .f32) (subf (broadcast S512x2048 (Scalar.ofBits (F := Ideal) .f32 0x3F99999A#32)) d)
                (k0_pay13 (F := Ideal) d m)) (ix2 p q) : EReal) := by
  unfold k0_pay14
  exact laneSumColumn_apply _ s p

/-- The four running columns start from zero. -/
theorem pay3_apply (j : S512x1.Idx) : k0_pay3 (F := Ideal) j = 0 := by
  unfold k0_pay3
  rw [shapeCast_self]
  exact Terms.zero_word
theorem pay4_apply (j : S512x1.Idx) : k0_pay4 (F := Ideal) j = 0 := by
  unfold k0_pay4
  rw [shapeCast_self]
  exact Terms.zero_word
theorem pay5_apply (j : S512x1.Idx) : k0_pay5 (F := Ideal) j = 0 := by
  unfold k0_pay5
  rw [shapeCast_self]
  exact Terms.zero_word
theorem pay6_apply (j : S512x1.Idx) : k0_pay6 (F := Ideal) j = 0 := by
  unfold k0_pay6
  rw [shapeCast_self]
  exact Terms.zero_word

/-- One point's step of the sum of positive terms, at row p. -/
theorem acc0_apply (fr : Vec Ideal S512x512 .bf16) (fc : Vec Ideal S2048x512 .bf16) (sr : Vec Ideal S512x1 .f32)
    (sc : Vec Ideal S1x2048 .f32) (lr : Vec Ideal S512x1 .i32) (lc : Vec Ideal S1x2048 .i32) (s : Vec Ideal S512x1 .f32)
    (p : Fin 512) :
    Tile.acc0 (F := Ideal) fr fc sr sc lr lc s (ix2 p 0)
      = (s (ix2 p 0) : EReal)
        + ∑ q : Fin 2048, Terms.maskedPos (lr (ix2 p 0) = lc (ix2 0 q)) (pairDist fr fc sr sc p q) := by
  unfold Tile.acc0
  refine (pay11_apply _ s p).trans ?_
  exact congrArg (fun t => (s (ix2 p 0) : EReal) + t) (Finset.sum_congr rfl fun q _ => pay10_apply fr fc sr sc lr lc p q)

/-- One point's step of the count of equal labels, at row p. -/
theorem acc1_apply (lr : Vec Ideal S512x1 .i32) (lc : Vec Ideal S1x2048 .i32) (s : Vec Ideal S512x1 .f32) (p : Fin 512) :
    Tile.acc1 (F := Ideal) lr lc s (ix2 p 0)
      = (s (ix2 p 0) : EReal) + ∑ q : Fin 2048, Terms.indicator (lr (ix2 p 0) = lc (ix2 0 q)) := by
  unfold Tile.acc1
  refine (pay12_apply _ s p).trans ?_
  exact congrArg (fun t => (s (ix2 p 0) : EReal) + t) (Finset.sum_congr rfl fun q _ => countEntry_apply lr lc p q)

/-- One point's step of the sum of weighted negative terms, at row p. -/
theorem acc2_apply (fr : Vec Ideal S512x512 .bf16) (fc : Vec Ideal S2048x512 .bf16) (sr : Vec Ideal S512x1 .f32)
    (sc : Vec Ideal S1x2048 .f32) (lr : Vec Ideal S512x1 .i32) (lc : Vec Ideal S1x2048 .i32) (s : Vec Ideal S512x1 .f32)
    (p : Fin 512) :
    Tile.acc2 (F := Ideal) fr fc sr sc lr lc s (ix2 p 0)
      = (s (ix2 p 0) : EReal)
        + ∑ q : Fin 2048, Terms.negTerm (lr (ix2 p 0) = lc (ix2 0 q)) (pairDist fr fc sr sc p q) := by
  unfold Tile.acc2
  refine (pay14_apply _ _ s p).trans ?_
  exact congrArg (fun t => (s (ix2 p 0) : EReal) + t) (Finset.sum_congr rfl fun q _ => negProduct_apply fr fc sr sc lr lc p q)

/-- One point's step of the sum of weights, at row p. -/
theorem acc3_apply (fr : Vec Ideal S512x512 .bf16) (fc : Vec Ideal S2048x512 .bf16) (sr : Vec Ideal S512x1 .f32)
    (sc : Vec Ideal S1x2048 .f32) (lr : Vec Ideal S512x1 .i32) (lc : Vec Ideal S1x2048 .i32) (s : Vec Ideal S512x1 .f32)
    (p : Fin 512) :
    Tile.acc3 (F := Ideal) fr fc sr sc lr lc s (ix2 p 0)
      = (s (ix2 p 0) : EReal)
        + ∑ q : Fin 2048, Terms.weight (lr (ix2 p 0) = lc (ix2 0 q)) (pairDist fr fc sr sc p q) := by
  unfold Tile.acc3
  refine (pay1_apply _ s p).trans ?_
  exact congrArg (fun t => (s (ix2 p 0) : EReal) + t) (Finset.sum_congr rfl fun q _ => pay13_apply fr fc sr sc lr lc p q)

end Cert.KernelIdeal.TileValue

end
-- ==== Proof.TileValueOut.lean ====
/-
  A row tile's output column: the row's loss from its four sums over both column tiles.

  After the second column tile the program combines the four running columns: the positive terms over the count of
  equal labels less one (the row itself) raised by a small constant, plus the weighted negative terms over the
  weights raised by the same constant. Each running column was restarted from zero at the first column tile and
  continued at the second, so at row p each sum is (0 + the sum over the first tile's 2048 columns) + the sum over
  the second tile's, of the pair's term.
-/
import proofs.«123260_j10256381903181_2_alg».proof.Proof.TileValueSums

noncomputable section

namespace Cert.KernelIdeal.TileValue

open Idealize.ShloMosaic Idealize.ShloMosaic.ValueIdx Cert.KernelIdeal Cert.KernelIdeal.Gen

/-- The combination of the four running columns, read at one entry: the row's loss with the count less one. -/
theorem pay2_apply (c s0 s2 s3 : Vec Ideal S512x1 .f32) (j : S512x1.Idx) :
    k0_pay2 (F := Ideal) c s0 s2 s3 j = Terms.rowLoss (s0 j) ((c j : EReal) - 1) (s2 j) (s3 j) := by
  unfold k0_pay2 Terms.rowLoss
  show Ideal.div (s0 j) (((c j : EReal) - Ideal.ofBits .f32 0x3F800000#32) + Ideal.ofBits .f32 0x3727C5AC#32)
      + Ideal.div (s2 j) ((s3 j : EReal) + Ideal.ofBits .f32 0x3727C5AC#32) = _
  rw [Terms.one_word]

/-- THE OUTPUT COLUMN OF A ROW TILE AT ROW p: the row's loss from the four sums over the two column tiles, each sum
    grouped as the program accumulates it, each term the function of 'Terms' of the pair's squared norms, inner
    product and label equality. -/
theorem outTile_apply (fr : Vec Ideal S512x512 .bf16) (fc0 fc1 : Vec Ideal S2048x512 .bf16) (sr : Vec Ideal S512x1 .f32)
    (sc0 sc1 : Vec Ideal S1x2048 .f32) (lr : Vec Ideal S512x1 .i32) (lc0 lc1 : Vec Ideal S1x2048 .i32) (p : Fin 512) :
    Tile.outTile (F := Ideal) fr fc0 fc1 sr sc0 sc1 lr lc0 lc1 (ix2 p 0)
      = Terms.rowLoss
          (Terms.twoTileSum
            (fun q => Terms.maskedPos (lr (ix2 p 0) = lc0 (ix2 0 q)) (Terms.dist (sr (ix2 p 0)) (sc0 (ix2 0 q)) (∑ k : Fin 512, (fr (ix2 p k) : EReal) * (fc0 (ix2 q k) : EReal))))
            (fun q => Terms.maskedPos (lr (ix2 p 0) = lc1 (ix2 0 q)) (Terms.dist (sr (ix2 p 0)) (sc1 (ix2 0 q)) (∑ k : Fin 512, (fr (ix2 p k) : EReal) * (fc1 (ix2 q k) : EReal)))))
          (Terms.twoTileSum
            (fun q => Terms.indicator (lr (ix2 p 0) = lc0 (ix2 0 q)))
            (fun q => Terms.indicator (lr (ix2 p 0) = lc1 (ix2 0 q))) - 1)
          (Terms.twoTileSum
            (fun q => Terms.negTerm (lr (ix2 p 0) = lc0 (ix2 0 q)) (Terms.dist (sr (ix2 p 0)) (sc0 (ix2 0 q)) (∑ k : Fin 512, (fr (ix2 p k) : EReal) * (fc0 (ix2 q k) : EReal))))
            (fun q => Terms.negTerm (lr (ix2 p 0) = lc1 (ix2 0 q)) (Terms.dist (sr (ix2 p 0)) (sc1 (ix2 0 q)) (∑ k : Fin 512, (fr (ix2 p k) : EReal) * (fc1 (ix2 q k) : EReal)))))
          (Terms.twoTileSum
            (fun q => Terms.weight (lr (ix2 p 0) = lc0 (ix2 0 q)) (Terms.dist (sr (ix2 p 0)) (sc0 (ix2 0 q)) (∑ k : Fin 512, (fr (ix2 p k) : EReal) * (fc0 (ix2 q k) : EReal))))
            (fun q => Terms.weight (lr (ix2 p 0) = lc1 (ix2 0 q)) (Terms.dist (sr (ix2 p 0)) (sc1 (ix2 0 q)) (∑ k : Fin 512, (fr (ix2 p k) : EReal) * (fc1 (ix2 q k) : EReal))))) := by
  unfold Tile.outTile
  refine (pay2_apply _ _ _ _ _).trans ?_
  rw [acc0_apply, acc0_apply, pay3_apply, acc1_apply, acc1_apply, pay4_apply, acc2_apply, acc2_apply, pay5_apply,
    acc3_apply, acc3_apply, pay6_apply]
  rfl

end Cert.KernelIdeal.TileValue

end
-- ==== Proof.Spec.lean ====
/-
  The two arrangements of the pairwise ranked-list loss, as functions of the feature matrix and the labels.

  Both take, for each row i, four sums over the columns j of terms of the pair (i, j): the positive terms of the
  selected pairs, their count, the weighted negative terms and the weights; a row's loss is Terms.rowLoss of the four,
  and the result is the mean of the rows' losses: zero plus their sum, divided by the f32 word of 4096.

  * The TILED arrangement ('Kloss', 'Kmean') selects a positive pair by equal labels alone, so the diagonal pair
    (i, i) is selected; it sums each term over two column tiles of 2048 columns, restarting from zero at the first
    (Terms.twoTileSum), and corrects the count by subtracting one. The squared norms are a parameter
    'sq', because the tiled program receives them from a sum computed beforehand.
  * The PLAIN arrangement ('Rloss', 'Rval') selects a positive pair by equal labels off the diagonal, sums each
    term over all 4096 columns from zero, and counts the selected pairs as a natural number.
-/
import proofs.«123260_j10256381903181_2_alg».proof.Proof.Terms
import Idealize.ShloMosaic.PureOps.Ideal
import Idealize.ShloMosaic.Lib.ValueIdx

noncomputable section

open scoped BigOperators

namespace Cert.Spec

open Idealize.ShloMosaic Idealize.ShloMosaic.ValueIdx Cert.Terms

/-- The feature matrix's index set: 4096 rows of 512 features. -/
abbrev SX : Shape := ⟨2, ![4096, 512]⟩

/-- The inner product of rows i and j. -/
def dot (x : SX.Idx → EReal) (i j : Fin 4096) : EReal := ∑ k : Fin 512, x (ix2 i k) * x (ix2 j k)

/-- The squared norm of row i as both programs' first sum computes it: zero plus the sum of the squares. -/
def rowSq (x : SX.Idx → EReal) (i : Fin 4096) : EReal := 0 + ∑ k : Fin 512, x (ix2 i k) * x (ix2 i k)

/-- The distance of the pair (i, j), from squared norms 'sq'. -/
def pdist (x : SX.Idx → EReal) (sq : Fin 4096 → EReal) (i j : Fin 4096) : EReal := dist (sq i) (sq j) (dot x i j)

/-- Column q of the first tile of 2048 columns. -/
def lo (q : Fin 2048) : Fin 4096 := ⟨q.val, by omega⟩
/-- Column q of the second tile of 2048 columns. -/
def hi (q : Fin 2048) : Fin 4096 := ⟨2048 + q.val, by omega⟩

/-- A term of the pairs of row i summed the tiled way: over the two column tiles, from zero. -/
def tiled (f : Fin 4096 → EReal) : EReal := twoTileSum (fun q => f (lo q)) (fun q => f (hi q))

/-- The tiled arrangement's loss of row i. -/
def Kloss (x : SX.Idx → EReal) (sq : Fin 4096 → EReal) (lab : Fin 4096 → BitVec 32) (i : Fin 4096) : EReal :=
  rowLoss
    (tiled fun j => maskedPos (lab i = lab j) (pdist x sq i j))
    (tiled (fun j => indicator (lab i = lab j)) - 1)
    (tiled fun j => negTerm (lab i = lab j) (pdist x sq i j))
    (tiled fun j => weight (lab i = lab j) (pdist x sq i j))

/-- The tiled arrangement's result: zero plus the sum of the rows' losses, over the f32 word of 4096. -/
def Kmean (x : SX.Idx → EReal) (sq : Fin 4096 → EReal) (lab : Fin 4096 → BitVec 32) : EReal :=
  Ideal.div (0 + ∑ i : Fin 4096, Kloss x sq lab i) (Ideal.ofBits .f32 0x45800000#32)

/-- The number of positive pairs of row i: equal labels off the diagonal. -/
def posCount (lab : Fin 4096 → BitVec 32) (i : Fin 4096) : ℕ :=
  (Finset.univ.filter fun j : Fin 4096 => lab i = lab j ∧ i ≠ j).card

/-- The plain arrangement's loss of row i. -/
def Rloss (x : SX.Idx → EReal) (lab : Fin 4096 → BitVec 32) (i : Fin 4096) : EReal :=
  rowLoss
    (0 + ∑ j : Fin 4096, maskedPos (lab i = lab j ∧ i ≠ j) (pdist x (rowSq x) i j))
    (((posCount lab i : ℕ) : ℝ) : EReal)
    (0 + ∑ j : Fin 4096, negTerm (lab i = lab j) (pdist x (rowSq x) i j))
    (0 + ∑ j : Fin 4096, weight (lab i = lab j) (pdist x (rowSq x) i j))

/-- The plain arrangement's result. -/
def Rval (x : SX.Idx → EReal) (lab : Fin 4096 → BitVec 32) : EReal :=
  Ideal.div (0 + ∑ i : Fin 4096, Rloss x lab i) (Ideal.ofBits .f32 0x45800000#32)

end Cert.Spec

end
-- ==== Proof.TileToRow.lean ====
/-
  From a row tile to a row of the matrix: when the blocks a row tile works on are restrictions of the feature matrix,
  of its rows' squared norms and of the labels, the tile's output at its row p is the tiled arrangement's loss of the
  matrix's row 512 I + p.
-/
import proofs.«123260_j10256381903181_2_alg».proof.Proof.TileValueOut
import proofs.«123260_j10256381903181_2_alg».proof.Proof.Spec

noncomputable section

open scoped BigOperators

namespace Cert.KernelIdeal.TileToRow

open Idealize.ShloMosaic Idealize.ShloMosaic.ValueIdx Cert.KernelIdeal Cert.KernelIdeal.Gen

/-- Row p of row tile I, as a row of the matrix. -/
def rowOf (I : Fin 8) (p : Fin 512) : Fin 4096 := ⟨512 * I.val + p.val, by have := I.isLt; have := p.isLt; omega⟩

/-- The output of row tile I at its row p is the tiled arrangement's loss of row 512 I + p, when the tile's blocks are
    the matching restrictions: 'fr' the tile's 512 rows of the matrix, 'fc0' / 'fc1' the rows of the two column tiles,
    'sr', 'sc0', 'sc1' the squared norms of those rows, 'lr', 'lc0', 'lc1' their labels. -/
theorem outTile_row (x : Cert.Spec.SX.Idx → EReal) (lab : Fin 4096 → BitVec 32) (I : Fin 8) (p : Fin 512)
    (fr : Vec Ideal S512x512 .bf16) (fc0 fc1 : Vec Ideal S2048x512 .bf16) (sr : Vec Ideal S512x1 .f32)
    (sc0 sc1 : Vec Ideal S1x2048 .f32) (lr : Vec Ideal S512x1 .i32) (lc0 lc1 : Vec Ideal S1x2048 .i32)
    (hfr : ∀ (p : Fin 512) (k : Fin 512), (fr (ix2 p k) : EReal) = x (ix2 (rowOf I p) k))
    (hfc0 : ∀ (q : Fin 2048) (k : Fin 512), (fc0 (ix2 q k) : EReal) = x (ix2 (Cert.Spec.lo q) k))
    (hfc1 : ∀ (q : Fin 2048) (k : Fin 512), (fc1 (ix2 q k) : EReal) = x (ix2 (Cert.Spec.hi q) k))
    (hsr : ∀ p : Fin 512, (sr (ix2 p (0 : Fin 1)) : EReal) = Cert.Spec.rowSq x (rowOf I p))
    (hsc0 : ∀ q : Fin 2048, (sc0 (ix2 (0 : Fin 1) q) : EReal) = Cert.Spec.rowSq x (Cert.Spec.lo q))
    (hsc1 : ∀ q : Fin 2048, (sc1 (ix2 (0 : Fin 1) q) : EReal) = Cert.Spec.rowSq x (Cert.Spec.hi q))
    (hlr : ∀ p : Fin 512, (lr (ix2 p (0 : Fin 1)) : BitVec 32) = lab (rowOf I p))
    (hlc0 : ∀ q : Fin 2048, (lc0 (ix2 (0 : Fin 1) q) : BitVec 32) = lab (Cert.Spec.lo q))
    (hlc1 : ∀ q : Fin 2048, (lc1 (ix2 (0 : Fin 1) q) : BitVec 32) = lab (Cert.Spec.hi q)) :
    Tile.outTile (F := Ideal) fr fc0 fc1 sr sc0 sc1 lr lc0 lc1 (ix2 p (0 : Fin 1))
      = Cert.Spec.Kloss x (Cert.Spec.rowSq x) lab (rowOf I p) := by
  rw [TileValue.outTile_apply]
  simp only [hfr, hfc0, hfc1, hsr, hsc0, hsc1, hlr, hlc0, hlc1]
  rfl

end Cert.KernelIdeal.TileToRow

end
-- ==== Proof.HostSide.lean ====
/-
  The tiled program's operations outside its region, read at an index over abstract arguments: the change of format of
  the feature matrix is the identity; the squared norms, set as a column and as a row, read the row's squared norm;
  the labels set as a column and as a row read the row's label; and the mean that closes the program is zero plus the sum
  of the column of row losses, over the f32 word of 4096.
-/
import proofs.«123260_j10256381903181_2_alg».proof.Proof.Gen.KernelIdeal
import proofs.«123260_j10256381903181_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HostSide

open Cert.KernelIdeal Cert.KernelIdeal.Gen Idealize.ShloMosaic Idealize.ShloMosaic.ValueIdx

/-- The feature matrix in the narrower format reads the feature matrix: a change of format is the identity on the
    extended reals. -/
theorem truncf_apply (x : FVec Ideal S4096x512 .f32) (idx : S4096x512.Idx) :
    (truncf .bf16 x bitsLt_bf16_f32 : FVec Ideal S4096x512 .bf16) idx = x idx := rfl

/-- The squared norms as the program's first sum computes them. -/
def sqv (x : FVec Ideal S4096x512 .f32) : FVec Ideal S4096 .f32 :=
  Host.reduceAdd (F := Ideal) (mulf x x) (constant S_ .f32 0x00000000#32) reducesTo_S4096x512_S4096_d1 h_S_

/-- At row r it is the row's squared norm. -/
theorem sqv_apply (x : FVec Ideal S4096x512 .f32) (r : Fin 4096) : sqv x (ix1 r) = Cert.Spec.rowSq x r := by
  have h : S4096x512.Reduces [1] S4096 := by decide
  unfold sqv
  simp only [Host.reduceAdd, Ideal.hostReduceAdd_def]
  rw [Ideal.hostReduceAdd_single reducesTo_S4096x512_S4096_d1 h]
  have e0 : (constant (F := Ideal) S_ .f32 0x00000000#32) (Shape.Idx.first h_S_) = (0 : EReal) := Cert.Terms.zero_word
  rw [e0]
  refine congrArg (0 + ·) (Finset.sum_congr rfl fun k _ => ?_)
  have e : h.lift (ix1 r) k = ix2 r k :=
    funext fun a => Fin.ext (by match a with | ⟨0, _⟩ => rfl | ⟨1, _⟩ => rfl)
  rw [e]
  rfl

/-- A vector of 4096 set as a column reads, at row r, its entry r. -/
theorem col_apply {α : Type} (y : S4096.Idx → α) (r : Fin 4096) (u : Fin 1) :
    broadcastInDim S4096x1 ![0] bcast_S4096_S4096x1_0 y (ix2 r u) = y (ix1 r) :=
  broadcastInDim_apply _ bcast_S4096_S4096x1_0 y (ix2 r u) (ix1 r) (fun a => match a with
    | ⟨0, _⟩ => by show r.val = if (4096 : Nat) = 1 then 0 else r.val; rw [if_neg (by decide)])

/-- A vector of 4096 set as a row reads, at column j, its entry j. -/
theorem row_apply {α : Type} (y : S4096.Idx → α) (u : Fin 1) (j : Fin 4096) :
    broadcastInDim S1x4096 ![1] bcast_S4096_S1x4096_1 y (ix2 u j) = y (ix1 j) :=
  broadcastInDim_apply _ bcast_S4096_S1x4096_1 y (ix2 u j) (ix1 j) (fun a => match a with
    | ⟨0, _⟩ => by show j.val = if (4096 : Nat) = 1 then 0 else j.val; rw [if_neg (by decide)])

/-- The column of squared norms at row r. -/
theorem sqCol_apply (x : FVec Ideal S4096x512 .f32) (r : Fin 4096) :
    (broadcastInDim S4096x1 ![0] bcast_S4096_S4096x1_0 (sqv x)) (ix2 r (0 : Fin 1)) = Cert.Spec.rowSq x r := by
  rw [col_apply, sqv_apply]

/-- The row of squared norms at column j. -/
theorem sqRow_apply (x : FVec Ideal S4096x512 .f32) (j : Fin 4096) :
    (broadcastInDim S1x4096 ![1] bcast_S4096_S1x4096_1 (sqv x)) (ix2 (0 : Fin 1) j) = Cert.Spec.rowSq x j := by
  rw [row_apply, sqv_apply]

/-- The column of labels at row r. -/
theorem labCol_apply (l : IVec S4096 32) (r : Fin 4096) :
    (broadcastInDim S4096x1 ![0] bcast_S4096_S4096x1_0 l) (ix2 r (0 : Fin 1)) = l (ix1 r) :=
  col_apply l r 0

/-- The row of labels at column j. -/
theorem labRow_apply (l : IVec S4096 32) (j : Fin 4096) :
    (broadcastInDim S1x4096 ![1] bcast_S4096_S1x4096_1 l) (ix2 (0 : Fin 1) j) = l (ix1 j) :=
  row_apply l 0 j

/-- THE TAIL: the sum of a column of 4096 entries from the zero word, divided by the f32 word of 4096, is zero plus the sum
    of the entries over that word. -/
theorem mean_apply (y : FVec Ideal S4096x1 .f32) :
    Host.divf (Host.reduceAdd (F := Ideal) y (constant S_ .f32 0x00000000#32) reducesTo_S4096x1_S_d0_1 h_S_)
        (constant S_ .f32 0x45800000#32) ix0
      = Ideal.div (0 + ∑ i : Fin 4096, y (ix2 i (0 : Fin 1))) (Ideal.ofBits .f32 0x45800000#32) := by
  show Ideal.div (Host.reduceAdd (F := Ideal) y (constant S_ .f32 0x00000000#32) reducesTo_S4096x1_S_d0_1 h_S_ ix0)
    (Ideal.ofBits .f32 0x45800000#32) = _
  congr 1
  simp only [Host.reduceAdd, Ideal.hostReduceAdd_def]
  rw [Ideal.hostReduceAdd_total reducesTo_S4096x1_S_d0_1 (fun b => b.elim0) y _ ix0, sum_idx2]
  have e0 : (constant (F := Ideal) S_ .f32 0x00000000#32) (Shape.Idx.first h_S_) = (0 : EReal) := Cert.Terms.zero_word
  rw [e0]
  refine congrArg (0 + ·) (Finset.sum_congr rfl fun i _ => ?_)
  exact Fin.sum_univ_one _

end Cert.KernelIdeal.HostSide

end
-- ==== Proof.RowValueI.lean ====
/-
  A row of the output column, as the tiled arrangement's loss of that row of the feature matrix.

  Row r of the output lies in row tile r / 512 at position r % 512 and is written back at the odd point
  t = 2 (r / 512) + 1. There the four running sums hold the sums over both column tiles: the even point t - 1 (column
  tile 0, restarted from zero) and t itself (column tile 1). The row-tile windows hold the same blocks at both points;
  every block is a restriction of the rounded features (which, on the extended reals, are the features), of the
  squared norms or of the labels. So the entry is the tile's output for those restrictions: the loss of row r.
-/
import proofs.«123260_j10256381903181_2_alg».proof.Proof.FinalI
import proofs.«123260_j10256381903181_2_alg».proof.Proof.HostPrefixI
import proofs.«123260_j10256381903181_2_alg».proof.Proof.TileToRow
import proofs.«123260_j10256381903181_2_alg».proof.Proof.HostSide

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Each block as a restriction of the features, their squared norms, the labels -/

theorem blk0_feats (c : Dev nD) (t : Fin cfg0.N) (p k : Fin 512) :
    (iblk m ρ c 0 t (ix2 p k) : EReal) = feats m ρ c (ix2 (rowOf t p) k) := by
  rw [iblk0_apply, V_main_v0]
  rfl

theorem blk1_feats (c : Dev nD) (t : Fin cfg0.N) (q : Fin 2048) (k : Fin 512) :
    (iblk m ρ c 1 t (ix2 q k) : EReal) = feats m ρ c (ix2 (colOf t q) k) := by
  rw [iblk1_apply, V_main_v0]
  rfl

theorem blk2_sq (c : Dev nD) (t : Fin cfg0.N) (p : Fin 512) :
    (iblk m ρ c 2 t (ix2 p (0 : Fin 1)) : EReal) = Cert.Spec.rowSq (feats m ρ c) (rowOf t p) := by
  rw [iblk2_apply, V_main_v3]
  exact HostSide.sqCol_apply (feats m ρ c) (rowOf t p)

theorem blk3_sq (c : Dev nD) (t : Fin cfg0.N) (q : Fin 2048) :
    (iblk m ρ c 3 t (ix2 (0 : Fin 1) q) : EReal) = Cert.Spec.rowSq (feats m ρ c) (colOf t q) := by
  rw [iblk3_apply, V_main_v4]
  exact HostSide.sqRow_apply (feats m ρ c) (colOf t q)

theorem blk4_lab (c : Dev nD) (t : Fin cfg0.N) (p : Fin 512) :
    (iblk m ρ c 4 t (ix2 p (0 : Fin 1)) : BitVec 32) = labels m ρ c (ix1 (rowOf t p)) := by
  rw [iblk4_apply, V_main_v5]
  exact HostSide.labCol_apply (labels m ρ c) (rowOf t p)

theorem blk5_lab (c : Dev nD) (t : Fin cfg0.N) (q : Fin 2048) :
    (iblk m ρ c 5 t (ix2 (0 : Fin 1) q) : BitVec 32) = labels m ρ c (ix1 (colOf t q)) := by
  rw [iblk5_apply, V_main_v6]
  exact HostSide.labRow_apply (labels m ρ c) (colOf t q)

/-! ## The row-tile windows hold the same blocks at an odd point and at the even point before it -/

theorem rowOf_prev (t : Fin cfg0.N) (h : t.val % 2 = 1) (p : Fin 512) : rowOf (prev t) p = rowOf t p :=
  Fin.ext (by show 512 * ((t.val - 1) / 2) + p.val = 512 * (t.val / 2) + p.val; omega)

theorem iblk0_prev (c : Dev nD) (t : Fin cfg0.N) (h : t.val % 2 = 1) :
    (iblk m ρ c 0 (prev t) : Vec Ideal S512x512 .bf16) = iblk m ρ c 0 t := by
  funext j
  obtain ⟨p, k, rfl⟩ : ∃ (p : Fin 512) (k : Fin 512), j = ix2 p k := ⟨j 0, j 1, eq_ix2 j⟩
  rw [iblk0_apply, iblk0_apply, rowOf_prev t h]

theorem iblk2_prev (c : Dev nD) (t : Fin cfg0.N) (h : t.val % 2 = 1) :
    (iblk m ρ c 2 (prev t) : Vec Ideal S512x1 .f32) = iblk m ρ c 2 t := by
  funext j
  obtain ⟨p, u, rfl⟩ : ∃ (p : Fin 512) (u : Fin 1), j = ix2 p u := ⟨j 0, j 1, eq_ix2 j⟩
  obtain rfl : u = 0 := Subsingleton.elim _ _
  rw [iblk2_apply, iblk2_apply, rowOf_prev t h]

theorem iblk4_prev (c : Dev nD) (t : Fin cfg0.N) (h : t.val % 2 = 1) :
    (iblk m ρ c 4 (prev t) : Vec Ideal S512x1 .i32) = iblk m ρ c 4 t := by
  funext j
  obtain ⟨p, u, rfl⟩ : ∃ (p : Fin 512) (u : Fin 1), j = ix2 p u := ⟨j 0, j 1, eq_ix2 j⟩
  obtain rfl : u = 0 := Subsingleton.elim _ _
  rw [iblk4_apply, iblk4_apply, rowOf_prev t h]

/-! ## The output column at an odd point is the tile's output of the blocks of the two points -/

theorem outAt_odd (c : Dev nD) (t : Fin cfg0.N) (h : t.val % 2 = 1) :
    outAt m ρ c t
      = Tile.outTile (F := Ideal) (iblk m ρ c 0 t) (iblk m ρ c 1 (prev t)) (iblk m ρ c 1 t) (iblk m ρ c 2 t)
          (iblk m ρ c 3 (prev t)) (iblk m ρ c 3 t) (iblk m ρ c 4 t) (iblk m ρ c 5 (prev t)) (iblk m ρ c 5 t) := by
  unfold outAt
  rw [run0_odd m ρ c t h, run1_odd m ρ c t h, run2_odd m ρ c t h, run3_odd m ρ c t h,
    run0_even m ρ c (prev t) (prev_even t h), run1_even m ρ c (prev t) (prev_even t h),
    run2_even m ρ c (prev t) (prev_even t h), run3_even m ρ c (prev t) (prev_even t h),
    iblk0_prev m ρ c t h, iblk2_prev m ρ c t h, iblk4_prev m ρ c t h]
  rfl

/-! ## The row -/

/-- ROW r OF THE OUTPUT COLUMN AFTER THE RUN is the tiled arrangement's loss of row r of the features as launched,
    with their squared norms and the labels as launched. -/
theorem row_value (c : Dev nD) (r : Fin 4096) :
    (dats (F := Ideal) m ρ 0 c).arrAt 6 cfg0.N (ix2 r (0 : Fin 1))
      = Cert.Spec.Kloss (feats m ρ c) (Cert.Spec.rowSq (feats m ρ c)) (fun i => labels m ρ c (ix1 i)) r := by
  rw [final6_apply]
  have hr : r.val < 4096 := r.isLt
  have hI : r.val / 512 < 8 := by omega
  have htv : (lastPt r.val r.isLt).val = 2 * (r.val / 512) + 1 := rfl
  generalize lastPt r.val r.isLt = t at htv
  have hodd : t.val % 2 = 1 := by omega
  have hpv : (prev t).val = 2 * (r.val / 512) := by show t.val - 1 = _; omega
  have hrow : ∀ p : Fin 512, rowOf t p = TileToRow.rowOf ⟨r.val / 512, hI⟩ p := fun p =>
    Fin.ext (by show 512 * (t.val / 2) + p.val = 512 * (r.val / 512) + p.val; omega)
  have hlo : ∀ q : Fin 2048, colOf (prev t) q = Cert.Spec.lo q := fun q =>
    Fin.ext (by show 2048 * ((prev t).val % 2) + q.val = q.val; omega)
  have hhi : ∀ q : Fin 2048, colOf t q = Cert.Spec.hi q := fun q =>
    Fin.ext (by show 2048 * (t.val % 2) + q.val = 2048 + q.val; omega)
  rw [outAt_odd m ρ c t hodd]
  refine (TileToRow.outTile_row (feats m ρ c) (fun i => labels m ρ c (ix1 i)) ⟨r.val / 512, hI⟩ (inTile r.val)
    (iblk m ρ c 0 t) (iblk m ρ c 1 (prev t)) (iblk m ρ c 1 t) (iblk m ρ c 2 t) (iblk m ρ c 3 (prev t)) (iblk m ρ c 3 t)
    (iblk m ρ c 4 t) (iblk m ρ c 5 (prev t)) (iblk m ρ c 5 t)
    (fun p k => by rw [blk0_feats, hrow])
    (fun q k => by rw [blk1_feats, hlo])
    (fun q k => by rw [blk1_feats, hhi])
    (fun p => by rw [blk2_sq, hrow])
    (fun q => by rw [blk3_sq, hlo])
    (fun q => by rw [blk3_sq, hhi])
    (fun p => by rw [blk4_lab, hrow])
    (fun q => by rw [blk5_lab, hlo])
    (fun q => by rw [blk5_lab, hhi])).trans ?_
  exact congrArg (Cert.Spec.Kloss (feats m ρ c) (Cert.Spec.rowSq (feats m ρ c)) (fun i => labels m ρ c (ix1 i)))
    (Fin.ext (by show 512 * (r.val / 512) + r.val % 512 = r.val; omega))

end Cert.KernelIdeal.Hand

end
-- ==== Proof.Algebra.lean ====
/-
  The tiled and the plain arrangement of the loss agree on a feature matrix of real numbers.

  Three facts carry it. (a) A sum over two column tiles of 2048 columns, restarted from zero, is the sum over the 4096
  columns: addition of extended reals is associative. (b) On the diagonal the inner product of a row with itself is its
  squared norm; for a real row the squared distance (s + s) - 2 s is then zero, the distance is the square root of the
  floor constant, about 1e-6, and the positive term max (that - 0.8) 0 is zero: selecting the diagonal pair adds nothing
  to the positive sum. This is where the entries must be real: at an infinity s + s - 2 s is not zero. (c) The diagonal
  pair always has equal labels, so the tiled count is one more than the number of positive pairs off the diagonal, and
  subtracting one gives that number.
-/
import proofs.«123260_j10256381903181_2_alg».proof.Proof.Spec

noncomputable section

open scoped BigOperators

namespace Cert.Algebra

open Idealize.ShloMosaic Idealize.ShloMosaic.ValueIdx Cert.Terms Cert.Spec

/-! ## (a) Two tiles of 2048 columns are the 4096 columns -/

/-- A term summed the tiled way is zero plus its sum over all columns. -/
theorem tiled_eq (f : Fin 4096 → EReal) : tiled f = 0 + ∑ j : Fin 4096, f j := by
  have h : ∑ j : Fin 4096, f j
      = ∑ q : Fin 2048, f (Fin.castAdd 2048 q) + ∑ q : Fin 2048, f (Fin.natAdd 2048 q) :=
    Fin.sum_univ_add (a := 2048) (b := 2048) f
  unfold tiled twoTileSum
  rw [add_assoc, h]
  rfl

/-! ## The three constants that are evaluated -/

/-- The f32 word 0x40000000 is two. -/
theorem two_word : Ideal.ofBits .f32 0x40000000#32 = ((2 : ℝ) : EReal) := by
  simp [Ideal.ofBits, Ideal.ieee, -EReal.coe_mul]; norm_num

/-- The floor of the squared distance, the f32 word nearest 1e-12, is 9223372 / 2^63. -/
theorem floor_word : Ideal.ofBits .f32 0x2B8CBCCC#32 = ((9223372 / 2 ^ 63 : ℝ) : EReal) := by
  simp [Ideal.ofBits, Ideal.ieee, -EReal.coe_mul]; norm_num

/-- The margin constant, the f32 word nearest -0.8, is -(13421773 / 2^24). -/
theorem margin_word : Ideal.ofBits .f32 0xBF4CCCCD#32 = ((-(13421773 / 2 ^ 24) : ℝ) : EReal) := by
  simp [Ideal.ofBits, Ideal.ieee, -EReal.coe_mul]; norm_num

/-! ## (b) The diagonal pair adds nothing to the positive sum -/

/-- The coercion from the reals passes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The positive term of the distance at the floor, sqrt (9223372 / 2^63) - 13421773 / 2^24 cut off at zero, is zero. -/
theorem posTerm_floor : posTerm (Ideal.sqrt (Ideal.ofBits .f32 0x2B8CBCCC#32)) = 0 := by
  unfold posTerm
  rw [floor_word, Ideal.sqrt_coe, if_neg (by norm_num), margin_word, ← EReal.coe_add]
  refine max_eq_right ?_
  have h : Real.sqrt (9223372 / 2 ^ 63) ≤ 13421773 / 2 ^ 24 :=
    Real.sqrt_le_iff.mpr ⟨by norm_num, by norm_num⟩
  exact_mod_cast (by linarith : Real.sqrt (9223372 / 2 ^ 63) + -(13421773 / 2 ^ 24) ≤ (0 : ℝ))

/-- For a real number s the distance built from squared norms s, s and inner product s is the square root of the floor:
    the squared distance (s + s) - 2 s is zero, below the floor. -/
theorem dist_self (s : ℝ) : Terms.dist (s : EReal) (s : EReal) (s : EReal) = Ideal.sqrt (Ideal.ofBits .f32 0x2B8CBCCC#32) := by
  unfold Terms.dist sqDist
  rw [two_word, ← EReal.coe_add, ← EReal.coe_mul, ← EReal.coe_sub, show s + s - 2 * s = 0 by ring, EReal.coe_zero]
  congr 1
  refine max_eq_left ?_
  rw [floor_word]
  exact_mod_cast (by norm_num : (0 : ℝ) ≤ 9223372 / 2 ^ 63)

/-- On a matrix of real numbers the diagonal pair's positive term is zero. -/
theorem posTerm_diag (x : SX.Idx → EReal) (hx : ∀ idx, ∃ r : ℝ, x idx = (r : EReal)) (i : Fin 4096) :
    posTerm (pdist x (rowSq x) i i) = 0 := by
  choose r hr using hx
  have hS : dot x i i = ((∑ k : Fin 512, r (ix2 i k) * r (ix2 i k) : ℝ) : EReal) := by
    unfold dot
    rw [coe_sum]
    exact Finset.sum_congr rfl fun k _ => by rw [hr, EReal.coe_mul]
  have hq : rowSq x i = ((∑ k : Fin 512, r (ix2 i k) * r (ix2 i k) : ℝ) : EReal) := by
    show 0 + dot x i i = _
    rw [zero_add, hS]
  unfold pdist
  rw [hq, hS, dist_self, posTerm_floor]

/-- The positive sum: selecting the diagonal as well changes nothing. -/
theorem tiled_pos (x : SX.Idx → EReal) (hx : ∀ idx, ∃ r : ℝ, x idx = (r : EReal)) (lab : Fin 4096 → BitVec 32)
    (i : Fin 4096) :
    tiled (fun j => maskedPos (lab i = lab j) (pdist x (rowSq x) i j))
      = 0 + ∑ j : Fin 4096, maskedPos (lab i = lab j ∧ i ≠ j) (pdist x (rowSq x) i j) := by
  rw [tiled_eq]
  refine congrArg (0 + ·) (Finset.sum_congr rfl fun j _ => ?_)
  unfold maskedPos
  by_cases hij : i = j
  · subst hij
    rw [if_pos rfl, if_neg (fun h => h.2 rfl), posTerm_diag x hx]
  · by_cases hl : lab i = lab j
    · rw [if_pos hl, if_pos ⟨hl, hij⟩]
    · rw [if_neg hl, if_neg (fun h => hl h.1)]

/-! ## (c) The count -/

/-- A sum of indicators is the number of indices at which the condition holds. -/
theorem sum_indicator {ι : Type} (s : Finset ι) (P : ι → Prop) [DecidablePred P] :
    ∑ j ∈ s, indicator (P j) = (((s.filter P).card : ℝ) : EReal) := by
  classical
  induction s using Finset.induction_on with
  | empty => simp
  | insert a s ha ih =>
    rw [Finset.sum_insert ha, ih, Finset.filter_insert]
    unfold indicator
    by_cases h : P a
    · rw [if_pos h, if_pos h, Finset.card_insert_of_notMem (fun hm => ha (Finset.mem_filter.1 hm).1),
        ← EReal.coe_one, ← EReal.coe_add]
      congr 1
      push_cast
      ring
    · rw [if_neg h, if_neg h, zero_add]

/-- The pairs of row i with equal labels are its positive pairs and the diagonal pair. -/
theorem card_same (lab : Fin 4096 → BitVec 32) (i : Fin 4096) :
    (Finset.univ.filter fun j : Fin 4096 => lab i = lab j).card = posCount lab i + 1 := by
  have e : (Finset.univ.filter fun j : Fin 4096 => lab i = lab j)
      = insert i (Finset.univ.filter fun j : Fin 4096 => lab i = lab j ∧ i ≠ j) := by
    ext j
    simp only [Finset.mem_filter, Finset.mem_univ, true_and, Finset.mem_insert]
    constructor
    · intro h
      by_cases e : j = i
      · exact Or.inl e
      · exact Or.inr ⟨h, fun e' => e e'.symm⟩
    · rintro (rfl | ⟨h, _⟩)
      · rfl
      · exact h
  rw [e, Finset.card_insert_of_notMem (by simp)]
  rfl

/-- The tiled count less one is the number of positive pairs. -/
theorem tiled_count (lab : Fin 4096 → BitVec 32) (i : Fin 4096) :
    tiled (fun j => indicator (lab i = lab j)) - 1 = (((posCount lab i : ℕ) : ℝ) : EReal) := by
  rw [tiled_eq, zero_add, sum_indicator, card_same, ← EReal.coe_one, ← EReal.coe_sub]
  congr 1
  push_cast
  ring

/-! ## The two arrangements agree -/

/-- Row by row. -/
theorem Kloss_eq (x : SX.Idx → EReal) (hx : ∀ idx, ∃ r : ℝ, x idx = (r : EReal)) (lab : Fin 4096 → BitVec 32)
    (i : Fin 4096) : Kloss x (rowSq x) lab i = Rloss x lab i := by
  unfold Kloss Rloss
  rw [tiled_pos x hx, tiled_count, tiled_eq, tiled_eq]

/-- THE LAW: on a feature matrix of real numbers the tiled arrangement, fed the squared norms the plain one computes,
    gives the plain arrangement's result. -/
theorem Kmean_eq (x : SX.Idx → EReal) (hx : ∀ idx, ∃ r : ℝ, x idx = (r : EReal)) (lab : Fin 4096 → BitVec 32) :
    Kmean x (rowSq x) lab = Rval x lab := by
  unfold Kmean Rval
  simp only [Kloss_eq x hx]

end Cert.Algebra

end
-- ==== Proof.RefValue.lean ====
/-
  The plain program's result, read back index by index: each stage of its run is the corresponding piece of the
  plain arrangement Spec.Rval of the feature matrix and the labels.
-/
import proofs.«123260_j10256381903181_2_alg».proof.Proof.Gen.ReferenceIdeal.Read
import proofs.«123260_j10256381903181_2_alg».proof.Proof.Spec
import Idealize.ShloMosaic.Lib.IndicatorCount
import Idealize.ShloMosaic.Lib.WordArith

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Terms Cert.Spec

/-- The feature matrix as the plain program holds it. -/
abbrev XT : Type := (⟨S4096x512, .f32⟩ : BufTy).Contents (Elt Ideal)
/-- The labels as the plain program holds them. -/
abbrev LT : Type := (⟨S4096, .i32⟩ : BufTy).Contents (Elt Ideal)

/-- The labels by row number. -/
def labOf (x1 : LT) : Fin 4096 → BitVec 32 := fun i => x1 (ix1 i)

/-! ## Index equations: the composed index functions of the read-back stages, at coordinates -/

theorem idx_v1 (p : Fin 4096) (k : Fin 512) : idx_main_v1 (ix1 p) k = ix2 p k :=
  funext fun a => Fin.ext (by match a with | ⟨0, _⟩ => rfl | ⟨1, _⟩ => rfl)
theorem idx_v2 (p : Fin 4096) (u : Fin 1) : idx_main_v2 (ix2 p u) = ix1 p :=
  funext fun a => Fin.ext (by match a with | ⟨0, _⟩ => rfl)
theorem idx_v3 (u : Fin 1) (q : Fin 4096) : idx_main_v3 (ix2 u q) = ix1 q :=
  funext fun a => Fin.ext (by match a with | ⟨0, _⟩ => rfl)
theorem idx_v4 (p q : Fin 4096) : idx_main_v4 (ix2 p q) = ix2 p (0 : Fin 1) :=
  funext fun a => Fin.ext (by match a with | ⟨0, _⟩ => rfl | ⟨1, _⟩ => rfl)
theorem idx_v5 (p q : Fin 4096) : idx_main_v5 (ix2 p q) = ix2 (0 : Fin 1) q :=
  funext fun a => Fin.ext (by match a with | ⟨0, _⟩ => rfl | ⟨1, _⟩ => rfl)
theorem lidx_v8 (p q : Fin 4096) (k : Fin 512) : lidx_main_v8 (ix2 p q) k = ix2 p k :=
  funext fun a => Fin.ext (by match a with | ⟨0, _⟩ => rfl | ⟨1, _⟩ => rfl)
theorem ridx_v8 (p q : Fin 4096) (k : Fin 512) : ridx_main_v8 (ix2 p q) k = ix2 k q :=
  funext fun a => Fin.ext (by match a with | ⟨0, _⟩ => rfl | ⟨1, _⟩ => rfl)
theorem idx_v7 (k : Fin 512) (q : Fin 4096) : idx_main_v7 (ix2 k q) = ix2 q k :=
  funext fun a => Fin.ext (by match a with | ⟨0, _⟩ => rfl | ⟨1, _⟩ => rfl)

/-! ## The distance of a pair -/

/-- The first sum at row p is the row's squared norm. -/
theorem sq_apply (x0 : XT) (p : Fin 4096) : val_main_v1 (F := Ideal) x0 (ix1 p) = rowSq x0 p := by
  rw [val_main_v1_apply]
  simp only [val_main_v0_apply, val_main_cst_apply, idx_v1, Ideal.mulf_def, Ideal.ofBits_def, zero_word]
  rfl

/-- The matrix product at (p, q) is the inner product of rows p and q. -/
theorem dot_apply (x0 : XT) (p q : Fin 4096) : val_main_v8 (F := Ideal) x0 (ix2 p q) = dot x0 p q := by
  rw [val_main_v8_apply]
  simp only [val_main_v7_apply, lidx_v8, ridx_v8, idx_v7]
  rfl

/-- The square root stage at (p, q) is the distance of the pair. -/
theorem dist_apply (x0 : XT) (p q : Fin 4096) :
    val_main_v13 (F := Ideal) x0 (ix2 p q) = pdist x0 (rowSq x0) p q := by
  rw [val_main_v13_apply, val_main_v12_apply, val_main_call0_v1_apply, val_main_call0_v0_apply, val_main_cst_1_apply,
    val_main_v11_apply, val_main_v6_apply, val_main_v4_apply, val_main_v2_apply, val_main_v5_apply, val_main_v3_apply,
    val_main_v10_apply, val_main_v9_apply, val_main_cst_0_apply, dot_apply]
  simp only [idx_v4, idx_v2, idx_v5, idx_v3, sq_apply, Ideal.hostUnary_sqrt_def, Ideal.maximumf_def, Ideal.subf_def,
    Ideal.addf_def, Ideal.mulf_def, Ideal.ofBits_def]
  rfl

/-! ## Selection bits as propositions -/

/-- Row numbers below 4096 are equal exactly when their 32-bit words are. -/
theorem ofNat_eq_iff (p q : Fin 4096) : BitVec.ofNat 32 p.val = BitVec.ofNat 32 q.val ↔ p = q := by
  constructor
  · intro h
    have e := congrArg BitVec.toNat h
    rw [BitVec.toNat_ofNat, BitVec.toNat_ofNat, Nat.mod_eq_of_lt (by have := p.isLt; omega),
      Nat.mod_eq_of_lt (by have := q.isLt; omega)] at e
    exact Fin.ext e
  · rintro rfl; rfl

/-- A one-bit "c and not d" is 1 exactly when c holds and d fails. -/
theorem andi_not_ofBool (c d : Bool) :
    IntOp.andi (BitVec.ofBool c) (~~~ BitVec.ofBool d) = 1#1 ↔ (c = true ∧ d = false) := by
  cases c <;> cases d <;> decide

/-- A one-bit "not c and d" is 1 exactly when c fails and d holds. -/
theorem andi_not_ofBool' (c d : Bool) :
    IntOp.andi (~~~ BitVec.ofBool c) (BitVec.ofBool d) = 1#1 ↔ (c = false ∧ d = true) := by
  cases c <;> cases d <;> decide

/-- A select on a bit that is 1 exactly when P holds is the 'if' on P. -/
theorem select_of_iff {α : Type} (w : BitVec 1) (P : Prop) [Decidable P] (h : w = 1#1 ↔ P) (A B : α) :
    Scalar.select w A B = if P then A else B := by
  unfold Scalar.select
  by_cases hp : P
  · rw [if_pos hp]; exact if_pos (h.mpr hp)
  · rw [if_neg hp]; exact if_neg (fun e => hp (h.mp e))

/-- The positive-pair bit: equal label words, and row numbers that differ. -/
theorem posBit_iff (a b : BitVec 32) (p q : Fin 4096) :
    IntOp.andi (IntOp.cmpi .eq a b)
      (~~~ IntOp.cmpi .eq (IntOp.addi (BitVec.ofNat 32 p.val) 0#32) (BitVec.ofNat 32 q.val)) = 1#1
      ↔ (a = b ∧ p ≠ q) := by
  show IntOp.andi (BitVec.ofBool (a == b))
    (~~~ BitVec.ofBool (BitVec.ofNat 32 p.val + 0#32 == BitVec.ofNat 32 q.val)) = 1#1 ↔ _
  rw [andi_not_ofBool, beq_iff_eq, beq_eq_false_iff_ne, BitVec.add_zero, Ne, ofNat_eq_iff]

/-- The negative-pair bit: different label words, and a distance below the boundary. -/
theorem negBit_iff (a b : BitVec 32) (t c : EReal) :
    IntOp.andi (~~~ IntOp.cmpi .eq a b) (Ideal.cmp .olt t c) = 1#1 ↔ (¬a = b ∧ t < c) := by
  show IntOp.andi (~~~ BitVec.ofBool (a == b)) (BitVec.ofBool (decide (t < c))) = 1#1 ↔ _
  rw [andi_not_ofBool', beq_eq_false_iff_ne, decide_eq_true_iff]

/-! ## The terms of a pair -/

theorem idx_v14 (p : Fin 4096) (u : Fin 1) : idx_main_v14 (ix2 p u) = ix1 p :=
  funext fun a => Fin.ext (by match a with | ⟨0, _⟩ => rfl)
theorem idx_v15 (u : Fin 1) (q : Fin 4096) : idx_main_v15 (ix2 u q) = ix1 q :=
  funext fun a => Fin.ext (by match a with | ⟨0, _⟩ => rfl)
theorem idx_v16 (p q : Fin 4096) : idx_main_v16 (ix2 p q) = ix2 p (0 : Fin 1) :=
  funext fun a => Fin.ext (by match a with | ⟨0, _⟩ => rfl | ⟨1, _⟩ => rfl)
theorem idx_v17 (p q : Fin 4096) : idx_main_v17 (ix2 p q) = ix2 (0 : Fin 1) q :=
  funext fun a => Fin.ext (by match a with | ⟨0, _⟩ => rfl | ⟨1, _⟩ => rfl)

/-- The label comparison at (p, q) compares the labels of rows p and q. -/
theorem same_apply (x1 : LT) (p q : Fin 4096) :
    val_main_v18 (F := Ideal) x1 (ix2 p q) = IntOp.cmpi .eq (labOf x1 p) (labOf x1 q) := by
  rw [val_main_v18_apply, val_main_v16_apply, val_main_v14_apply, val_main_v17_apply, val_main_v15_apply]
  simp only [idx_v16, idx_v14, idx_v17, idx_v15]
  rfl

/-- The positive-pair selection at (p, q): equal labels, off the diagonal. -/
theorem posSel_apply (x1 : LT) (p q : Fin 4096) :
    val_main_v25 (F := Ideal) x1 (ix2 p q) = 1#1 ↔ (labOf x1 p = labOf x1 q ∧ p ≠ q) := by
  rw [val_main_v25_apply, same_apply, val_main_v24_apply, val_main_v23_apply, val_main_v22_apply, val_main_v19_apply,
    val_main_v21_apply, val_main_c_apply, val_main_v20_apply]
  exact posBit_iff _ _ p q

/-- The masked positive term at (p, q). -/
theorem pos_apply (x0 : XT) (x1 : LT) (p q : Fin 4096) :
    val_main_v31 (F := Ideal) x0 x1 (ix2 p q)
      = maskedPos (labOf x1 p = labOf x1 q ∧ p ≠ q) (pdist x0 (rowSq x0) p q) := by
  rw [val_main_v31_apply, select_of_iff _ _ (posSel_apply x1 p q), val_main_v30_apply, val_main_v28_apply, dist_apply,
    val_main_v27_apply, val_main_cst_2_apply, val_main_v29_apply, val_main_cst_3_apply, val_main_call1_v1_apply,
    val_main_call1_v0_apply, val_main_cst_4_apply]
  simp only [Ideal.maximumf_def, Ideal.addf_def, Ideal.ofBits_def, zero_word]
  rfl

/-- The weight at (p, q). -/
theorem weight_apply (x0 : XT) (x1 : LT) (p q : Fin 4096) :
    val_main_v47 (F := Ideal) x0 x1 (ix2 p q) = weight (labOf x1 p = labOf x1 q) (pdist x0 (rowSq x0) p q) := by
  rw [val_main_v47_apply, val_main_v41_apply, val_main_v26_apply, same_apply, val_main_v40_apply, dist_apply,
    val_main_v39_apply, val_main_cst_8_apply, val_main_v46_apply, val_main_v45_apply, val_main_v44_apply,
    val_main_cst_10_apply, val_main_v43_apply, val_main_v42_apply, val_main_cst_9_apply, dist_apply,
    val_main_call2_v1_apply, val_main_call2_v0_apply, val_main_cst_11_apply]
  simp only [Ideal.cmpf_def, Ideal.ofBits_def, Ideal.hostUnary_exp_def, Ideal.mulf_def, Ideal.subf_def, zero_word]
  rw [select_of_iff _ _ (negBit_iff _ _ _ _)]
  rfl

/-- The weighted negative term at (p, q). -/
theorem neg_apply (x0 : XT) (x1 : LT) (p q : Fin 4096) :
    val_main_v50 (F := Ideal) x0 x1 (ix2 p q) = negTerm (labOf x1 p = labOf x1 q) (pdist x0 (rowSq x0) p q) := by
  rw [val_main_v50_apply, val_main_v49_apply, val_main_v48_apply, val_main_cst_12_apply, dist_apply, weight_apply]
  simp only [Ideal.ofBits_def, Ideal.mulf_def, Ideal.subf_def]
  rfl

/-! ## The four sums of a row -/

theorem idx_v32 (p k : Fin 4096) : idx_main_v32 (ix1 p) k = ix2 p k :=
  funext fun a => Fin.ext (by match a with | ⟨0, _⟩ => rfl | ⟨1, _⟩ => rfl)
theorem idx_v51 (p k : Fin 4096) : idx_main_v51 (ix1 p) k = ix2 p k :=
  funext fun a => Fin.ext (by match a with | ⟨0, _⟩ => rfl | ⟨1, _⟩ => rfl)
theorem idx_v52 (p k : Fin 4096) : idx_main_v52 (ix1 p) k = ix2 p k :=
  funext fun a => Fin.ext (by match a with | ⟨0, _⟩ => rfl | ⟨1, _⟩ => rfl)

/-- The sum of the masked positive terms of row p. -/
theorem posSum_apply (x0 : XT) (x1 : LT) (p : Fin 4096) :
    val_main_v32 (F := Ideal) x0 x1 (ix1 p)
      = 0 + ∑ q : Fin 4096, maskedPos (labOf x1 p = labOf x1 q ∧ p ≠ q) (pdist x0 (rowSq x0) p q) := by
  rw [val_main_v32_apply, val_main_cst_5_apply]
  simp only [idx_v32, pos_apply, Ideal.ofBits_def, zero_word]

/-- The sum of the weighted negative terms of row p. -/
theorem negSum_apply (x0 : XT) (x1 : LT) (p : Fin 4096) :
    val_main_v51 (F := Ideal) x0 x1 (ix1 p)
      = 0 + ∑ q : Fin 4096, negTerm (labOf x1 p = labOf x1 q) (pdist x0 (rowSq x0) p q) := by
  rw [val_main_v51_apply, val_main_cst_13_apply]
  simp only [idx_v51, neg_apply, Ideal.ofBits_def, zero_word]

/-- The sum of the weights of row p. -/
theorem weightSum_apply (x0 : XT) (x1 : LT) (p : Fin 4096) :
    val_main_v52 (F := Ideal) x0 x1 (ix1 p)
      = 0 + ∑ q : Fin 4096, weight (labOf x1 p = labOf x1 q) (pdist x0 (rowSq x0) p q) := by
  rw [val_main_v52_apply, val_main_cst_14_apply]
  simp only [idx_v52, weight_apply, Ideal.ofBits_def, zero_word]

/-- The index the integer sum of row p reads at column k. -/
theorem lift_eq (h : S4096x4096.Reduces [1] S4096) (p k : Fin 4096) : h.lift (ix1 p) k = ix2 p k :=
  funext fun a => Fin.ext (by match a with | ⟨0, _⟩ => rfl | ⟨1, _⟩ => rfl)

/-- The integer sum of the selection bits of row p is the number of its positive pairs, as a 32-bit word. -/
theorem count_apply (x1 : LT) (p : Fin 4096) :
    val_main_v34 (F := Ideal) x1 (ix1 p) = BitVec.ofNat 32 (posCount (labOf x1) p) := by
  have h : S4096x4096.Reduces [1] S4096 := by decide
  unfold val_main_v34
  rw [Host.reduce_eq_fold_single IntOp.addi _ _ reducesTo_S4096x4096_S4096_d1 h h_S_]
  have e2 : (val_main_v33 (F := Ideal) x1 ∘ h.lift (ix1 p))
      = fun k : Fin 4096 => (val_main_v25 (F := Ideal) x1 (ix2 p k)).setWidth 32 := by
    funext k
    exact (congrArg (val_main_v33 (F := Ideal) x1) (lift_eq h p k)).trans (val_main_v33_apply x1 (ix2 p k))
  rw [e2]
  refine (IndicatorCount.fold_addi_setWidth_eq_card (w := 32)
    (fun k : Fin 4096 => val_main_v25 (F := Ideal) x1 (ix2 p k)) Finset.univ).trans ?_
  exact congrArg (BitVec.ofNat 32) (congrArg Finset.card (Finset.filter_congr fun q _ => posSel_apply x1 p q))

/-- A row has at most 4096 positive pairs. -/
theorem posCount_le (lab : Fin 4096 → BitVec 32) (p : Fin 4096) : posCount lab p ≤ 4096 := by
  unfold posCount
  exact (Finset.card_filter_le _ _).trans (by simp)

/-- The count of row p as a float: the number of its positive pairs. -/
theorem countF_apply (x1 : LT) (p : Fin 4096) :
    val_main_v35 (F := Ideal) x1 (ix1 p) = (((posCount (labOf x1) p : ℕ) : ℝ) : EReal) := by
  rw [val_main_v35_apply, count_apply]
  show (((BitVec.ofNat 32 (posCount (labOf x1) p)).toInt : ℝ) : EReal) = _
  rw [WordArith.toInt_ofNat_small _ (by have := posCount_le (labOf x1) p; omega)]
  simp

/-- The loss of row p. -/
theorem loss_apply (x0 : XT) (x1 : LT) (p : Fin 4096) :
    val_main_v56 (F := Ideal) x0 x1 (ix1 p) = Rloss x0 (labOf x1) p := by
  rw [val_main_v56_apply, val_main_v38_apply, val_main_v37_apply, val_main_v36_apply, val_main_cst_7_apply,
    val_main_v55_apply, val_main_v54_apply, val_main_v53_apply, val_main_cst_15_apply, posSum_apply, countF_apply,
    negSum_apply, weightSum_apply]
  simp only [Ideal.addf_def, Ideal.hostDivf_def, Ideal.ofBits_def]
  rfl

/-! ## The result -/

/-- A rank-1 index set of 4096 is its coordinate's range. -/
def idxEquiv1 : S4096.Idx ≃ Fin 4096 where
  toFun i := i 0
  invFun p := ix1 p
  left_inv i := (eq_ix1 i).symm
  right_inv _ := rfl

/-- THE PLAIN PROGRAM'S RESULT is the plain arrangement of the loss of the feature matrix and the labels. -/
theorem result_eq (x0 : XT) (x1 : LT) :
    val_main_v58 (F := Ideal) x0 x1 = fun _ => Rval x0 (labOf x1) := by
  funext i
  rw [val_main_v58_apply, val_main_v57_apply, val_main_cst_16_apply, val_main_cst_17_apply,
    ← Equiv.sum_comp idxEquiv1.symm]
  simp only [Ideal.hostDivf_def, Ideal.ofBits_def, zero_word]
  show Ideal.div (0 + ∑ p : Fin 4096, val_main_v56 (F := Ideal) x0 x1 (ix1 p)) _ = _
  simp only [loss_apply]
  rfl

end Cert.ReferenceIdeal.RefValue

end
-- ==== Proof.Finite.lean ====
/-
  The precondition decoded: when the printed predicate "every entry of the float input is below +∞ in
  absolute value" evaluates to the one-bit word 1, every entry of the float input is a real number.
-/
import proofs.«123260_j10256381903181_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx

instance : Subsingleton Cert.Pre_finite_inputs.S_.Idx := ⟨fun a b => funext fun d => d.elim0⟩

/-- The f32 word 0x7F800000 is +∞. -/
theorem ofBits_inf : Ideal.ofBits .f32 0x7F800000#32 = (⊤ : EReal) := by
  simp [Ideal.ofBits, Ideal.ieee]

/-- An extended real whose absolute value max x (−x) is strictly below +∞ is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- Under the precondition every entry of the float input is a real number. -/
theorem entries_real [Cert.Pre_finite_inputs.Facts]
    (a : FVec Ideal Cert.Pre_finite_inputs.S4096x512 .f32) (l : IVec Cert.Pre_finite_inputs.S4096 32)
    (h : Cert.Pre_finite_inputs.fn (F := Ideal) a l = (fun _ => 1#1)) :
    ∀ idx : Cert.Pre_finite_inputs.S4096x512.Idx, ∃ r : ℝ, a idx = (r : EReal) := by
  intro idx
  have h0 := congrFun h ix0
  dsimp only [Cert.Pre_finite_inputs.fn] at h0
  have e := Host.reduce_andi_all _ _ _ _ _ h0 idx
  have e' : Ideal.cmp .olt (max (a idx) (-(a idx))) (Ideal.ofBits .f32 0x7F800000#32) = 1#1 := e
  rw [ofBits_inf] at e'
  refine real_of_abs_lt_top (a idx) ?_
  by_contra hn
  have e0 : Ideal.cmp .olt (max (a idx) (-(a idx))) (⊤ : EReal) = 0#1 := by
    show BitVec.ofBool (decide (max (a idx) (-(a idx)) < (⊤ : EReal))) = 0#1
    rw [decide_eq_false hn]; rfl
  rw [e0] at e'
  exact absurd e' (by decide)

end Cert.Finite

end
-- ==== Proof.ValueI.lean ====
/-
  The kernel program's result as the reference's.

  After the run the result buffer holds the sum of the output column, from zero, divided by the row count. Row by row the output
  column is the kernel's row loss — the positive term masked by equal labels alone, diagonal included, its count lowered by one, each
  sum accumulated over the two column tiles —, so the result is the mean of those row losses. Where every feature is finite that
  mean is the reference's: the diagonal's positive term is zero, the lowered count is the count over the other rows, and sums
  regroup.
-/
import proofs.«123260_j10256381903181_2_alg».proof.Proof.LaunchI
import proofs.«123260_j10256381903181_2_alg».proof.Proof.RowValueI
import proofs.«123260_j10256381903181_2_alg».proof.Proof.HostSide
import proofs.«123260_j10256381903181_2_alg».proof.Proof.Algebra
import proofs.«123260_j10256381903181_2_alg».proof.Proof.RefValue
import proofs.«123260_j10256381903181_2_alg».proof.Proof.Finite
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The last four host operations, from the output column's array as the pipeline left it. -/
theorem resultOf_eq (c : Dev nD) :
    (resultOf (F := Ideal) m ρ c : S_.Idx → EReal) = Host.divf (Host.reduceAdd (F := Ideal) ((dats (F := Ideal) m ρ 0 c).arrAt 6 cfg0.N) (constant S_ .f32 0x00000000#32) reducesTo_S4096x1_S_d0_1 h_S_) (constant S_ .f32 0x45800000#32) := by
  unfold resultOf
  show StableHlo.after hostOps1 (V1 m ρ c) (Proc.devRef .tc main_v9) = _
  after_results
  rw [V1_out]

/-- The result is the mean of the kernel's row losses. -/
theorem result_value (c : Dev nD) :
    (resultOf (F := Ideal) m ρ c : S_.Idx → EReal)
      = fun _ => Cert.Spec.Kmean (feats m ρ c) (Cert.Spec.rowSq (feats m ρ c)) (fun i => labels m ρ c (ix1 i)) := by
  rw [resultOf_eq]
  funext i
  obtain rfl : i = ix0 := funext fun d => d.elim0
  rw [Cert.KernelIdeal.HostSide.mean_apply]
  unfold Cert.Spec.Kmean
  exact congrArg (fun s => Ideal.div (0 + s) (Ideal.ofBits .f32 0x45800000#32)) (Finset.sum_congr rfl fun r _ => row_value m ρ c r)

/-- Where every feature is finite, the result is the reference's value of the same arguments. -/
theorem result_ref [Cert.Pre_finite_inputs.Facts] (c : Dev nD)
    (hpre : Cert.Pre_finite_inputs.fn (F := Ideal) (m ((c : Thread nD τ).loc main_arg0)) (m ((c : Thread nD τ).loc main_arg1)) = fun _ => 1#1) :
    (resultOf (F := Ideal) m ρ c : S_.Idx → EReal)
      = fun _ => Cert.Spec.Rval (m ((c : Thread nD τ).loc main_arg0)) (Cert.ReferenceIdeal.RefValue.labOf (m ((c : Thread nD τ).loc main_arg1))) := by
  rw [result_value]
  funext _
  exact Cert.Algebra.Kmean_eq _ (Cert.Finite.entries_real _ _ hpre) _

end Cert.KernelIdeal.Hand

end
-- ==== Proof.lean ====
/-
  Ranked-list loss over 4096 feature rows of width 512 with integer labels: the tiled kernel against the plain reference.

  Both programs form, for every pair of rows (i, j), the distance  sqrt (max (1e-12) (|x_i|² + |x_j|² − 2 ⟨x_i, x_j⟩)),  a positive
  term  max (dist − 0.8) 0  over pairs of equal label and an exponentially weighted negative term over pairs of different label closer
  than 1.2, reduce them row by row to  P_i / (count_i + 1e-5) + N_i / (W_i + 1e-5),  and return the mean over the rows.

  The reference masks the positive term by "equal label and i ≠ j" and counts those pairs with an integer sum. The kernel walks a
  grid of 8 row tiles by 2 column tiles, keeps the four row sums in running buffers that restart at the first column tile, masks by
  "equal label" alone — the diagonal included — and lowers the count by one when it forms the row's loss at the last column tile;
  its squared norms come from the same host sum as the reference's, and its inner products from a matrix-unit product of the rounded
  features, which at the exact instance is the same sum of products.

  The two agree wherever the features are finite: then ⟨x_i, x_i⟩ is the real |x_i|², the diagonal's squared distance is 0, its
  distance sqrt (1e-12) is below 0.8 and its positive term is 0; a label equals itself, so the lowered count is the count over
  j ≠ i; and the sums over the two column tiles regroup into the sum over all columns. Finiteness is exactly what the
  precondition provides, and it is needed: the cancellation of |x_i|² against ⟨x_i, x_i⟩ fails at an infinity.

  The three frames: each kernel program's run is its three segments — the host operations before the region, the region (its body
  run once per control case, the rounded features' array dealt in halves to the two windows on it), the host operations after —,
  and the reference's is its list of host operations. The idealization rewrote nothing, so what it must preserve is trivial.
-/
import proofs.«123260_j10256381903181_2_alg».proof.Defs
import proofs.«123260_j10256381903181_2_alg».proof.Proof.Gen.Kernel
import proofs.«123260_j10256381903181_2_alg».proof.Proof.Gen.Kernel.Skeleton
import proofs.«123260_j10256381903181_2_alg».proof.Proof.Gen.Kernel.Launch
import proofs.«123260_j10256381903181_2_alg».proof.Proof.Gen.Kernel.Points
import proofs.«123260_j10256381903181_2_alg».proof.Proof.Gen.KernelIdeal
import proofs.«123260_j10256381903181_2_alg».proof.Proof.Gen.KernelIdeal.Skeleton
import proofs.«123260_j10256381903181_2_alg».proof.Proof.Gen.KernelIdeal.Launch
import proofs.«123260_j10256381903181_2_alg».proof.Proof.Gen.KernelIdeal.Points
import proofs.«123260_j10256381903181_2_alg».proof.Proof.Gen.ReferenceIdeal
import proofs.«123260_j10256381903181_2_alg».proof.Proof.Gen.ReferenceIdeal.Run
import proofs.«123260_j10256381903181_2_alg».proof.Proof.Gen.Pre_finite_inputs
import proofs.«123260_j10256381903181_2_alg».proof.Proof.LaunchK
import proofs.«123260_j10256381903181_2_alg».proof.Proof.ValueI
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ => Cert.Kernel.Hand.frame m ρ

/-- So does its reading at the exact instance. -/
theorem frame_ki : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the reference's value of those arguments: the kernel's
    mean of row losses by the finiteness of the features, the reference's by reading its operations back. -/
theorem algebraic : Cert.algebraic_KernelIdeal_ReferenceIdeal := by
  intro m ρ m' ρ' hpre hagree
  refine ⟨fun c => fun _ => Cert.Spec.Rval (m ((c.tc : Thread Cert.KernelIdeal.nD Cert.KernelIdeal.τ).loc Cert.KernelIdeal.main_arg0))
      (Cert.ReferenceIdeal.RefValue.labOf (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.Hand.result_ref m ρ c (hpre c)), (h c).2⟩)
      (Cert.KernelIdeal.Hand.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v58_eq, Cert.ReferenceIdeal.RefValue.result_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
